-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x6400000 : Shape := ⟨2, ![2, 6400000]⟩
abbrev S200000 : Shape := ⟨1, ![200000]⟩
abbrev S1x8 : Shape := ⟨2, ![1, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S8x8 .f32) (main_arg10 : FVec F S8 .f32) (main_arg11 : FVec F S8x1 .f32) (main_arg12 : FVec F S1 .f32) (main_v33 : IVec S_ 1) : IVec S_ 1 :=
  let main_v34 : FVec F S8x8 .f32 := Host.absf main_arg9
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x1 .f32 := Host.absf main_arg11
  let main_cst_16 : FVec F S_ .f32 := constant S_ .f32 0x7F800000#32
  let main_v45 : FVec F S8x1 .f32 := broadcastInDim S8x1 ![] bcast_S_S8x1 main_cst_16
  let main_v46 : IVec S8x1 1 := cmpf .olt main_v44 main_v45
  let main_c_17 : IVec S_ 1 := constantI S_ 1 1#1
  let main_v47 : IVec S_ 1 := (fun x v => Host.reduce IntOp.andi x v reducesTo_S8x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S8 .f32) (main_arg7 : FVec F S8x8 .f32) (main_arg8 : FVec F S8 .f32) (main_arg9 : FVec F S8x8 .f32) (main_arg10 : FVec F S8 .f32) (main_arg11 : FVec F S8x1 .f32) (main_arg12 : FVec F S1 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg7
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S200000x1 .f32) (main_arg1 : IVec S2x6400000 32) (main_arg2 : IVec S200000 32) (main_arg3 : FVec F S1x8 .f32) (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S8x1 .f32) (main_arg12 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x8 .f32 := Host.absf main_arg3
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg5
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg6 main_arg7 main_arg8 main_arg9 main_arg10 main_arg11 main_arg12 main_v13 main_v16
-- ==== Kernel.lean ====
abbrev S200000x1 : Shape := ⟨2, ![200000, 1]⟩
abbrev S2x6400000 : Shape := ⟨2, ![2, 6400000]⟩
abbrev S200000 : Shape := ⟨1, ![200000]⟩
abbrev S1x8 : Shape := ⟨2, ![1, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S1x200000 : Shape := ⟨2, ![1, 200000]⟩
abbrev S1x200704 : Shape := ⟨2, ![1, 200704]⟩
abbrev S8x200704 : Shape := ⟨2, ![8, 200704]⟩
abbrev S1x4096 : Shape := ⟨2, ![1, 4096]⟩
abbrev S8x4096 : Shape := ⟨2, ![8, 4096]⟩
abbrev S8x200000 : Shape := ⟨2, ![8, 200000]⟩
abbrev S200000x8 : Shape := ⟨2, ![200000, 8]⟩
abbrev S6400000x8 : Shape := ⟨2, ![6400000, 8]⟩
abbrev S1024x8 : Shape := ⟨2, ![1024, 8]⟩
abbrev S1024 : Shape := ⟨1, ![1024]⟩
abbrev S1024x1 : Shape := ⟨2, ![1024, 1]⟩
abbrev S8x1024 : Shape := ⟨2, ![8, 1024]⟩
abbrev S1x1 : Shape := ⟨2, ![1, 1]⟩
abbrev S1x1024 : Shape := ⟨2, ![1, 1024]⟩

abbrev nBuf : Space → Nat
  | .hbm => 94
  | .vmem => 24
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S200000, .i32⟩
  | .hbm, ⟨3, _⟩ => ⟨S1x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x8, .f32⟩
  | .hbm, ⟨10, _⟩ => ⟨S8, .f32⟩
  | .hbm, ⟨11, _⟩ => ⟨S8x1, .f32⟩
  | .hbm, ⟨12, _⟩ => ⟨S1, .f32⟩
  | .hbm, ⟨13, _⟩ => ⟨S1x6400000, .i32⟩
  | .hbm, ⟨14, _⟩ => ⟨S6400000, .i32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x1, .f32⟩
  | .hbm, ⟨26, _⟩ => ⟨S_, .f32⟩
  | .hbm, ⟨27, _⟩ => ⟨S200000x1, .f32⟩
  | .hbm, ⟨28, _⟩ => ⟨S6400000x1, .i32⟩
  | .hbm, ⟨29, _⟩ => ⟨S200000x1, .f32⟩
  | .hbm, ⟨30, _⟩ => ⟨S1x200000, .f32⟩
  | .hbm, ⟨31, _⟩ => ⟨S_, .i32⟩
  | .hbm, ⟨32, _⟩ => ⟨S_, .f32⟩
  | .hbm, ⟨33, _⟩ => ⟨S1x200704, .f32⟩
  | .hbm, ⟨34, _⟩ => ⟨S1x200000, .f32⟩
  | .hbm, ⟨35, _⟩ => ⟨S_, .i32⟩
  | .hbm, ⟨36, _⟩ => ⟨S_, .f32⟩
  | .hbm, ⟨37, _⟩ => ⟨S1x200704, .f32⟩
  | .hbm, ⟨38, _⟩ => ⟨S8x1, .f32⟩
  | .hbm, ⟨39, _⟩ => ⟨S8x1, .f32⟩
  | .hbm, ⟨40, _⟩ => ⟨S8x8, .f32⟩
  | .hbm, ⟨41, _⟩ => ⟨S8x1, .f32⟩
  | .hbm, ⟨42, _⟩ => ⟨S8x200704, .f32⟩
  | .hbm, ⟨43, _⟩ => ⟨S8x200000, .f32⟩
  | .hbm, ⟨44, _⟩ => ⟨S200000x8, .f32⟩
  | .hbm, ⟨45, _⟩ => ⟨S_, .i32⟩
  | .hbm, ⟨46, _⟩ => ⟨S6400000, .i32⟩
  | .hbm, ⟨47, _⟩ => ⟨S6400000, .i1⟩
  | .hbm, ⟨48, _⟩ => ⟨S_, .i32⟩
  | .hbm, ⟨49, _⟩ => ⟨S6400000, .i32⟩
  | .hbm, ⟨50, _⟩ => ⟨S6400000, .i32⟩
  | .hbm, ⟨51, _⟩ => ⟨S6400000, .i32⟩
  | .hbm, ⟨52, _⟩ => ⟨S6400000x1, .i32⟩
  | .hbm, ⟨53, _⟩ => ⟨S6400000x8, .f32⟩
  | .hbm, ⟨54, _⟩ => ⟨S_, .f32⟩
  | .hbm, ⟨55, _⟩ => ⟨S200000x8, .f32⟩
  | .hbm, ⟨56, _⟩ => ⟨S6400000x1, .i32⟩
  | .hbm, ⟨57, _⟩ => ⟨S200000x8, .f32⟩
  | .hbm, ⟨58, _⟩ => ⟨S8x200000, .f32⟩
  | .hbm, ⟨59, _⟩ => ⟨S_, .i32⟩
  | .hbm, ⟨60, _⟩ => ⟨S_, .f32⟩
  | .hbm, ⟨61, _⟩ => ⟨S8x200704, .f32⟩
  | .hbm, ⟨62, _⟩ => ⟨S8x200000, .f32⟩
  | .hbm, ⟨63, _⟩ => ⟨S_, .i32⟩
  | .hbm, ⟨64, _⟩ => ⟨S_, .f32⟩
  | .hbm, ⟨65, _⟩ => ⟨S8x200704, .f32⟩
  | .hbm, ⟨66, _⟩ => ⟨S8x8, .f32⟩
  | .hbm, ⟨67, _⟩ => ⟨S8x1, .f32⟩
  | .hbm, ⟨68, _⟩ => ⟨S8x8, .f32⟩
  | .hbm, ⟨69, _⟩ => ⟨S8x1, .f32⟩
  | .hbm, ⟨70, _⟩ => ⟨S8x200704, .f32⟩
  | .hbm, ⟨71, _⟩ => ⟨S8x200000, .f32⟩
  | .hbm, ⟨72, _⟩ => ⟨S200000x8, .f32⟩
  | .hbm, ⟨73, _⟩ => ⟨S_, .f32⟩
  | .hbm, ⟨74, _⟩ => ⟨S1024x8, .f32⟩
  | .hbm, ⟨75, _⟩ => ⟨S200000x1, .i32⟩
  | .hbm, ⟨76, _⟩ => ⟨S1024x8, .f32⟩
  | .hbm, ⟨77, _⟩ => ⟨S_, .f32⟩
  | .hbm, ⟨78, _⟩ => ⟨S200000, .f32⟩
  | .hbm, ⟨79, _⟩ => ⟨S_, .f32⟩
  | .hbm, ⟨80, _⟩ => ⟨S1024, .f32⟩
  | .hbm, ⟨81, _⟩ => ⟨S200000x1, .i32⟩
  | .hbm, ⟨82, _⟩ => ⟨S1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1024x1, .f32⟩
  | .hbm, ⟨87, _⟩ => ⟨S1024x8, .f32⟩
  | .hbm, ⟨88, _⟩ => ⟨S1024x8, .f32⟩
  | .hbm, ⟨89, _⟩ => ⟨S8x1024, .f32⟩
  | .hbm, ⟨90, _⟩ => ⟨S1x8, .f32⟩
  | .hbm, ⟨91, _⟩ => ⟨S1x1, .f32⟩
  | .hbm, ⟨92, _⟩ => ⟨S1x1024, .f32⟩
  | .hbm, ⟨93, _⟩ => ⟨S1024, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S8x1, .f32⟩
  | .local _ .vmem, ⟨5, _⟩ => ⟨S8x1, .f32⟩
  | .local _ .vmem, ⟨6, _⟩ => ⟨S8x8, .f32⟩
  | .local _ .vmem, ⟨7, _⟩ => ⟨S8x1, .f32⟩
  | .local _ .vmem, ⟨8, _⟩ => ⟨S8x4096, .f32⟩
  | .local _ .vmem, ⟨9, _⟩ => ⟨S8x4096, .f32⟩
  | .local _ .vmem, ⟨10, _⟩ => ⟨S8x4096, .f32⟩
  | .local _ .vmem, ⟨11, _⟩ => ⟨S8x4096, .f32⟩
  | .local _ .vmem, ⟨12, _⟩ => ⟨S8x4096, .f32⟩
  | .local _ .vmem, ⟨13, _⟩ => ⟨S8x4096, .f32⟩
  | .local _ .vmem, ⟨14, _⟩ => ⟨S8x8, .f32⟩
  | .local _ .vmem, ⟨15, _⟩ => ⟨S8x1, .f32⟩
  | .local _ .vmem, ⟨16, _⟩ => ⟨S8x8, .f32⟩
  | .local _ .vmem, ⟨17, _⟩ => ⟨S8x1, .f32⟩
  | .local _ .vmem, ⟨18, _⟩ => ⟨S8x4096, .f32⟩
  | .local _ .vmem, ⟨19, _⟩ => ⟨S8x4096, .f32⟩
  | .local _ .vmem, ⟨20, _⟩ => ⟨S8x1024, .f32⟩
  | .local _ .vmem, ⟨21, _⟩ => ⟨S1x8, .f32⟩
  | .local _ .vmem, ⟨22, _⟩ => ⟨S1x1, .f32⟩
  | .local _ .vmem, ⟨23, _⟩ => ⟨S1x1024, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_call0_v0 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_call2_v0 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_call3_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x1 : S_.BroadcastsInDim S200000x1 (![] : Fin 0 → Fin S200000x1.rank)
  transposes_S200000x1_S1x200000_1_0 : S200000x1.Transposes [1, 0] S1x200000
  pads_S1x200000_S1x200704_000_07040 : S1x200000.Pads (![0, 0] : Fin 2 → Nat) ![0, 704] ![0, 0] S1x200704
  h_S_ : 0 < S_.numel
  transposes_S1x8_S8x1_1_0 : S1x8.Transposes [1, 0] S8x1
  shapeCasts_S8_S8x1 : S8.ShapeCasts S8x1
  transposes_S8x8_S8x8_1_0 : S8x8.Transposes [1, 0] S8x8
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x4096 : S8x1.Broadcasts S8x4096
  broadcasts_S1x4096_S8x4096 : S1x4096.Broadcasts S8x4096
  bitsLt_bf16_f32 : FTy.bits .bf16 < FTy.bits .f32
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S8x4096_S8x4096_0_0 : ∀ a, (![0, 0] : Fin 2 → Nat) a + S8x4096.size a ≤ S8x4096.size a
  h_S8x4096 : 0 < S8x4096.numel
  slices_S8x200704_S8x200000_0_0 : S8x200704.Slices ![0, 0] S8x200000
  transposes_S8x200000_S200000x8_1_0 : S8x200000.Transposes [1, 0] S200000x8
  bcast_S_S200000x8 : S_.BroadcastsInDim S200000x8 (![] : Fin 0 → Fin S200000x8.rank)
  transposes_S200000x8_S8x200000_1_0 : S200000x8.Transposes [1, 0] S8x200000
  pads_S8x200000_S8x200704_000_07040 : S8x200000.Pads (![0, 0] : Fin 2 → Nat) ![0, 704] ![0, 0] S8x200704
  shapeCasts_S8x4096_S8x4096 : S8x4096.ShapeCasts S8x4096
  bcast_S_S1024x8 : S_.BroadcastsInDim S1024x8 (![] : Fin 0 → Fin S1024x8.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x8_0_1 : S1024x1.BroadcastsInDim S1024x8 (![0, 1] : Fin 2 → Fin S1024x8.rank)
  transposes_S1024x8_S8x1024_1_0 : S1024x8.Transposes [1, 0] S8x1024
  transposes_S8x1_S1x8_1_0 : S8x1.Transposes [1, 0] S1x8
  shapeCasts_S1_S1x1 : S1.ShapeCasts S1x1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x1024 : S1x1.Broadcasts S1x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S8x8_S8x4096_S8x4096_1_0_0_1_n_n_wf : DotDims.WF S8x8 S8x4096 S8x4096 [1] [0] [0] [1] [] []
  gather_S200000x8_S6400000x1_S6400000x8_1_0_n_n_0_1_18_wf : GatherDims.WF S200000x8 S6400000x1 S6400000x8 [1] [0] [] [0] [] 1 ![1, 8]
  scatter_S200000x8_S6400000x1_S6400000x8_1_0_0_1_wf : ScatterDims.WF S200000x8 S6400000x1 S6400000x8 [1] [0] [0] 1
  scatter_S1024x8_S200000x1_S200000x8_1_0_0_1_wf : ScatterDims.WF S1024x8 S200000x1 S200000x8 [1] [0] [0] 1
  scatter_S1024_S200000x1_S200000_n_0_0_1_wf : ScatterDims.WF S1024 S200000x1 S200000 [] [0] [0] 1
  dot_S1x8_S8x1024_S1x1024_1_0_0_1_n_n_wf : DotDims.WF S1x8 S8x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x200704.size a
  hwx0_0 : ∀ i : grid0.Coords, EltTy.bits .f32 = 32 ∨ (Rect.block (s := S1x200704) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x200704.size a
  hwx0_1 : ∀ i : grid0.Coords, EltTy.bits .f32 = 32 ∨ (Rect.block (s := S1x200704) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x8.size a ≤ S8x8.size a
  hwx0_4 : ∀ i : grid0.Coords, EltTy.bits .f32 = 32 ∨ (Rect.block (s := S8x8) S8x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x4096.size a ≤ S8x200704.size a
  hwx0_6 : ∀ i : grid0.Coords, EltTy.bits .f32 = 32 ∨ (Rect.block (s := S8x200704) S8x4096.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x4096.size a ≤ S8x200704.size a
  hwx1_0 : ∀ i : grid1.Coords, EltTy.bits .f32 = 32 ∨ (Rect.block (s := S8x200704) S8x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x4096.size a ≤ S8x200704.size a
  hwx1_1 : ∀ i : grid1.Coords, EltTy.bits .f32 = 32 ∨ (Rect.block (s := S8x200704) S8x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x8.size a ≤ S8x8.size a
  hwx1_2 : ∀ i : grid1.Coords, EltTy.bits .f32 = 32 ∨ (Rect.block (s := S8x8) S8x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1.size a ≤ S8x1.size a
  hwx1_3 : ∀ i : grid1.Coords, EltTy.bits .f32 = 32 ∨ (Rect.block (s := S8x1) S8x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x8.size a ≤ S8x8.size a
  hwx1_4 : ∀ i : grid1.Coords, EltTy.bits .f32 = 32 ∨ (Rect.block (s := S8x8) S8x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x1.size a ≤ S8x1.size a
  hwx1_5 : ∀ i : grid1.Coords, EltTy.bits .f32 = 32 ∨ (Rect.block (s := S8x1) S8x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x4096.size a ≤ S8x200704.size a
  hwx1_6 : ∀ i : grid1.Coords, EltTy.bits .f32 = 32 ∨ (Rect.block (s := S8x200704) S8x4096.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8x1024.size a ≤ S8x1024.size a
  hwx2_0 : ∀ i : grid2.Coords, EltTy.bits .f32 = 32 ∨ (Rect.block (s := S8x1024) S8x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)

variable [Facts₀]

def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S8x8_S8x4096_S8x4096_1_0_0_1_n_n : DotDims S8x8 S8x4096 S8x4096 where
  lhsContracting := [1]
  rhsContracting := [0]
  lhsNonContracting := [0]
  rhsNonContracting := [1]
  lhsBatch := []
  rhsBatch := []
  wf := dot_S8x8_S8x4096_S8x4096_1_0_0_1_n_n_wf
def gather_S200000x8_S6400000x1_S6400000x8_1_0_n_n_0_1_18 : GatherDims S200000x8 S6400000x1 S6400000x8 where
  offsetDims := [1]
  collapsedSliceDims := [0]
  operandBatchingDims := []
  startIndicesBatchingDims := []
  startIndexMap := [0]
  indexVectorDim := 1
  sliceSizes := ![1, 8]
  wf := gather_S200000x8_S6400000x1_S6400000x8_1_0_n_n_0_1_18_wf
def scatter_S200000x8_S6400000x1_S6400000x8_1_0_0_1 : ScatterDims S200000x8 S6400000x1 S6400000x8 where
  updateWindowDims := [1]
  insertedWindowDims := [0]
  scatterDimsToOperandDims := [0]
  indexVectorDim := 1
  wf := scatter_S200000x8_S6400000x1_S6400000x8_1_0_0_1_wf
def scatter_S1024x8_S200000x1_S200000x8_1_0_0_1 : ScatterDims S1024x8 S200000x1 S200000x8 where
  updateWindowDims := [1]
  insertedWindowDims := [0]
  scatterDimsToOperandDims := [0]
  indexVectorDim := 1
  wf := scatter_S1024x8_S200000x1_S200000x8_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S1x8_S8x1024_S1x1024_1_0_0_1_n_n : DotDims S1x8 S8x1024 S1x1024 where
  lhsContracting := [1]
  rhsContracting := [0]
  lhsNonContracting := [0]
  rhsNonContracting := [1]
  lhsBatch := []
  rhsBatch := []
  wf := dot_S1x8_S8x1024_S1x1024_1_0_0_1_n_n_wf

abbrev win0_0 : Pipeline.Window sig grid0 :=
  Pipeline.Window.ofSpec (Memref.whole main_v15) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S8x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S8x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S8x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S8x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S8x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S8x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S8x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S8x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S8x4096.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S8x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x1024.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x1 : Shape := ⟨2, ![200000, 1]⟩
abbrev S2x6400000 : Shape := ⟨2, ![2, 6400000]⟩
abbrev S200000 : Shape := ⟨1, ![200000]⟩
abbrev S1x8 : Shape := ⟨2, ![1, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S200000x8 : Shape := ⟨2, ![200000, 8]⟩
abbrev S6400000x8 : Shape := ⟨2, ![6400000, 8]⟩
abbrev S1024x8 : Shape := ⟨2, ![1024, 8]⟩
abbrev S1024 : Shape := ⟨1, ![1024]⟩
abbrev S1024x1 : Shape := ⟨2, ![1024, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S200000, .i32⟩
  | .hbm, ⟨3, _⟩ => ⟨S1x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x8, .f32⟩
  | .hbm, ⟨10, _⟩ => ⟨S8, .f32⟩
  | .hbm, ⟨11, _⟩ => ⟨S8x1, .f32⟩
  | .hbm, ⟨12, _⟩ => ⟨S1, .f32⟩
  | .hbm, ⟨13, _⟩ => ⟨S1x6400000, .i32⟩
  | .hbm, ⟨14, _⟩ => ⟨S6400000, .i32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x1, .f32⟩
  | .hbm, ⟨26, _⟩ => ⟨S_, .f32⟩
  | .hbm, ⟨27, _⟩ => ⟨S200000x1, .f32⟩
  | .hbm, ⟨28, _⟩ => ⟨S6400000x1, .i32⟩
  | .hbm, ⟨29, _⟩ => ⟨S200000x1, .f32⟩
  | .hbm, ⟨30, _⟩ => ⟨S200000x1, .f32⟩
  | .hbm, ⟨31, _⟩ => ⟨S200000x8, .f32⟩
  | .hbm, ⟨32, _⟩ => ⟨S1x8, .f32⟩
  | .hbm, ⟨33, _⟩ => ⟨S200000x8, .f32⟩
  | .hbm, ⟨34, _⟩ => ⟨S200000x8, .f32⟩
  | .hbm, ⟨35, _⟩ => ⟨S_, .f32⟩
  | .hbm, ⟨36, _⟩ => ⟨S200000x8, .f32⟩
  | .hbm, ⟨37, _⟩ => ⟨S200000x8, .f32⟩
  | .hbm, ⟨38, _⟩ => ⟨S200000x8, .f32⟩
  | .hbm, ⟨39, _⟩ => ⟨S1x8, .f32⟩
  | .hbm, ⟨40, _⟩ => ⟨S200000x8, .f32⟩
  | .hbm, ⟨41, _⟩ => ⟨S200000x8, .f32⟩
  | .hbm, ⟨42, _⟩ => ⟨S_, .f32⟩
  | .hbm, ⟨43, _⟩ => ⟨S200000x8, .f32⟩
  | .hbm, ⟨44, _⟩ => ⟨S200000x8, .i1⟩
  | .hbm, ⟨45, _⟩ => ⟨S_, .f32⟩
  | .hbm, ⟨46, _⟩ => ⟨S200000x8, .f32⟩
  | .hbm, ⟨47, _⟩ => ⟨S200000x8, .i1⟩
  | .hbm, ⟨48, _⟩ => ⟨S_, .f32⟩
  | .hbm, ⟨49, _⟩ => ⟨S_, .f32⟩
  | .hbm, ⟨50, _⟩ => ⟨S200000x8, .f32⟩
  | .hbm, ⟨51, _⟩ => ⟨S200000x8, .f32⟩
  | .hbm, ⟨52, _⟩ => ⟨S200000x8, .f32⟩
  | .hbm, ⟨53, _⟩ => ⟨S_, .f32⟩
  | .hbm, ⟨54, _⟩ => ⟨S200000x8, .f32⟩
  | .hbm, ⟨55, _⟩ => ⟨S200000x8, .f32⟩
  | .hbm, ⟨56, _⟩ => ⟨S200000x8, .f32⟩
  | .hbm, ⟨57, _⟩ => ⟨S_, .i32⟩
  | .hbm, ⟨58, _⟩ => ⟨S6400000, .i32⟩
  | .hbm, ⟨59, _⟩ => ⟨S6400000, .i1⟩
  | .hbm, ⟨60, _⟩ => ⟨S_, .i32⟩
  | .hbm, ⟨61, _⟩ => ⟨S6400000, .i32⟩
  | .hbm, ⟨62, _⟩ => ⟨S6400000, .i32⟩
  | .hbm, ⟨63, _⟩ => ⟨S6400000, .i32⟩
  | .hbm, ⟨64, _⟩ => ⟨S6400000x1, .i32⟩
  | .hbm, ⟨65, _⟩ => ⟨S6400000x8, .f32⟩
  | .hbm, ⟨66, _⟩ => ⟨S_, .f32⟩
  | .hbm, ⟨67, _⟩ => ⟨S200000x8, .f32⟩
  | .hbm, ⟨68, _⟩ => ⟨S6400000x1, .i32⟩
  | .hbm, ⟨69, _⟩ => ⟨S200000x8, .f32⟩
  | .hbm, ⟨70, _⟩ => ⟨S200000x8, .f32⟩
  | .hbm, ⟨71, _⟩ => ⟨S200000x8, .f32⟩
  | .hbm, ⟨72, _⟩ => ⟨S1x8, .f32⟩
  | .hbm, ⟨73, _⟩ => ⟨S200000x8, .f32⟩
  | .hbm, ⟨74, _⟩ => ⟨S200000x8, .f32⟩
  | .hbm, ⟨75, _⟩ => ⟨S_, .f32⟩
  | .hbm, ⟨76, _⟩ => ⟨S200000x8, .f32⟩
  | .hbm, ⟨77, _⟩ => ⟨S200000x8, .f32⟩
  | .hbm, ⟨78, _⟩ => ⟨S200000x8, .f32⟩
  | .hbm, ⟨79, _⟩ => ⟨S1x8, .f32⟩
  | .hbm, ⟨80, _⟩ => ⟨S200000x8, .f32⟩
  | .hbm, ⟨81, _⟩ => ⟨S200000x8, .f32⟩
  | .hbm, ⟨82, _⟩ => ⟨S_, .f32⟩
  | .hbm, ⟨83, _⟩ => ⟨S1024x8, .f32⟩
  | .hbm, ⟨84, _⟩ => ⟨S200000x1, .i32⟩
  | .hbm, ⟨85, _⟩ => ⟨S1024x8, .f32⟩
  | .hbm, ⟨86, _⟩ => ⟨S_, .f32⟩
  | .hbm, ⟨87, _⟩ => ⟨S200000, .f32⟩
  | .hbm, ⟨88, _⟩ => ⟨S_, .f32⟩
  | .hbm, ⟨89, _⟩ => ⟨S1024, .f32⟩
  | .hbm, ⟨90, _⟩ => ⟨S200000x1, .i32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024x1, .f32⟩
  | .hbm, ⟨96, _⟩ => ⟨S1024x8, .f32⟩
  | .hbm, ⟨97, _⟩ => ⟨S1024x8, .f32⟩
  | .hbm, ⟨98, _⟩ => ⟨S1024x1, .f32⟩
  | .hbm, ⟨99, _⟩ => ⟨S1x1, .f32⟩
  | .hbm, ⟨100, _⟩ => ⟨S1024x1, .f32⟩
  | .hbm, ⟨101, _⟩ => ⟨S1024x1, .f32⟩
  | .hbm, ⟨102, _⟩ => ⟨S1024x1, .f32⟩
  | .hbm, ⟨103, _⟩ => ⟨S1024x1, .f32⟩
  | .hbm, ⟨104, _⟩ => ⟨S_, .f32⟩
  | .hbm, ⟨105, _⟩ => ⟨S1024x1, .f32⟩
  | .hbm, ⟨106, _⟩ => ⟨S1024x1, .f32⟩
  | .hbm, ⟨107, _⟩ => ⟨S_, .f32⟩
  | .hbm, ⟨108, _⟩ => ⟨S1024x1, .f32⟩
  | .hbm, ⟨109, _⟩ => ⟨S1024x1, .f32⟩
  | .hbm, ⟨110, _⟩ => ⟨S1024, .f32⟩
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_cst_1 : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_v4 : Ref sig .tc := ⟨.hbm, 51, rfl⟩
abbrev main_call1_v5 : Ref sig .tc := ⟨.hbm, 52, rfl⟩
abbrev main_call1_cst_2 : Ref sig .tc := ⟨.hbm, 53, rfl⟩
abbrev main_call1_v6 : Ref sig .tc := ⟨.hbm, 54, rfl⟩
abbrev main_call1_v7 : Ref sig .tc := ⟨.hbm, 55, rfl⟩
abbrev main_v24 : Ref sig .tc := ⟨.hbm, 56, rfl⟩
abbrev main_c_1 : Ref sig .tc := ⟨.hbm, 57, rfl⟩
abbrev main_v25 : Ref sig .tc := ⟨.hbm, 58, rfl⟩
abbrev main_v26 : Ref sig .tc := ⟨.hbm, 59, rfl⟩
abbrev main_c_2 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_3 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call2_cst : Ref sig .tc := ⟨.hbm, 75, rfl⟩
abbrev main_call2_v0 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_4 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_5 : Ref sig .tc := ⟨.hbm, 86, rfl⟩
abbrev main_v48 : Ref sig .tc := ⟨.hbm, 87, rfl⟩
abbrev main_cst_6 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_7 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_8 : Ref sig .tc := ⟨.hbm, 104, rfl⟩
abbrev main_v63 : Ref sig .tc := ⟨.hbm, 105, rfl⟩
abbrev main_v64 : Ref sig .tc := ⟨.hbm, 106, rfl⟩
abbrev main_cst_9 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x1 : S_.BroadcastsInDim S200000x1 (![] : Fin 0 → Fin S200000x1.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S_S200000x8 : S_.BroadcastsInDim S200000x8 (![] : Fin 0 → Fin S200000x8.rank)
  bcast_S_S1024x8 : S_.BroadcastsInDim S1024x8 (![] : Fin 0 → Fin S1024x8.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x8_0_1 : S1024x1.BroadcastsInDim S1024x8 (![0, 1] : Fin 2 → Fin S1024x8.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  shapeCasts_S1024x1_S1024 : S1024x1.ShapeCasts S1024
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S200000x1_S1x8_S200000x8_1_0_0_1_n_n_wf : DotDims.WF S200000x1 S1x8 S200000x8 [1] [0] [0] [1] [] []
  dot_S200000x8_S8x8_S200000x8_1_0_0_1_n_n_wf : DotDims.WF S200000x8 S8x8 S200000x8 [1] [0] [0] [1] [] []
  gather_S200000x8_S6400000x1_S6400000x8_1_0_n_n_0_1_18_wf : GatherDims.WF S200000x8 S6400000x1 S6400000x8 [1] [0] [] [0] [] 1 ![1, 8]
  scatter_S200000x8_S6400000x1_S6400000x8_1_0_0_1_wf : ScatterDims.WF S200000x8 S6400000x1 S6400000x8 [1] [0] [0] 1
  scatter_S1024x8_S200000x1_S200000x8_1_0_0_1_wf : ScatterDims.WF S1024x8 S200000x1 S200000x8 [1] [0] [0] 1
  scatter_S1024_S200000x1_S200000_n_0_0_1_wf : ScatterDims.WF S1024 S200000x1 S200000 [] [0] [0] 1
  dot_S1024x8_S8x1_S1024x1_1_0_0_1_n_n_wf : DotDims.WF S1024x8 S8x1 S1024x1 [1] [0] [0] [1] [] []

variable [Facts₀]

def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S200000x1_S1x8_S200000x8_1_0_0_1_n_n : DotDims S200000x1 S1x8 S200000x8 where
  lhsContracting := [1]
  rhsContracting := [0]
  lhsNonContracting := [0]
  rhsNonContracting := [1]
  lhsBatch := []
  rhsBatch := []
  wf := dot_S200000x1_S1x8_S200000x8_1_0_0_1_n_n_wf
def dot_S200000x8_S8x8_S200000x8_1_0_0_1_n_n : DotDims S200000x8 S8x8 S200000x8 where
  lhsContracting := [1]
  rhsContracting := [0]
  lhsNonContracting := [0]
  rhsNonContracting := [1]
  lhsBatch := []
  rhsBatch := []
  wf := dot_S200000x8_S8x8_S200000x8_1_0_0_1_n_n_wf
def gather_S200000x8_S6400000x1_S6400000x8_1_0_n_n_0_1_18 : GatherDims S200000x8 S6400000x1 S6400000x8 where
  offsetDims := [1]
  collapsedSliceDims := [0]
  operandBatchingDims := []
  startIndicesBatchingDims := []
  startIndexMap := [0]
  indexVectorDim := 1
  sliceSizes := ![1, 8]
  wf := gather_S200000x8_S6400000x1_S6400000x8_1_0_n_n_0_1_18_wf
def scatter_S200000x8_S6400000x1_S6400000x8_1_0_0_1 : ScatterDims S200000x8 S6400000x1 S6400000x8 where
  updateWindowDims := [1]
  insertedWindowDims := [0]
  scatterDimsToOperandDims := [0]
  indexVectorDim := 1
  wf := scatter_S200000x8_S6400000x1_S6400000x8_1_0_0_1_wf
def scatter_S1024x8_S200000x1_S200000x8_1_0_0_1 : ScatterDims S1024x8 S200000x1 S200000x8 where
  updateWindowDims := [1]
  insertedWindowDims := [0]
  scatterDimsToOperandDims := [0]
  indexVectorDim := 1
  wf := scatter_S1024x8_S200000x1_S200000x8_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

class Facts : Prop extends Facts₀ where

variable [Facts]
-- ==== Proof.KerRun.lean ====
/- The kernel program's run with its result kept: from any launch memory (counters zero) every weakly fair execution
   of @main on the TensorCores terminates, nothing faulting, and every unscoped buffer of every core ends at the last
   boundary's contents — the fold `Gen.W15` of @main's host stretches and the three pipelines' write-backs over the
   launch memory. Then the same with the result buffer and the thirteen argument buffers singled out. -/
import proofs.«104349_j31988916420624_1_alg».proof.Proof.Gen.KernelIdeal
import proofs.«104349_j31988916420624_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- THE RUN, every unscoped buffer named: the launch over @main's fifteen segments; the last thread state, read
    against the final memory, says each unscoped buffer of core `c` holds `Gen.W15 m ρ c` there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- THE RUN, the result and the arguments singled out: the result buffer ends at the last boundary's contents, each
    argument buffer as launched (no host operation and no pipeline writes one). -/
theorem result : θ_run defs (onTc (τ := τ) (main (F := F))) ⟨m, fun _ => 0, ρ⟩ (fun r => ∀ c : Dev nD,
      r.2.mem ((c.tc : Thread nD τ).loc main_v62) = Gen.W15 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v62 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c)⟩) (run_all m ρ)

end Cert.KernelIdeal.RunValue

end
-- ==== Proof.LibHostJoin.lean ====
/-
  Reading a line of host operations in one rewriting pass, through two-operand joins.

  The host's `concatenate` takes its operands as a list of (shape, array) pairs. `join2` is the join of TWO arrays
  along an axis with the two arrays as arguments of their own: the same function, restated so that what is known about
  either operand can be rewritten inside it. `host_read` reads what a buffer holds after a literal line of host
  operations (`StableHlo.after ops V` at a buffer): every operation's result at its own buffer becomes its function of
  its operands' contents, at any other buffer what was there before, every two-operand join is restated as `join2`
  on the way, the identity transports between a buffer's own type and its value's type cancel, and what is left is the operations' composed term over `V` at the buffers the line only reads.
-/
import Idealize.ShloMosaic.Lib.StableHlo.Run

noncomputable section

namespace Cert.LibHostJoin

open Idealize.ShloMosaic Idealize.ShloMosaic.StableHlo

/-- The join of two arrays along axis `a`: entry `i` comes from the first array where `i`'s coordinate on `a` is
    below the first array's extent there, from the second otherwise. -/
def join2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- The host's join of a two-element list is `join2` of the two arrays. -/
theorem concatenate_pair {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = join2 t a s₁ s₂ x y h := rfl

/-- Reads `StableHlo.after ops V` at a buffer for a literal line `ops`, in one pass. -/
macro "host_read" : tactic =>
  `(tactic| (simp (disch := decide) only [after_cons, after_nil, concatenate_pair, cast_cast, cast_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibHostJoin

end
-- ==== Proof.Dense.lean ====
/-
  A two-layer graph-isomorphism network on 200000 nodes with 8 hidden features, node axis on the columns.

  The three dense stages, entry by entry over the extended reals, for arrays laid out with the FEATURE on the rows and
  the NODE (or the graph) on the columns:

  * stage one (one input feature): with z n = x n + a n the aggregated input of node n,
      out (j, n) = elu ( (∑ k, W₂ᵀ (j, k) · max (w₁ k · z n + b₁ k) 0) + b₂ j );
  * stage two (eight input features): with z (l, n) = h (l, n) + a (l, n),
      out (j, n) = (∑ k, W₂ᵀ (j, k) · max ((∑ l, W₁ᵀ (k, l) · z (l, n)) + b₁ k) 0) + b₂ j;
  * the head: out (0, g) = logistic ((∑ k, wᵀ (0, k) · p (k, g)) + b).

  `elu y` is `y` where `y > 0` and `exp y - 1` elsewhere; the comparison is kept as the one-bit word the float
  comparison returns, so that nothing here depends on how the order is decided. No law of the extended reals beyond
  commutativity of the product is needed to compare two programs that compute these entries, so no finiteness is.
-/
import Idealize.ShloMosaic.PureOps.Ideal
import Idealize.ShloMosaic.Lib.ValueIdx

noncomputable section

open scoped BigOperators

namespace Cert.Gin

open Idealize.ShloMosaic Idealize.ShloMosaic.ValueIdx

/-- Padded node count: 49 blocks of 4096 columns. -/
abbrev P : Nat := 200704

abbrev S1xP : Shape := ⟨2, ![1, 200704]⟩
abbrev S8xP : Shape := ⟨2, ![8, 200704]⟩
abbrev S8x1 : Shape := ⟨2, ![8, 1]⟩
abbrev S8x8 : Shape := ⟨2, ![8, 8]⟩
abbrev S8xG : Shape := ⟨2, ![8, 1024]⟩
abbrev S1x8 : Shape := ⟨2, ![1, 8]⟩
abbrev S1x1 : Shape := ⟨2, ![1, 1]⟩
abbrev S1xG : Shape := ⟨2, ![1, 1024]⟩

/-- The exponential linear unit: `y` where the comparison `y > 0` answers one, `exp y - 1` where it answers zero. -/
def elu (y : EReal) : EReal :=
  Scalar.select (FloatOps.cmpf (F := Ideal) (φ := .f32) .ogt y (0 : EReal)) y (Ideal.exp y - 1)

/-- Stage one at feature `j` of node `n`. -/
def g0 (xT aT : FVec Ideal S1xP .f32) (wa ba : FVec Ideal S8x1 .f32) (wbT : FVec Ideal S8x8 .f32) (bb : FVec Ideal S8x1 .f32)
    (j : Fin 8) (n : Fin 200704) : EReal :=
  elu ((∑ k : Fin 8, wbT (ix2 j k) * max (wa (ix2 k 0) * (xT (ix2 0 n) + aT (ix2 0 n)) + ba (ix2 k 0)) 0) + bb (ix2 j 0))

/-- Stage one's whole output array, feature on the rows. -/
def G0 (xT aT : FVec Ideal S1xP .f32) (wa ba : FVec Ideal S8x1 .f32) (wbT : FVec Ideal S8x8 .f32) (bb : FVec Ideal S8x1 .f32) :
    FVec Ideal S8xP .f32 :=
  fun i => g0 xT aT wa ba wbT bb (i 0) (i 1)

/-- Stage two at feature `j` of node `n`. -/
def g1 (hT aT : FVec Ideal S8xP .f32) (waT : FVec Ideal S8x8 .f32) (ba : FVec Ideal S8x1 .f32) (wbT : FVec Ideal S8x8 .f32)
    (bb : FVec Ideal S8x1 .f32) (j : Fin 8) (n : Fin 200704) : EReal :=
  (∑ k : Fin 8, wbT (ix2 j k) * max ((∑ l : Fin 8, waT (ix2 k l) * (hT (ix2 l n) + aT (ix2 l n))) + ba (ix2 k 0)) 0) + bb (ix2 j 0)

/-- Stage two's whole output array. -/
def G1 (hT aT : FVec Ideal S8xP .f32) (waT : FVec Ideal S8x8 .f32) (ba : FVec Ideal S8x1 .f32) (wbT : FVec Ideal S8x8 .f32)
    (bb : FVec Ideal S8x1 .f32) : FVec Ideal S8xP .f32 :=
  fun i => g1 hT aT waT ba wbT bb (i 0) (i 1)

/-- The head at graph `g`. -/
def g2 (pT : FVec Ideal S8xG .f32) (wT : FVec Ideal S1x8 .f32) (b : FVec Ideal S1x1 .f32) (g : Fin 1024) : EReal :=
  Ideal.logistic ((∑ k : Fin 8, wT (ix2 0 k) * pT (ix2 k g)) + b (ix2 0 0))

/-- The head's whole output row. -/
def G2 (pT : FVec Ideal S8xG .f32) (wT : FVec Ideal S1x8 .f32) (b : FVec Ideal S1x1 .f32) : FVec Ideal S1xG .f32 :=
  fun i => g2 pT wT b (i 1)

theorem G0_apply (xT aT : FVec Ideal S1xP .f32) (wa ba : FVec Ideal S8x1 .f32) (wbT : FVec Ideal S8x8 .f32) (bb : FVec Ideal S8x1 .f32)
    (j : Fin 8) (n : Fin 200704) : G0 xT aT wa ba wbT bb (ix2 j n) = g0 xT aT wa ba wbT bb j n := rfl

theorem G1_apply (hT aT : FVec Ideal S8xP .f32) (waT : FVec Ideal S8x8 .f32) (ba : FVec Ideal S8x1 .f32) (wbT : FVec Ideal S8x8 .f32)
    (bb : FVec Ideal S8x1 .f32) (j : Fin 8) (n : Fin 200704) : G1 hT aT waT ba wbT bb (ix2 j n) = g1 hT aT waT ba wbT bb j n := rfl

theorem G2_apply (pT : FVec Ideal S8xG .f32) (wT : FVec Ideal S1x8 .f32) (b : FVec Ideal S1x1 .f32) (r : Fin 1) (g : Fin 1024) :
    G2 pT wT b (ix2 r g) = g2 pT wT b g := rfl

end Cert.Gin

end
-- ==== Proof.KerStages.lean ====
/-
  The kernel program's result as a composition of named stages.

  The neighbour sums and the per-graph mean are the host operations the reference performs, in the same order; each
  dense stage is computed with the FEATURE on the rows and the NODE on the columns, so the host transposes a node
  array and pads its 200000 columns with zeros to 200704 on the way in, and drops the padding and transposes back
  on the way out; between them stands the stage's whole output array (Dense.lean). Nothing is proved here: the
  definitions only name the terms the run leaves in the result buffer.
-/
import proofs.«104349_j31988916420624_1_alg».proof.KernelIdeal
import proofs.«104349_j31988916420624_1_alg».proof.Proof.Dense

noncomputable section

namespace Cert.KernelIdeal.Stages

open Cert.KernelIdeal Idealize.ShloMosaic Idealize.SL.Sem
open Cert.KernelIdeal.Facts₀ Cert.KernelIdeal.Facts

/-- An array of shape `s` and element type `e`, as a buffer of that type holds it. -/
abbrev Arr (F : FTy → Type) (s : Shape) (e : EltTy) : Type := (⟨s, e⟩ : BufTy).Contents (Elt F)

variable {F : FTy → Type} [FloatOps F] [Cert.KernelIdeal.Facts]

abbrev zeros1 : Arr F S200000x1 .f32 := broadcastInDim S200000x1 ![] bcast_S_S200000x1 (constant S_ .f32 0x00000000#32)
abbrev zeros8 : Arr F S200000x8 .f32 := broadcastInDim S200000x8 ![] bcast_S_S200000x8 (constant S_ .f32 0x00000000#32)

/-- Row `0` of the edge list, flat: every edge's source node. -/
def srcOf (ei : Arr F S2x6400000 .i32) : Arr F S6400000 .i32 :=
  shapeCast S6400000 (extractStridedSlice S1x6400000 ![0, 0] ei slices_S2x6400000_S1x6400000_0_0) shapeCasts_S1x6400000_S6400000

/-- Row `1` of the edge list, flat: every edge's destination node. -/
def dstOf (ei : Arr F S2x6400000 .i32) : Arr F S6400000 .i32 :=
  shapeCast S6400000 (extractStridedSlice S1x6400000 ![1, 0] ei slices_S2x6400000_S1x6400000_1_0) shapeCasts_S1x6400000_S6400000

/-- The sources as a column of gather positions, a negative one wrapped by the node count first. -/
def srcCol (ei : Arr F S2x6400000 .i32) : Arr F S6400000x1 .i32 :=
  broadcastInDim S6400000x1 ![0] bcast_S6400000_S6400000x1_0
    (select (cmpi .slt (srcOf ei) (broadcastInDim S6400000 ![] bcast_S_S6400000 (constantI S_ 32 0#32)))
      (addi (srcOf ei) (broadcastInDim S6400000 ![] bcast_S_S6400000 (constantI S_ 32 200000#32))) (srcOf ei))

/-- The destinations as a column of scatter positions. -/
def dstCol (ei : Arr F S2x6400000 .i32) : Arr F S6400000x1 .i32 :=
  broadcastInDim S6400000x1 ![0] bcast_S6400000_S6400000x1_0 (dstOf ei)

/-- The neighbour sum of a one-feature node array. -/
def aggregate1 (x : Arr F S200000x1 .f32) (ei : Arr F S2x6400000 .i32) : Arr F S200000x1 .f32 :=
  Host.scatterAdd scatter_S200000x1_S6400000x1_S6400000x1_1_0_0_1 zeros1 (dstCol ei)
    (Host.gather gather_S200000x1_S6400000x1_S6400000x1_1_0_n_n_0_1_11 x (srcCol ei))

/-- The neighbour sum of an eight-feature node array. -/
def aggregate8 (h : Arr F S200000x8 .f32) (ei : Arr F S2x6400000 .i32) : Arr F S200000x8 .f32 :=
  Host.scatterAdd scatter_S200000x8_S6400000x1_S6400000x8_1_0_0_1 zeros8 (dstCol ei)
    (Host.gather gather_S200000x8_S6400000x1_S6400000x8_1_0_n_n_0_1_18 h (srcCol ei))

/-- The graph of every node as a column of scatter positions. -/
def batchCol (batch : Arr F S200000 .i32) : Arr F S200000x1 .i32 :=
  broadcastInDim S200000x1 ![0] bcast_S200000_S200000x1_0 batch

/-- The mean of the node rows of each graph: the per-graph sums over the per-graph counts, a count below one read as
    one. -/
def pooled (h2 : Arr F S200000x8 .f32) (batch : Arr F S200000 .i32) : Arr F S1024x8 .f32 :=
  Host.divf
    (Host.scatterAdd scatter_S1024x8_S200000x1_S200000x8_1_0_0_1
      (broadcastInDim S1024x8 ![] bcast_S_S1024x8 (constant S_ .f32 0x00000000#32)) (batchCol batch) h2)
    (broadcastInDim S1024x8 ![0, 1] bcast_S1024x1_S1024x8_0_1 (broadcastInDim S1024x1 ![0] bcast_S1024_S1024x1_0
      (maximumf
        (Host.scatterAdd scatter_S1024_S200000x1_S200000_n_0_0_1
          (broadcastInDim S1024 ![] bcast_S_S1024 (constant S_ .f32 0x00000000#32)) (batchCol batch)
          (broadcastInDim S200000 ![] bcast_S_S200000 (constant S_ .f32 0x3F800000#32)))
        (broadcastInDim S1024 ![] bcast_S_S1024 (constant S_ .f32 0x3F800000#32)))))

/-- The padding value: the integer zero converted to a float. -/
abbrev padZero : Arr F S_ .f32 := sitofp .f32 (constantI S_ 32 0#32)

/-- A one-feature node array as a row, its 200000 columns padded to 200704. -/
def padT1 (x : Arr F S200000x1 .f32) : Arr F S1x200704 .f32 :=
  pad S1x200704 ![0, 0] ![0, 704] ![0, 0] (transpose S1x200000 [1, 0] x transposes_S200000x1_S1x200000_1_0) padZero
    pads_S1x200000_S1x200704_000_07040 h_S_

/-- An eight-feature node array with the features on the rows, its 200000 columns padded to 200704. -/
def padT8 (h : Arr F S200000x8 .f32) : Arr F S8x200704 .f32 :=
  pad S8x200704 ![0, 0] ![0, 704] ![0, 0] (transpose S8x200000 [1, 0] h transposes_S200000x8_S8x200000_1_0) padZero
    pads_S8x200000_S8x200704_000_07040 h_S_

/-- The first 200000 columns of a feature-by-node array, transposed back to node by feature. -/
def unpadT (y : Arr F S8x200704 .f32) : Arr F S200000x8 .f32 :=
  transpose S200000x8 [1, 0] (extractStridedSlice S8x200000 ![0, 0] y slices_S8x200704_S8x200000_0_0) transposes_S8x200000_S200000x8_1_0

/-- A bias vector as a column. -/
def col (b : Arr F S8 .f32) : Arr F S8x1 .f32 := shapeCast S8x1 b shapeCasts_S8_S8x1

/-- A square weight matrix transposed. -/
def tr88 (W : Arr F S8x8 .f32) : Arr F S8x8 .f32 := transpose S8x8 [1, 0] W transposes_S8x8_S8x8_1_0

/-- The first layer through the first region: the stage-one array of the padded, transposed operands, unpadded. -/
def layer1 (x agg : Arr Ideal S200000x1 .f32) (W1a : Arr Ideal S1x8 .f32) (b1a : Arr Ideal S8 .f32) (W1b : Arr Ideal S8x8 .f32)
    (b1b : Arr Ideal S8 .f32) : Arr Ideal S200000x8 .f32 :=
  unpadT (Cert.Gin.G0 (padT1 x) (padT1 agg) (transpose S8x1 [1, 0] W1a transposes_S1x8_S8x1_1_0) (col b1a) (tr88 W1b) (col b1b))

/-- The second layer through the second region. -/
def layer2 (h agg : Arr Ideal S200000x8 .f32) (W2a : Arr Ideal S8x8 .f32) (b2a : Arr Ideal S8 .f32) (W2b : Arr Ideal S8x8 .f32)
    (b2b : Arr Ideal S8 .f32) : Arr Ideal S200000x8 .f32 :=
  unpadT (Cert.Gin.G1 (padT8 h) (padT8 agg) (tr88 W2a) (col b2a) (tr88 W2b) (col b2b))

/-- The head through the third region, flat. -/
def headK (p : Arr Ideal S1024x8 .f32) (Wfc : Arr Ideal S8x1 .f32) (bfc : Arr Ideal S1 .f32) : Arr Ideal S1024 .f32 :=
  shapeCast S1024
    (Cert.Gin.G2 (transpose S8x1024 [1, 0] p transposes_S1024x8_S8x1024_1_0) (transpose S1x8 [1, 0] Wfc transposes_S8x1_S1x8_1_0)
      (shapeCast S1x1 bfc shapeCasts_S1_S1x1))
    shapeCasts_S1x1024_S1024

/-- The kernel program's result of its thirteen arguments. -/
def kerOut (x : Arr Ideal S200000x1 .f32) (ei : Arr Ideal S2x6400000 .i32) (batch : Arr Ideal S200000 .i32)
    (W1a : Arr Ideal S1x8 .f32) (b1a : Arr Ideal S8 .f32) (W1b : Arr Ideal S8x8 .f32) (b1b : Arr Ideal S8 .f32)
    (W2a : Arr Ideal S8x8 .f32) (b2a : Arr Ideal S8 .f32) (W2b : Arr Ideal S8x8 .f32) (b2b : Arr Ideal S8 .f32)
    (Wfc : Arr Ideal S8x1 .f32) (bfc : Arr Ideal S1 .f32) : Arr Ideal S1024 .f32 :=
  headK (pooled (layer2 (layer1 x (aggregate1 x ei) W1a b1a W1b b1b)
      (aggregate8 (layer1 x (aggregate1 x ei) W1a b1a W1b b1b) ei) W2a b2a W2b b2b) batch) Wfc bfc

end Cert.KernelIdeal.Stages

end
-- ==== Proof.KerReadLines.lean ====
/- What each line of host operations of the kernel program leaves in the buffers the next pipeline (or the return) reads,
   as a function of what the line finds: the lines before the first pipeline, between the first and the second,
   between the second and the third, and the closing reshape — each read for ANY contents `V` the line may start from,
   in the named stages of the program's result. The heavy array operations are never opened: an equation here only
   says that two compositions of the same operations are the same composition. -/
import proofs.«104349_j31988916420624_1_alg».proof.Proof.Gen.KernelIdeal
import proofs.«104349_j31988916420624_1_alg».proof.Proof.Gen.KernelIdeal.Frame
import proofs.«104349_j31988916420624_1_alg».proof.Proof.LibHostJoin
import proofs.«104349_j31988916420624_1_alg».proof.Proof.KerStages
import Idealize.ShloMosaic.PureOps.Ideal

set_option maxRecDepth 16384

noncomputable section

namespace Cert.KernelIdeal.RunValue

open Idealize.ShloMosaic Idealize.ShloMosaic.TcCoe
open Idealize.ShloMosaic.StableHlo
open Cert.KernelIdeal Cert.KernelIdeal.Gen Cert.KernelIdeal.Stages
open Cert.LibHostJoin

attribute [local irreducible] Host.gather Host.scatterAdd pad transpose extractStridedSlice Host.divf

/-- The five lines before the first pipeline, run one after the other from `V`. -/
abbrev lineA (V : Valuation τ sig (Elt Ideal)) : Valuation τ sig (Elt Ideal) :=
  after hostOps0_4 (after hostOps0_3 (after hostOps0_2 (after hostOps0_1 (after hostOps0 V))))

/-- The five lines between the first pipeline and the second. -/
abbrev lineB (V : Valuation τ sig (Elt Ideal)) : Valuation τ sig (Elt Ideal) :=
  after hostOps1_4 (after hostOps1_3 (after hostOps1_2 (after hostOps1_1 (after hostOps1 V))))

section A
variable (V : Valuation τ sig (Elt Ideal))

/-- The node features as a padded row. -/
theorem lineA_v15 : lineA V (Proc.devRef .tc main_v15) = padT1 (V (Proc.devRef .tc main_arg0)) := by
  dsimp only [lineA, hostOps0, hostOps0_1, hostOps0_2, hostOps0_3, hostOps0_4]
  host_read
  rfl

/-- The first neighbour sum as a padded row. -/
theorem lineA_v17 : lineA V (Proc.devRef .tc main_v17)
    = padT1 (aggregate1 (V (Proc.devRef .tc main_arg0)) (V (Proc.devRef .tc main_arg1))) := by
  dsimp only [lineA, hostOps0, hostOps0_1, hostOps0_2, hostOps0_3, hostOps0_4]
  host_read
  rfl

/-- The first layer's inner weights as a column. -/
theorem lineA_v18 : lineA V (Proc.devRef .tc main_v18)
    = transpose S8x1 [1, 0] (V (Proc.devRef .tc main_arg3)) transposes_S1x8_S8x1_1_0 := by
  dsimp only [lineA, hostOps0, hostOps0_1, hostOps0_2, hostOps0_3, hostOps0_4]
  host_read

theorem lineA_v19 : lineA V (Proc.devRef .tc main_v19) = col (V (Proc.devRef .tc main_arg4)) := by
  dsimp only [lineA, hostOps0, hostOps0_1, hostOps0_2, hostOps0_3, hostOps0_4]
  host_read
  rfl

theorem lineA_v20 : lineA V (Proc.devRef .tc main_v20) = tr88 (V (Proc.devRef .tc main_arg5)) := by
  dsimp only [lineA, hostOps0, hostOps0_1, hostOps0_2, hostOps0_3, hostOps0_4]
  host_read
  rfl

theorem lineA_v21 : lineA V (Proc.devRef .tc main_v21) = col (V (Proc.devRef .tc main_arg6)) := by
  dsimp only [lineA, hostOps0, hostOps0_1, hostOps0_2, hostOps0_3, hostOps0_4]
  host_read
  rfl

/-- The flat sources and destinations stay where the first line put them. -/
theorem lineA_v1 : lineA V (Proc.devRef .tc main_v1) = srcOf (V (Proc.devRef .tc main_arg1)) := by
  dsimp only [lineA, hostOps0, hostOps0_1, hostOps0_2, hostOps0_3, hostOps0_4]
  host_read
  rfl

theorem lineA_v3 : lineA V (Proc.devRef .tc main_v3) = dstOf (V (Proc.devRef .tc main_arg1)) := by
  dsimp only [lineA, hostOps0, hostOps0_1, hostOps0_2, hostOps0_3, hostOps0_4]
  host_read
  rfl

/-! No operation of these lines writes an argument. -/
theorem lineA_arg2 : lineA V (Proc.devRef .tc main_arg2) = V (Proc.devRef .tc main_arg2) := by
  dsimp only [lineA, hostOps0, hostOps0_1, hostOps0_2, hostOps0_3, hostOps0_4]
  host_read
theorem lineA_arg7 : lineA V (Proc.devRef .tc main_arg7) = V (Proc.devRef .tc main_arg7) := by
  dsimp only [lineA, hostOps0, hostOps0_1, hostOps0_2, hostOps0_3, hostOps0_4]
  host_read
theorem lineA_arg8 : lineA V (Proc.devRef .tc main_arg8) = V (Proc.devRef .tc main_arg8) := by
  dsimp only [lineA, hostOps0, hostOps0_1, hostOps0_2, hostOps0_3, hostOps0_4]
  host_read
theorem lineA_arg9 : lineA V (Proc.devRef .tc main_arg9) = V (Proc.devRef .tc main_arg9) := by
  dsimp only [lineA, hostOps0, hostOps0_1, hostOps0_2, hostOps0_3, hostOps0_4]
  host_read
theorem lineA_arg10 : lineA V (Proc.devRef .tc main_arg10) = V (Proc.devRef .tc main_arg10) := by
  dsimp only [lineA, hostOps0, hostOps0_1, hostOps0_2, hostOps0_3, hostOps0_4]
  host_read
theorem lineA_arg11 : lineA V (Proc.devRef .tc main_arg11) = V (Proc.devRef .tc main_arg11) := by
  dsimp only [lineA, hostOps0, hostOps0_1, hostOps0_2, hostOps0_3, hostOps0_4]
  host_read
theorem lineA_arg12 : lineA V (Proc.devRef .tc main_arg12) = V (Proc.devRef .tc main_arg12) := by
  dsimp only [lineA, hostOps0, hostOps0_1, hostOps0_2, hostOps0_3, hostOps0_4]
  host_read

end A

section B
variable (V : Valuation τ sig (Elt Ideal))

/-- The first layer's output, unpadded and padded again, as the second pipeline's first operand. -/
theorem lineB_v36 : lineB V (Proc.devRef .tc main_v36) = padT8 (unpadT (V (Proc.devRef .tc main_v22))) := by
  dsimp only [lineB, hostOps1, hostOps1_1, hostOps1_2, hostOps1_3, hostOps1_4]
  host_read
  rfl

/-- The second neighbour sum, of the first layer's unpadded output along the same edges, padded: the line reads the
    flat sources and destinations where the first line left them. -/
theorem lineB_v38 (ei : Arr Ideal S2x6400000 .i32) (h1 : V (Proc.devRef .tc main_v1) = srcOf ei) (h3 : V (Proc.devRef .tc main_v3) = dstOf ei) :
    lineB V (Proc.devRef .tc main_v38) = padT8 (aggregate8 (unpadT (V (Proc.devRef .tc main_v22))) ei) := by
  dsimp only [lineB, hostOps1, hostOps1_1, hostOps1_2, hostOps1_3, hostOps1_4]
  host_read
  rw [h1, h3]
  rfl

theorem lineB_v39 : lineB V (Proc.devRef .tc main_v39) = tr88 (V (Proc.devRef .tc main_arg7)) := by
  dsimp only [lineB, hostOps1, hostOps1_1, hostOps1_2, hostOps1_3, hostOps1_4]
  host_read
  rfl

theorem lineB_v40 : lineB V (Proc.devRef .tc main_v40) = col (V (Proc.devRef .tc main_arg8)) := by
  dsimp only [lineB, hostOps1, hostOps1_1, hostOps1_2, hostOps1_3, hostOps1_4]
  host_read
  rfl

theorem lineB_v41 : lineB V (Proc.devRef .tc main_v41) = tr88 (V (Proc.devRef .tc main_arg9)) := by
  dsimp only [lineB, hostOps1, hostOps1_1, hostOps1_2, hostOps1_3, hostOps1_4]
  host_read
  rfl

theorem lineB_v42 : lineB V (Proc.devRef .tc main_v42) = col (V (Proc.devRef .tc main_arg10)) := by
  dsimp only [lineB, hostOps1, hostOps1_1, hostOps1_2, hostOps1_3, hostOps1_4]
  host_read
  rfl

theorem lineB_arg2 : lineB V (Proc.devRef .tc main_arg2) = V (Proc.devRef .tc main_arg2) := by
  dsimp only [lineB, hostOps1, hostOps1_1, hostOps1_2, hostOps1_3, hostOps1_4]
  host_read
theorem lineB_arg11 : lineB V (Proc.devRef .tc main_arg11) = V (Proc.devRef .tc main_arg11) := by
  dsimp only [lineB, hostOps1, hostOps1_1, hostOps1_2, hostOps1_3, hostOps1_4]
  host_read
theorem lineB_arg12 : lineB V (Proc.devRef .tc main_arg12) = V (Proc.devRef .tc main_arg12) := by
  dsimp only [lineB, hostOps1, hostOps1_1, hostOps1_2, hostOps1_3, hostOps1_4]
  host_read

end B

section C
variable (V : Valuation τ sig (Elt Ideal))

/-- The per-graph means of the second layer's unpadded output, features on the rows. -/
theorem lineC_v58 : after hostOps2 V (Proc.devRef .tc main_v58)
    = transpose S8x1024 [1, 0] (pooled (unpadT (V (Proc.devRef .tc main_v43))) (V (Proc.devRef .tc main_arg2))) transposes_S1024x8_S8x1024_1_0 := by
  dsimp only [hostOps2]
  host_read
  rfl

theorem lineC_v59 : after hostOps2 V (Proc.devRef .tc main_v59)
    = transpose S1x8 [1, 0] (V (Proc.devRef .tc main_arg11)) transposes_S8x1_S1x8_1_0 := by
  dsimp only [hostOps2]
  host_read

theorem lineC_v60 : after hostOps2 V (Proc.devRef .tc main_v60)
    = shapeCast S1x1 (V (Proc.devRef .tc main_arg12)) shapeCasts_S1_S1x1 := by
  dsimp only [hostOps2]
  host_read
  rfl

/-- The closing reshape. -/
theorem lineD_v62 : after hostOps3 V (Proc.devRef .tc main_v62)
    = shapeCast S1024 (V (Proc.devRef .tc main_v61)) shapeCasts_S1x1024_S1024 := by
  dsimp only [hostOps3]
  host_read
  rfl

end C

end Cert.KernelIdeal.RunValue

end
-- ==== Proof.KerRead.lean ====
/- The kernel program's result buffer read back to the launch memory, one boundary at a time: the closing reshape of
   the third pipeline's output; that output as the head's whole-array function of the pooled means, the head's weights
   and bias; the pooled means of the second pipeline's output, unpadded; that output as the second layer's
   whole-array function of the first layer's output and its neighbour sum, padded; and so on down to the arguments
   as launched. What each pipeline leaves in its output array is a HYPOTHESIS here (the three whole-array facts);
   everything else is the host's own operations, composed. -/
import proofs.«104349_j31988916420624_1_alg».proof.Proof.KerReadLines

set_option maxRecDepth 16384

noncomputable section

namespace Cert.KernelIdeal.RunValue

open Idealize.ShloMosaic Idealize.ShloMosaic.TcCoe
open Idealize.ShloMosaic.StableHlo
open Cert.KernelIdeal Cert.KernelIdeal.Gen Cert.KernelIdeal.Stages

attribute [local irreducible] Host.gather Host.scatterAdd pad transpose extractStridedSlice Host.divf

variable (m : (ℓ : Loc nD τ sig) → Buf (Elt Ideal) ℓ) (ρ : Dev nD → PrngReg)

/-- Core `c`'s buffer `b` as launched. -/
abbrev argv (c : Dev nD) (b : Ref sig .tc) : Buf (Elt Ideal) ((c.tc : Thread nD τ).loc b) := m ((c.tc : Thread nD τ).loc b)

/-- The first layer's output on core `c`, node by feature. -/
abbrev H1 (c : Dev nD) : Arr Ideal S200000x8 .f32 :=
  layer1 (argv m c main_arg0) (aggregate1 (argv m c main_arg0) (argv m c main_arg1)) (argv m c main_arg3) (argv m c main_arg4) (argv m c main_arg5) (argv m c main_arg6)

/-- The second layer's output on core `c`, node by feature. -/
abbrev H2 (c : Dev nD) : Arr Ideal S200000x8 .f32 :=
  layer2 (H1 m c) (aggregate8 (H1 m c) (argv m c main_arg1)) (argv m c main_arg7) (argv m c main_arg8) (argv m c main_arg9) (argv m c main_arg10)

/-! ## The launch memory -/

theorem W0_at (c : Dev nD) (b : Ref sig .tc) : W0 m ρ c (Proc.devRef .tc b) = argv m c b := rfl

/-! ## The first pipeline's entry: the five lines before it, from the launch memory -/

theorem V5_v15 (c : Dev nD) : V5 m ρ c main_v15 = padT1 (argv m c main_arg0) := lineA_v15 (W0 m ρ c)
theorem V5_v17 (c : Dev nD) : V5 m ρ c main_v17 = padT1 (aggregate1 (argv m c main_arg0) (argv m c main_arg1)) := lineA_v17 (W0 m ρ c)
theorem V5_v18 (c : Dev nD) : V5 m ρ c main_v18 = transpose S8x1 [1, 0] (argv m c main_arg3) transposes_S1x8_S8x1_1_0 := lineA_v18 (W0 m ρ c)
theorem V5_v19 (c : Dev nD) : V5 m ρ c main_v19 = col (argv m c main_arg4) := lineA_v19 (W0 m ρ c)
theorem V5_v20 (c : Dev nD) : V5 m ρ c main_v20 = tr88 (argv m c main_arg5) := lineA_v20 (W0 m ρ c)
theorem V5_v21 (c : Dev nD) : V5 m ρ c main_v21 = col (argv m c main_arg6) := lineA_v21 (W0 m ρ c)
theorem W5_v1 (c : Dev nD) : W5 m ρ c (Proc.devRef .tc main_v1) = srcOf (argv m c main_arg1) := lineA_v1 (W0 m ρ c)
theorem W5_v3 (c : Dev nD) : W5 m ρ c (Proc.devRef .tc main_v3) = dstOf (argv m c main_arg1) := lineA_v3 (W0 m ρ c)
theorem W5_arg2 (c : Dev nD) : W5 m ρ c (Proc.devRef .tc main_arg2) = argv m c main_arg2 := lineA_arg2 (W0 m ρ c)
theorem W5_arg7 (c : Dev nD) : W5 m ρ c (Proc.devRef .tc main_arg7) = argv m c main_arg7 := lineA_arg7 (W0 m ρ c)
theorem W5_arg8 (c : Dev nD) : W5 m ρ c (Proc.devRef .tc main_arg8) = argv m c main_arg8 := lineA_arg8 (W0 m ρ c)
theorem W5_arg9 (c : Dev nD) : W5 m ρ c (Proc.devRef .tc main_arg9) = argv m c main_arg9 := lineA_arg9 (W0 m ρ c)
theorem W5_arg10 (c : Dev nD) : W5 m ρ c (Proc.devRef .tc main_arg10) = argv m c main_arg10 := lineA_arg10 (W0 m ρ c)
theorem W5_arg11 (c : Dev nD) : W5 m ρ c (Proc.devRef .tc main_arg11) = argv m c main_arg11 := lineA_arg11 (W0 m ρ c)
theorem W5_arg12 (c : Dev nD) : W5 m ρ c (Proc.devRef .tc main_arg12) = argv m c main_arg12 := lineA_arg12 (W0 m ρ c)

/-! ## The first pipeline's exit -/

section R0
variable (h0 : ∀ (V : (c : Dev nD) → (b : Ref sig .tc) → Buf (Elt Ideal) ((c : Thread nD τ).loc b)) (c : Dev nD), (Gen.dat0 V c).arrAt 6 cfg0.N
      = Gin.G0 (V c main_v15) (V c main_v17) (V c main_v18) (V c main_v19) (V c main_v20) (V c main_v21))
include h0

/-- The first pipeline's output array: the first dense stage of the padded features and neighbour sums. -/
theorem W6_v22 (c : Dev nD) : W6 m ρ c (Proc.devRef .tc main_v22)
    = Gin.G0 (padT1 (argv m c main_arg0)) (padT1 (aggregate1 (argv m c main_arg0) (argv m c main_arg1)))
        (transpose S8x1 [1, 0] (argv m c main_arg3) transposes_S1x8_S8x1_1_0) (col (argv m c main_arg4)) (tr88 (argv m c main_arg5)) (col (argv m c main_arg6)) :=
  (W6_arr m ρ c 6).trans ((h0 (V5 m ρ) c).trans (by
    rw [V5_v15, V5_v17, V5_v18, V5_v19, V5_v20, V5_v21]))

end R0

/-- A buffer the first pipeline has no window on is as the pipeline found it. -/
theorem W6_v1 (c : Dev nD) : W6 m ρ c (Proc.devRef .tc main_v1) = srcOf (argv m c main_arg1) :=
  (W6_of_ne m ρ c main_v1 (by decide)).trans (W5_v1 m ρ c)
theorem W6_v3 (c : Dev nD) : W6 m ρ c (Proc.devRef .tc main_v3) = dstOf (argv m c main_arg1) :=
  (W6_of_ne m ρ c main_v3 (by decide)).trans (W5_v3 m ρ c)
theorem W6_arg2 (c : Dev nD) : W6 m ρ c (Proc.devRef .tc main_arg2) = argv m c main_arg2 :=
  (W6_of_ne m ρ c main_arg2 (by decide)).trans (W5_arg2 m ρ c)
theorem W6_arg7 (c : Dev nD) : W6 m ρ c (Proc.devRef .tc main_arg7) = argv m c main_arg7 :=
  (W6_of_ne m ρ c main_arg7 (by decide)).trans (W5_arg7 m ρ c)
theorem W6_arg8 (c : Dev nD) : W6 m ρ c (Proc.devRef .tc main_arg8) = argv m c main_arg8 :=
  (W6_of_ne m ρ c main_arg8 (by decide)).trans (W5_arg8 m ρ c)
theorem W6_arg9 (c : Dev nD) : W6 m ρ c (Proc.devRef .tc main_arg9) = argv m c main_arg9 :=
  (W6_of_ne m ρ c main_arg9 (by decide)).trans (W5_arg9 m ρ c)
theorem W6_arg10 (c : Dev nD) : W6 m ρ c (Proc.devRef .tc main_arg10) = argv m c main_arg10 :=
  (W6_of_ne m ρ c main_arg10 (by decide)).trans (W5_arg10 m ρ c)
theorem W6_arg11 (c : Dev nD) : W6 m ρ c (Proc.devRef .tc main_arg11) = argv m c main_arg11 :=
  (W6_of_ne m ρ c main_arg11 (by decide)).trans (W5_arg11 m ρ c)
theorem W6_arg12 (c : Dev nD) : W6 m ρ c (Proc.devRef .tc main_arg12) = argv m c main_arg12 :=
  (W6_of_ne m ρ c main_arg12 (by decide)).trans (W5_arg12 m ρ c)

/-! ## The second pipeline's entry: the five lines after the first pipeline, from its exit -/

section R0'
variable (h0 : ∀ (V : (c : Dev nD) → (b : Ref sig .tc) → Buf (Elt Ideal) ((c : Thread nD τ).loc b)) (c : Dev nD), (Gen.dat0 V c).arrAt 6 cfg0.N
      = Gin.G0 (V c main_v15) (V c main_v17) (V c main_v18) (V c main_v19) (V c main_v20) (V c main_v21))
include h0

theorem V11_v36 (c : Dev nD) : V11 m ρ c main_v36 = padT8 (H1 m c) :=
  (lineB_v36 (W6 m ρ c)).trans (by rw [W6_v22 m ρ h0 c] <;> rfl)

theorem V11_v38 (c : Dev nD) : V11 m ρ c main_v38 = padT8 (aggregate8 (H1 m c) (argv m c main_arg1)) :=
  (lineB_v38 (W6 m ρ c) (argv m c main_arg1) (W6_v1 m ρ c) (W6_v3 m ρ c)).trans (by rw [W6_v22 m ρ h0 c] <;> rfl)

end R0'

theorem V11_v39 (c : Dev nD) : V11 m ρ c main_v39 = tr88 (argv m c main_arg7) := (lineB_v39 (W6 m ρ c)).trans (by rw [W6_arg7])
theorem V11_v40 (c : Dev nD) : V11 m ρ c main_v40 = col (argv m c main_arg8) := (lineB_v40 (W6 m ρ c)).trans (by rw [W6_arg8])
theorem V11_v41 (c : Dev nD) : V11 m ρ c main_v41 = tr88 (argv m c main_arg9) := (lineB_v41 (W6 m ρ c)).trans (by rw [W6_arg9])
theorem V11_v42 (c : Dev nD) : V11 m ρ c main_v42 = col (argv m c main_arg10) := (lineB_v42 (W6 m ρ c)).trans (by rw [W6_arg10])
theorem W11_arg2 (c : Dev nD) : W11 m ρ c (Proc.devRef .tc main_arg2) = argv m c main_arg2 :=
  (lineB_arg2 (W6 m ρ c)).trans (W6_arg2 m ρ c)
theorem W11_arg11 (c : Dev nD) : W11 m ρ c (Proc.devRef .tc main_arg11) = argv m c main_arg11 :=
  (lineB_arg11 (W6 m ρ c)).trans (W6_arg11 m ρ c)
theorem W11_arg12 (c : Dev nD) : W11 m ρ c (Proc.devRef .tc main_arg12) = argv m c main_arg12 :=
  (lineB_arg12 (W6 m ρ c)).trans (W6_arg12 m ρ c)

/-! ## The second pipeline's exit -/

section R1
variable (h0 : ∀ (V : (c : Dev nD) → (b : Ref sig .tc) → Buf (Elt Ideal) ((c : Thread nD τ).loc b)) (c : Dev nD), (Gen.dat0 V c).arrAt 6 cfg0.N
      = Gin.G0 (V c main_v15) (V c main_v17) (V c main_v18) (V c main_v19) (V c main_v20) (V c main_v21))
  (h1 : ∀ (V : (c : Dev nD) → (b : Ref sig .tc) → Buf (Elt Ideal) ((c : Thread nD τ).loc b)) (c : Dev nD), (Gen.dat1 V c).arrAt 6 cfg1.N
      = Gin.G1 (V c main_v36) (V c main_v38) (V c main_v39) (V c main_v40) (V c main_v41) (V c main_v42))
include h0 h1

/-- The second pipeline's output array: the second dense stage of the first layer's output and its neighbour sum,
    padded. -/
theorem W12_v43 (c : Dev nD) : W12 m ρ c (Proc.devRef .tc main_v43)
    = Gin.G1 (padT8 (H1 m c)) (padT8 (aggregate8 (H1 m c) (argv m c main_arg1)))
        (tr88 (argv m c main_arg7)) (col (argv m c main_arg8)) (tr88 (argv m c main_arg9)) (col (argv m c main_arg10)) :=
  (W12_arr m ρ c 6).trans ((h1 (V11 m ρ) c).trans (by
    rw [V11_v36 m ρ h0, V11_v38 m ρ h0, V11_v39, V11_v40, V11_v41, V11_v42]))

end R1

theorem W12_arg2 (c : Dev nD) : W12 m ρ c (Proc.devRef .tc main_arg2) = argv m c main_arg2 :=
  (W12_of_ne m ρ c main_arg2 (by decide)).trans (W11_arg2 m ρ c)
theorem W12_arg11 (c : Dev nD) : W12 m ρ c (Proc.devRef .tc main_arg11) = argv m c main_arg11 :=
  (W12_of_ne m ρ c main_arg11 (by decide)).trans (W11_arg11 m ρ c)
theorem W12_arg12 (c : Dev nD) : W12 m ρ c (Proc.devRef .tc main_arg12) = argv m c main_arg12 :=
  (W12_of_ne m ρ c main_arg12 (by decide)).trans (W11_arg12 m ρ c)

/-! ## The third pipeline's entry, its exit, and the result -/

section R2
variable (h0 : ∀ (V : (c : Dev nD) → (b : Ref sig .tc) → Buf (Elt Ideal) ((c : Thread nD τ).loc b)) (c : Dev nD), (Gen.dat0 V c).arrAt 6 cfg0.N
      = Gin.G0 (V c main_v15) (V c main_v17) (V c main_v18) (V c main_v19) (V c main_v20) (V c main_v21))
  (h1 : ∀ (V : (c : Dev nD) → (b : Ref sig .tc) → Buf (Elt Ideal) ((c : Thread nD τ).loc b)) (c : Dev nD), (Gen.dat1 V c).arrAt 6 cfg1.N
      = Gin.G1 (V c main_v36) (V c main_v38) (V c main_v39) (V c main_v40) (V c main_v41) (V c main_v42))
include h0 h1

/-- The pooled means of the second layer's output, features on the rows. -/
theorem V13_v58 (c : Dev nD) : V13 m ρ c main_v58
    = transpose S8x1024 [1, 0] (pooled (H2 m c) (argv m c main_arg2)) transposes_S1024x8_S8x1024_1_0 :=
  (lineC_v58 (W12 m ρ c)).trans (by rw [W12_v43 m ρ h0 h1 c, W12_arg2] <;> rfl)

end R2

theorem V13_v59 (c : Dev nD) : V13 m ρ c main_v59 = transpose S1x8 [1, 0] (argv m c main_arg11) transposes_S8x1_S1x8_1_0 :=
  (lineC_v59 (W12 m ρ c)).trans (by rw [W12_arg11])
theorem V13_v60 (c : Dev nD) : V13 m ρ c main_v60 = shapeCast S1x1 (argv m c main_arg12) shapeCasts_S1_S1x1 :=
  (lineC_v60 (W12 m ρ c)).trans (by rw [W12_arg12])

section R3
variable (h0 : ∀ (V : (c : Dev nD) → (b : Ref sig .tc) → Buf (Elt Ideal) ((c : Thread nD τ).loc b)) (c : Dev nD), (Gen.dat0 V c).arrAt 6 cfg0.N
      = Gin.G0 (V c main_v15) (V c main_v17) (V c main_v18) (V c main_v19) (V c main_v20) (V c main_v21))
  (h1 : ∀ (V : (c : Dev nD) → (b : Ref sig .tc) → Buf (Elt Ideal) ((c : Thread nD τ).loc b)) (c : Dev nD), (Gen.dat1 V c).arrAt 6 cfg1.N
      = Gin.G1 (V c main_v36) (V c main_v38) (V c main_v39) (V c main_v40) (V c main_v41) (V c main_v42))
  (h2 : ∀ (V : (c : Dev nD) → (b : Ref sig .tc) → Buf (Elt Ideal) ((c : Thread nD τ).loc b)) (c : Dev nD), (Gen.dat2 V c).arrAt 3 cfg2.N
      = Gin.G2 (V c main_v58) (V c main_v59) (V c main_v60))
include h0 h1 h2

/-- The third pipeline's output array: the head of the pooled means. -/
theorem W14_v61 (c : Dev nD) : W14 m ρ c (Proc.devRef .tc main_v61)
    = Gin.G2 (transpose S8x1024 [1, 0] (pooled (H2 m c) (argv m c main_arg2)) transposes_S1024x8_S8x1024_1_0)
        (transpose S1x8 [1, 0] (argv m c main_arg11) transposes_S8x1_S1x8_1_0) (shapeCast S1x1 (argv m c main_arg12) shapeCasts_S1_S1x1) :=
  (W14_arr m ρ c 3).trans ((h2 (V13 m ρ) c).trans (by
    rw [V13_v58 m ρ h0 h1, V13_v59, V13_v60]))

/-- THE RESULT READ BACK: what the run leaves in the result buffer is the program's composed term of the arguments as
    launched. -/
theorem read (c : Dev nD) : W15 m ρ c (Proc.devRef .tc main_v62)
    = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) :=
  (lineD_v62 (W14 m ρ c)).trans (by rw [W14_v61 m ρ h0 h1 h2 c] <;> rfl)

end R3

end Cert.KernelIdeal.RunValue

end
-- ==== Proof.KerValue.lean ====
/- The kernel program's run with its result as the program's composed term of the launch arguments: every weakly fair
   execution terminates, nothing faulting, the result buffer holding that term and each argument buffer as launched —
   given what each of the three pipelines leaves in its output array. -/
import proofs.«104349_j31988916420624_1_alg».proof.Proof.KerRun
import proofs.«104349_j31988916420624_1_alg».proof.Proof.KerRead

set_option maxRecDepth 16384

noncomputable section

namespace Cert.KernelIdeal.RunValue

open Idealize.ShloMosaic Idealize.ShloMosaic.TcCoe Idealize.SL.Sem
open Cert.KernelIdeal Cert.KernelIdeal.Gen Cert.KernelIdeal.Stages

variable (m : (ℓ : Loc nD τ sig) → Buf (Elt Ideal) ℓ) (ρ : Dev nD → PrngReg)
  (h0 : ∀ (V : (c : Dev nD) → (b : Ref sig .tc) → Buf (Elt Ideal) ((c : Thread nD τ).loc b)) (c : Dev nD), (Gen.dat0 V c).arrAt 6 cfg0.N
      = Gin.G0 (V c main_v15) (V c main_v17) (V c main_v18) (V c main_v19) (V c main_v20) (V c main_v21))
  (h1 : ∀ (V : (c : Dev nD) → (b : Ref sig .tc) → Buf (Elt Ideal) ((c : Thread nD τ).loc b)) (c : Dev nD), (Gen.dat1 V c).arrAt 6 cfg1.N
      = Gin.G1 (V c main_v36) (V c main_v38) (V c main_v39) (V c main_v40) (V c main_v41) (V c main_v42))
  (h2 : ∀ (V : (c : Dev nD) → (b : Ref sig .tc) → Buf (Elt Ideal) ((c : Thread nD τ).loc b)) (c : Dev nD), (Gen.dat2 V c).arrAt 3 cfg2.N
      = Gin.G2 (V c main_v58) (V c main_v59) (V c main_v60))
include h0 h1 h2

/-- THE RUN WITH ITS VALUE. -/
theorem run : θ_run defs (onTc (τ := τ) (main (F := Ideal))) ⟨m, fun _ => 0, ρ⟩ (fun r => ∀ c : Dev nD,
      r.2.mem ((c.tc : Thread nD τ).loc main_v62)
        = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (read m ρ h0 h1 h2 c), (h c).2⟩) (result m ρ)

end Cert.KernelIdeal.RunValue

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.BlockIdx.lean ====
/-
  Reading the dense stages' vector operations at one entry.

  The three kernels work on blocks whose rows are the 8 hidden features (or the single input feature) and whose
  columns are nodes (or graphs). Every operation in their bodies is entrywise except three kinds: a bias or weight
  column [8,1] repeated along the columns, the single input row [1,4096] repeated along the rows, and a product
  of a small weight matrix with the block, accumulated from zero. At entry (p, q) these read, respectively, the
  column's entry p, the row's entry q, and the sum over the contracted coordinate k of l (p, k) · r (k, q).
-/
import proofs.«104349_j31988916420624_1_alg».proof.Proof.Gen.KernelIdeal.Skeleton
import proofs.«104349_j31988916420624_1_alg».proof.Proof.LibDotPlain
import Idealize.ShloMosaic.Lib.Pipeline.Value
import Idealize.ShloMosaic.Lib.ValueLayout

noncomputable section

open scoped BigOperators

namespace Cert.KernelIdeal.RegionValue

open Idealize.ShloMosaic Idealize.ShloMosaic.ValueIdx
open Cert.KernelIdeal Cert.KernelIdeal.Gen

/-- Both offsets of a whole-block access are zero. -/
theorem off_zero : (![0, 0] : Fin 2 → Nat) = fun _ => 0 := funext fun a => by fin_cases a <;> rfl

/-- The product [8,8] × [8,4096] from a zero accumulator, at entry (p, q): the sum over the 8 contracted features. -/
theorem mm_8x8_8x4096 (l : FVec Ideal S8x8 .bf16) (r : FVec Ideal S8x4096 .bf16) (p : Fin 8) (q : Fin 4096) :
    matmul dot_S8x8_S8x4096_S8x4096_1_0_0_1_n_n none l r (constant S8x4096 .f32 0x00000000#32) (ix2 p q)
      = ∑ k : Fin 8, l (ix2 p k) * r (ix2 k q) := by
  refine Cert.LibDotPlain.matmul_zero_plain (N := 8) (K := 8) (M := 4096) dot_S8x8_S8x4096_S8x4096_1_0_0_1_n_n rfl rfl ?_ ?_ ?_ ?_ none l r p q
  · intro i k; rfl
  · intro i k; exact DotDims.lhsIdx_val_of_single _ rfl i k
  · intro i k; exact DotDims.rhsIdx_val_of_single _ rfl i k
  · intro i k; rfl

/-- The product [1,8] × [8,1024] from a zero accumulator, at entry (p, q). -/
theorem mm_1x8_8x1024 (l : FVec Ideal S1x8 .bf16) (r : FVec Ideal S8x1024 .bf16) (p : Fin 1) (q : Fin 1024) :
    matmul dot_S1x8_S8x1024_S1x1024_1_0_0_1_n_n none l r (constant S1x1024 .f32 0x00000000#32) (ix2 p q)
      = ∑ k : Fin 8, l (ix2 p k) * r (ix2 k q) := by
  refine Cert.LibDotPlain.matmul_zero_plain (N := 1) (K := 8) (M := 1024) dot_S1x8_S8x1024_S1x1024_1_0_0_1_n_n rfl rfl ?_ ?_ ?_ ?_ none l r p q
  · intro i k; rfl
  · intro i k; exact DotDims.lhsIdx_val_of_single _ rfl i k
  · intro i k; exact DotDims.rhsIdx_val_of_single _ rfl i k
  · intro i k; rfl

/-- A column [8,1] repeated over 4096 columns reads, at (p, q), the column's entry p. -/
theorem bcol_8x1_8x4096 {α : Type} (v : S8x1.Idx → α) (p : Fin 8) (q : Fin 4096) :
    broadcastTo S8x4096 v broadcasts_S8x1_S8x4096 (ix2 p q) = v (ix2 p 0) := by
  refine broadcastTo_apply v broadcasts_S8x1_S8x4096 (ix2 p q) (ix2 p 0) fun ax => ?_
  match ax with
  | ⟨0, _⟩ => rfl
  | ⟨1, _⟩ => rfl

/-- A row [1,4096] repeated over 8 rows reads, at (p, q), the row's entry q. -/
theorem brow_1x4096_8x4096 {α : Type} (v : S1x4096.Idx → α) (p : Fin 8) (q : Fin 4096) :
    broadcastTo S8x4096 v broadcasts_S1x4096_S8x4096 (ix2 p q) = v (ix2 0 q) :=
  broadcastTo_1b_ab_apply v broadcasts_S1x4096_S8x4096 p q

/-- A single entry [1,1] repeated over 1024 columns reads that entry everywhere. -/
theorem bone_1x1_1x1024 {α : Type} (v : S1x1.Idx → α) (p : Fin 1) (q : Fin 1024) :
    broadcastTo S1x1024 v broadcasts_S1x1_S1x1024 (ix2 p q) = v (ix2 0 0) := by
  refine broadcastTo_apply v broadcasts_S1x1_S1x1024 (ix2 p q) (ix2 0 0) fun ax => ?_
  match ax with
  | ⟨0, _⟩ => rfl
  | ⟨1, _⟩ => rfl

/-- The entrywise exponential at an entry. -/
theorem exp_at {s : Shape} {φ : FTy} (a : FVec Ideal s φ) (i : s.Idx) : exp a i = Ideal.exp (a i) := rfl

/-- The entrywise logistic function at an entry. -/
theorem logistic_at {s : Shape} {φ : FTy} (a : FVec Ideal s φ) (i : s.Idx) : logistic a i = Ideal.logistic (a i) := rfl

end Cert.KernelIdeal.RegionValue

end
-- ==== Proof.LibIndexCoords.lean ====
/-
  An array read at an index is the array read at the index's coordinates; and three scalar facts at the exact values.

  An index of a literal shape is determined by its coordinates (`eq_ix1` … `eq_ix3`), so `x u` can be rewritten to
  `x (ix2 (u 0) (u 1))` for ANY index term `u`, however it was computed: after that the coordinates `u 0`, `u 1` reduce by
  evaluation where `u` is a composition of index maps written by cases on the axis, and a closing `rfl` sees through
  them. On an axis of extent one the coordinate is `0`. These are meant for `rw [app_ab x]`, with the array `x` named and
  the index left to unification.

  The scalar facts: the word `0x3F800000` denotes one, the square root of one is one, and division by one is the
  identity on every extended real.
-/
import Idealize.ShloMosaic.PureOps.Ideal
import Idealize.ShloMosaic.PureOps.IdealRules
import Idealize.ShloMosaic.Lib.ValueIdx

namespace Idealize.ShloMosaic.ValueIdx

open Idealize.ShloMosaic

section Index
variable {α : Type}

/-- A vector at any index is the vector at that index's coordinate. -/
theorem app_a {n : ℕ} (x : (⟨1, ![n]⟩ : Shape).Idx → α) (u : (⟨1, ![n]⟩ : Shape).Idx) : x u = x (ix1 (u 0)) :=
  congrArg x (eq_ix1 u)

/-- A matrix at any index is the matrix at that index's two coordinates. -/
theorem app_ab {n0 n1 : ℕ} (x : (⟨2, ![n0, n1]⟩ : Shape).Idx → α) (u : (⟨2, ![n0, n1]⟩ : Shape).Idx) :
    x u = x (ix2 (u 0) (u 1)) :=
  congrArg x (eq_ix2 u)

/-- A rank-3 array at any index is the array at that index's three coordinates. -/
theorem app_abc {n0 n1 n2 : ℕ} (x : (⟨3, ![n0, n1, n2]⟩ : Shape).Idx → α) (u : (⟨3, ![n0, n1, n2]⟩ : Shape).Idx) :
    x u = x (ix3 (u 0) (u 1) (u 2)) :=
  congrArg x (eq_ix3 u)

/-- An axis of extent one has the single coordinate zero. -/
theorem fin_one (a : Fin 1) : a = 0 := Subsingleton.elim _ _

/-- A one-entry vector is read at `0` whatever the index. -/
theorem app_1 (x : (⟨1, ![1]⟩ : Shape).Idx → α) (u : (⟨1, ![1]⟩ : Shape).Idx) : x u = x (ix1 0) := by
  rw [app_a x u, fin_one (u 0)]

/-- A one-entry matrix is read at `(0, 0)` whatever the index. -/
theorem app_11 (x : (⟨2, ![1, 1]⟩ : Shape).Idx → α) (u : (⟨2, ![1, 1]⟩ : Shape).Idx) : x u = x (ix2 0 0) := by
  rw [app_ab x u, fin_one (u 0), fin_one (u 1)]

/-- A one-row matrix is read in row `0`. -/
theorem app_1b {n : ℕ} (x : (⟨2, ![1, n]⟩ : Shape).Idx → α) (u : (⟨2, ![1, n]⟩ : Shape).Idx) : x u = x (ix2 0 (u 1)) := by
  rw [app_ab x u, fin_one (u 0)]

/-- A one-column matrix is read in column `0`. -/
theorem app_a1 {n : ℕ} (x : (⟨2, ![n, 1]⟩ : Shape).Idx → α) (u : (⟨2, ![n, 1]⟩ : Shape).Idx) : x u = x (ix2 (u 0) 0) := by
  rw [app_ab x u, fin_one (u 1)]

/-- A rank-3 array with a leading unit axis is read at `0` on it. -/
theorem app_1ab {n1 n2 : ℕ} (x : (⟨3, ![1, n1, n2]⟩ : Shape).Idx → α) (u : (⟨3, ![1, n1, n2]⟩ : Shape).Idx) :
    x u = x (ix3 0 (u 1) (u 2)) := by
  rw [app_abc x u, fin_one (u 0)]

end Index

/-- The f32 word of `1.0` denotes one. -/
theorem ofBits_one_f32 : Ideal.ofBits .f32 0x3F800000#32 = 1 := IdealRules.sign_bit.ideal_onePat .f32

/-- The square root of one is one. -/
theorem ideal_sqrt_one : Ideal.sqrt 1 = 1 := by
  rw [← EReal.coe_one, Ideal.sqrt_coe, if_neg (by norm_num), Real.sqrt_one]

/-- Dividing by one changes nothing, at the infinities too. -/
theorem ideal_div_one (x : EReal) : Ideal.div x 1 = x := by
  rw [← EReal.coe_one, Ideal.div_coe one_ne_zero, _root_.div_one, EReal.coe_one, mul_one]

end Idealize.ShloMosaic.ValueIdx
-- ==== Proof.Region0.lean ====
/-
  What stage one's kernel leaves in its output array.

  The kernel visits 49 blocks of 4096 columns. At block t it reads columns 4096·t … 4096·t + 4095 of the input row
  and of the aggregated row, the whole weight and bias arrays, and writes the same columns of the [8, 200704] output.
  Its arithmetic at row j, column q of the block is stage one's formula at feature j of node 4096·t + q; every column
  of the output lies in exactly one block, so the array ends holding stage one's formula everywhere.
-/
import proofs.«104349_j31988916420624_1_alg».proof.Proof.Gen.KernelIdeal.Frame
import proofs.«104349_j31988916420624_1_alg».proof.Proof.Dense
import proofs.«104349_j31988916420624_1_alg».proof.Proof.BlockIdx
import proofs.«104349_j31988916420624_1_alg».proof.Proof.LibIndexCoords

set_option maxRecDepth 16384

noncomputable section

open scoped BigOperators

namespace Cert.KernelIdeal.RegionValue

open Idealize.ShloMosaic Idealize.ShloMosaic.TcCoe Idealize.ShloMosaic.ValueIdx
open Idealize.ShloMosaic.Pipeline (Dat)
open Cert.KernelIdeal Cert.KernelIdeal.Gen

/-- Stage one's block arithmetic at row j, column q of the block. -/
theorem pay0_apply (x0 x1 : Vec Ideal S1x4096 .f32) (x2 x3 : Vec Ideal S8x1 .f32) (x4 : Vec Ideal S8x8 .f32) (x5 : Vec Ideal S8x1 .f32)
    (j : Fin 8) (q : Fin 4096) :
    k0_pay1 x0 x1 x2 x3 x4 x5 (ix2 j q)
      = Cert.Gin.elu ((∑ k : Fin 8, x4 (ix2 j k) * max (x2 (ix2 k 0) * (x0 (ix2 0 q) + x1 (ix2 0 q)) + x3 (ix2 k 0)) 0) + x5 (ix2 j 0)) := by
  unfold k0_pay1
  simp only [shapeCast_self]
  unfold Cert.Gin.elu
  simp only [select_apply, cmpf_apply, subf_apply, addf_apply, mulf_apply, maximumf_apply, truncf_apply, exp_at,
    broadcast_apply, mm_8x8_8x4096, bcol_8x1_8x4096, brow_1x4096_8x4096, Ideal.ofBits_def, Ideal.ofBits_zero_f32,
    ofBits_one_f32]

variable (V : (c : Dev nD) → (b : Ref sig .tc) → Buf (Elt Ideal) ((c : Thread nD τ).loc b))

/-- Where each window's block sits at point t: the two row windows and the output at block column t, the weights and
    biases whole. -/
theorem idx0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- The input row's block at point t, column q, is the row's column 4096·t + q. -/
theorem blk0_0 (c : Dev nD) (t : Fin cfg0.N) (q : Fin 4096) (n : Fin 200704) (hn : n.val = t.val * 4096 + q.val) :
    (iblk0 V c 0 t : Vec Ideal S1x4096 .f32) (ix2 0 q) = (V c main_v15 : S1x200704.Idx → EReal) (ix2 0 n) := by
  obtain ⟨e0, e1, -⟩ := idx0 t
  unfold iblk0
  rw [View.read_apply]
  show V c main_v15 (((cfg0.win 0).blk t).view.emb (ix2 0 q)) = V c main_v15 (ix2 0 n)
  refine congrArg _ (funext fun a => Fin.ext ?_)
  match a with
  | ⟨0, _⟩ => show win0_0.index t (0 : Fin 2) * 1 + 1 * 0 = 0; omega
  | ⟨1, _⟩ => show win0_0.index t (1 : Fin 2) * 4096 + 1 * q.val = n.val; omega

/-- The aggregated row's block likewise. -/
theorem blk0_1 (c : Dev nD) (t : Fin cfg0.N) (q : Fin 4096) (n : Fin 200704) (hn : n.val = t.val * 4096 + q.val) :
    (iblk0 V c 1 t : Vec Ideal S1x4096 .f32) (ix2 0 q) = (V c main_v17 : S1x200704.Idx → EReal) (ix2 0 n) := by
  obtain ⟨-, -, e0, e1, -⟩ := idx0 t
  unfold iblk0
  rw [View.read_apply]
  show V c main_v17 (((cfg0.win 1).blk t).view.emb (ix2 0 q)) = V c main_v17 (ix2 0 n)
  refine congrArg _ (funext fun a => Fin.ext ?_)
  match a with
  | ⟨0, _⟩ => show win0_1.index t (0 : Fin 2) * 1 + 1 * 0 = 0; omega
  | ⟨1, _⟩ => show win0_1.index t (1 : Fin 2) * 4096 + 1 * q.val = n.val; omega

/-- The first layer's weight column is read whole at every point. -/
theorem blk0_2 (c : Dev nD) (t : Fin cfg0.N) : (iblk0 V c 2 t : Vec Ideal S8x1 .f32) = (V c main_v18 : S8x1.Idx → EReal) := by
  obtain ⟨-, -, -, -, e0, e1, -⟩ := idx0 t
  unfold iblk0
  refine funext fun (y : S8x1.Idx) => ?_
  rw [View.read_apply]
  show V c main_v18 (((cfg0.win 2).blk t).view.emb y) = V c main_v18 y
  refine congrArg _ (funext fun a => Fin.ext ?_)
  match a with
  | ⟨0, _⟩ => show win0_2.index t (0 : Fin 2) * 8 + 1 * (y 0).val = (y 0).val; omega
  | ⟨1, _⟩ => show win0_2.index t (1 : Fin 2) * 1 + 1 * (y 1).val = (y 1).val; omega

/-- The first bias column is read whole. -/
theorem blk0_3 (c : Dev nD) (t : Fin cfg0.N) : (iblk0 V c 3 t : Vec Ideal S8x1 .f32) = (V c main_v19 : S8x1.Idx → EReal) := by
  obtain ⟨-, -, -, -, -, -, e0, e1, -⟩ := idx0 t
  unfold iblk0
  refine funext fun (y : S8x1.Idx) => ?_
  rw [View.read_apply]
  show V c main_v19 (((cfg0.win 3).blk t).view.emb y) = V c main_v19 y
  refine congrArg _ (funext fun a => Fin.ext ?_)
  match a with
  | ⟨0, _⟩ => show win0_3.index t (0 : Fin 2) * 8 + 1 * (y 0).val = (y 0).val; omega
  | ⟨1, _⟩ => show win0_3.index t (1 : Fin 2) * 1 + 1 * (y 1).val = (y 1).val; omega

/-- The second weight matrix is read whole. -/
theorem blk0_4 (c : Dev nD) (t : Fin cfg0.N) : (iblk0 V c 4 t : Vec Ideal S8x8 .f32) = (V c main_v20 : S8x8.Idx → EReal) := by
  obtain ⟨-, -, -, -, -, -, -, -, e0, e1, -⟩ := idx0 t
  unfold iblk0
  refine funext fun (y : S8x8.Idx) => ?_
  rw [View.read_apply]
  show V c main_v20 (((cfg0.win 4).blk t).view.emb y) = V c main_v20 y
  refine congrArg _ (funext fun a => Fin.ext ?_)
  match a with
  | ⟨0, _⟩ => show win0_4.index t (0 : Fin 2) * 8 + 1 * (y 0).val = (y 0).val; omega
  | ⟨1, _⟩ => show win0_4.index t (1 : Fin 2) * 8 + 1 * (y 1).val = (y 1).val; omega

/-- The second bias column is read whole. -/
theorem blk0_5 (c : Dev nD) (t : Fin cfg0.N) : (iblk0 V c 5 t : Vec Ideal S8x1 .f32) = (V c main_v21 : S8x1.Idx → EReal) := by
  obtain ⟨-, -, -, -, -, -, -, -, -, -, e0, e1, -⟩ := idx0 t
  unfold iblk0
  refine funext fun (y : S8x1.Idx) => ?_
  rw [View.read_apply]
  show V c main_v21 (((cfg0.win 5).blk t).view.emb y) = V c main_v21 y
  refine congrArg _ (funext fun a => Fin.ext ?_)
  match a with
  | ⟨0, _⟩ => show win0_5.index t (0 : Fin 2) * 8 + 1 * (y 0).val = (y 0).val; omega
  | ⟨1, _⟩ => show win0_5.index t (1 : Fin 2) * 1 + 1 * (y 1).val = (y 1).val; omega

/-- Row p, column q of the output's block at point t is row p, column 4096·t + q of the output array. -/
theorem emb0_6 (t : Fin cfg0.N) (p : Fin 8) (q : Fin 4096) (n : Fin 200704) (hn : n.val = t.val * 4096 + q.val) :
    ((cfg0.win 6).blk t).view.emb (ix2 p q) = (ix2 p n : S8x200704.Idx) := by
  obtain ⟨-, -, -, -, -, -, -, -, -, -, -, -, e0, e1⟩ := idx0 t
  refine funext fun a => Fin.ext ?_
  match a with
  | ⟨0, _⟩ => show win0_6.index t (0 : Fin 2) * 8 + 1 * p.val = p.val; omega
  | ⟨1, _⟩ => show win0_6.index t (1 : Fin 2) * 4096 + 1 * q.val = n.val; omega

/-- What point t writes back is block t of stage one's array. -/
theorem flushed0 (c : Dev nD) (t : Fin cfg0.N) :
    (dat0 V c).flushed 6 t = ((cfg0.win 6).blk t).view.read (Elt Ideal)
      (Cert.Gin.G0 (V c main_v15) (V c main_v17) (V c main_v18) (V c main_v19) (V c main_v20) (V c main_v21)) := by
  show (cfg0.win 6).cut (grid0.coords t) ((dat0 V c).after 6 t) = _
  rw [after0_6]
  unfold out0_6
  rw [View.canon_unit_zero off_zero]
  simp only [View.ld_unit_zero (S := S1x4096) off_zero, View.ld_unit_zero (S := S8x1) off_zero, View.ld_unit_zero (S := S8x8) off_zero]
  refine funext fun (y : S8x4096.Idx) => ?_
  obtain ⟨p, q, rfl⟩ : ∃ (p : Fin 8) (q : Fin 4096), y = ix2 p q := ⟨y 0, y 1, eq_ix2 y⟩
  have hN : cfg0.N = 49 := N_0
  have hn : t.val * 4096 + q.val < 200704 := by have := t.isLt; have := q.isLt; omega
  rw [View.read_apply]
  show k0_pay1 (iblk0 V c 0 t) (iblk0 V c 1 t) (iblk0 V c 2 t) (iblk0 V c 3 t) (iblk0 V c 4 t) (iblk0 V c 5 t) (ix2 p q)
    = Cert.Gin.G0 (V c main_v15) (V c main_v17) (V c main_v18) (V c main_v19) (V c main_v20) (V c main_v21)
        (((cfg0.win 6).blk t).view.emb (ix2 p q))
  rw [emb0_6 t p q ⟨_, hn⟩ rfl, Cert.Gin.G0_apply]
  refine (pay0_apply (iblk0 V c 0 t) (iblk0 V c 1 t) (iblk0 V c 2 t) (iblk0 V c 3 t) (iblk0 V c 4 t) (iblk0 V c 5 t) p q).trans ?_
  rw [blk0_0 V c t q ⟨_, hn⟩ rfl, blk0_1 V c t q ⟨_, hn⟩ rfl, blk0_2 V c t, blk0_3 V c t, blk0_4 V c t, blk0_5 V c t]
  rfl

/-- An index of the output array lies in point t's block iff each coordinate lies in the block's range. -/
theorem mem_blk0 (t : Fin cfg0.N) (i : S8x200704.Idx) :
    i ∈ ((cfg0.win 6).blk t).view.set ↔ ∀ a : Fin 2, win0_6.index t a * S8x4096.size a ≤ (i a).val ∧ (i a).val < win0_6.index t a * S8x4096.size a + S8x4096.size a := by
  show i ∈ ((View.whole main_v22).slice (win0_6.rect t)).set ↔ _
  rw [View.set_slice_whole, Rect.mem_set_unit]
  exact Iff.rfl

/-- Every column of the output array lies in the block of the point numbered by the column's quotient by 4096. -/
theorem cover0 (i : S8x200704.Idx) :
    ∃ t : Fin cfg0.N, (cfg0.win 6).flush t = true ∧ i ∈ ((cfg0.win 6).blk t).view.set := by
  have hN : cfg0.N = 49 := N_0
  have h0 : (i 0).val < 8 := (i 0).isLt
  have h1 : (i 1).val < 200704 := (i 1).isLt
  refine ⟨⟨(i 1).val / 4096, by omega⟩, flush0_6 _, ?_⟩
  rw [mem_blk0]
  obtain ⟨-, -, -, -, -, -, -, -, -, -, -, -, e0, e1⟩ := idx0 ⟨(i 1).val / 4096, by omega⟩
  intro a
  match a with
  | ⟨0, _⟩ => show win0_6.index _ (0 : Fin 2) * 8 ≤ (i 0).val ∧ (i 0).val < win0_6.index _ (0 : Fin 2) * 8 + 8; rw [e0]; omega
  | ⟨1, _⟩ => show win0_6.index _ (1 : Fin 2) * 4096 ≤ (i 1).val ∧ (i 1).val < win0_6.index _ (1 : Fin 2) * 4096 + 4096; rw [e1]; show (i 1).val / 4096 * 4096 ≤ (i 1).val ∧ (i 1).val < (i 1).val / 4096 * 4096 + 4096; omega

/-- Stage one's kernel leaves stage one's array: at feature j of column n, the formula of the region-entry arrays. -/
theorem arr0 (c : Dev nD) :
    (dat0 V c).arrAt 6 cfg0.N
      = Cert.Gin.G0 (V c main_v15) (V c main_v17) (V c main_v18) (V c main_v19) (V c main_v20) (V c main_v21) :=
  (dat0 V c).arrAt_eq_of_cover 6 _ (fun t _ => flushed0 V c t) cover0

end Cert.KernelIdeal.RegionValue

end
-- ==== Proof.Region1.lean ====
/-
  What stage two's kernel leaves in its output array.

  As in stage one the kernel visits 49 blocks of 4096 columns; here both inputs are [8, 200704] arrays, read at block t
  in all 8 rows and columns 4096·t … 4096·t + 4095, and the two weight matrices and two bias columns are read whole.
  At row j, column q of the block the arithmetic is stage two's formula at feature j of node 4096·t + q, and the
  blocks cover the output array.
-/
import proofs.«104349_j31988916420624_1_alg».proof.Proof.Gen.KernelIdeal.Frame
import proofs.«104349_j31988916420624_1_alg».proof.Proof.Dense
import proofs.«104349_j31988916420624_1_alg».proof.Proof.BlockIdx

set_option maxRecDepth 16384

noncomputable section

open scoped BigOperators

namespace Cert.KernelIdeal.RegionValue

open Idealize.ShloMosaic Idealize.ShloMosaic.TcCoe Idealize.ShloMosaic.ValueIdx
open Idealize.ShloMosaic.Pipeline (Dat)
open Cert.KernelIdeal Cert.KernelIdeal.Gen

/-- Stage two's block arithmetic at row j, column q of the block. -/
theorem pay1_apply (x0 x1 : Vec Ideal S8x4096 .f32) (x2 : Vec Ideal S8x8 .f32) (x3 : Vec Ideal S8x1 .f32) (x4 : Vec Ideal S8x8 .f32)
    (x5 : Vec Ideal S8x1 .f32) (j : Fin 8) (q : Fin 4096) :
    k1_pay1 x0 x1 x2 x3 x4 x5 (ix2 j q)
      = (∑ k : Fin 8, x4 (ix2 j k) * max ((∑ l : Fin 8, x2 (ix2 k l) * (x0 (ix2 l q) + x1 (ix2 l q))) + x3 (ix2 k 0)) 0) + x5 (ix2 j 0) := by
  unfold k1_pay1
  simp only [shapeCast_self]
  simp only [addf_apply, maximumf_apply, truncf_apply, broadcast_apply, mm_8x8_8x4096, bcol_8x1_8x4096, Ideal.ofBits_def,
    Ideal.ofBits_zero_f32]

variable (V : (c : Dev nD) → (b : Ref sig .tc) → Buf (Elt Ideal) ((c : Thread nD τ).loc b))

/-- Where each window's block sits at point t: the two node arrays and the output at block column t, the weights and
    biases whole. -/
theorem idx1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = t.val :=
  (by decide +kernel : ∀ t : Fin grid1.N, _)

/-- The node features' block at point t, row l, column q, is row l, column 4096·t + q of the array. -/
theorem blk1_0 (c : Dev nD) (t : Fin cfg1.N) (q : Fin 4096) (n : Fin 200704) (hn : n.val = t.val * 4096 + q.val) (l : Fin 8) :
    (iblk1 V c 0 t : Vec Ideal S8x4096 .f32) (ix2 l q) = (V c main_v36 : S8x200704.Idx → EReal) (ix2 l n) := by
  obtain ⟨e0, e1, -⟩ := idx1 t
  unfold iblk1
  rw [View.read_apply]
  show V c main_v36 (((cfg1.win 0).blk t).view.emb (ix2 l q)) = V c main_v36 (ix2 l n)
  refine congrArg _ (funext fun a => Fin.ext ?_)
  match a with
  | ⟨0, _⟩ => show win1_0.index t (0 : Fin 2) * 8 + 1 * l.val = l.val; omega
  | ⟨1, _⟩ => show win1_0.index t (1 : Fin 2) * 4096 + 1 * q.val = n.val; omega

/-- The aggregated features' block likewise. -/
theorem blk1_1 (c : Dev nD) (t : Fin cfg1.N) (q : Fin 4096) (n : Fin 200704) (hn : n.val = t.val * 4096 + q.val) (l : Fin 8) :
    (iblk1 V c 1 t : Vec Ideal S8x4096 .f32) (ix2 l q) = (V c main_v38 : S8x200704.Idx → EReal) (ix2 l n) := by
  obtain ⟨-, -, e0, e1, -⟩ := idx1 t
  unfold iblk1
  rw [View.read_apply]
  show V c main_v38 (((cfg1.win 1).blk t).view.emb (ix2 l q)) = V c main_v38 (ix2 l n)
  refine congrArg _ (funext fun a => Fin.ext ?_)
  match a with
  | ⟨0, _⟩ => show win1_1.index t (0 : Fin 2) * 8 + 1 * l.val = l.val; omega
  | ⟨1, _⟩ => show win1_1.index t (1 : Fin 2) * 4096 + 1 * q.val = n.val; omega

/-- The first weight matrix is read whole at every point. -/
theorem blk1_2 (c : Dev nD) (t : Fin cfg1.N) : (iblk1 V c 2 t : Vec Ideal S8x8 .f32) = (V c main_v39 : S8x8.Idx → EReal) := by
  obtain ⟨-, -, -, -, e0, e1, -⟩ := idx1 t
  unfold iblk1
  refine funext fun (y : S8x8.Idx) => ?_
  rw [View.read_apply]
  show V c main_v39 (((cfg1.win 2).blk t).view.emb y) = V c main_v39 y
  refine congrArg _ (funext fun a => Fin.ext ?_)
  match a with
  | ⟨0, _⟩ => show win1_2.index t (0 : Fin 2) * 8 + 1 * (y 0).val = (y 0).val; omega
  | ⟨1, _⟩ => show win1_2.index t (1 : Fin 2) * 8 + 1 * (y 1).val = (y 1).val; omega

/-- The first bias column is read whole. -/
theorem blk1_3 (c : Dev nD) (t : Fin cfg1.N) : (iblk1 V c 3 t : Vec Ideal S8x1 .f32) = (V c main_v40 : S8x1.Idx → EReal) := by
  obtain ⟨-, -, -, -, -, -, e0, e1, -⟩ := idx1 t
  unfold iblk1
  refine funext fun (y : S8x1.Idx) => ?_
  rw [View.read_apply]
  show V c main_v40 (((cfg1.win 3).blk t).view.emb y) = V c main_v40 y
  refine congrArg _ (funext fun a => Fin.ext ?_)
  match a with
  | ⟨0, _⟩ => show win1_3.index t (0 : Fin 2) * 8 + 1 * (y 0).val = (y 0).val; omega
  | ⟨1, _⟩ => show win1_3.index t (1 : Fin 2) * 1 + 1 * (y 1).val = (y 1).val; omega

/-- The second weight matrix is read whole. -/
theorem blk1_4 (c : Dev nD) (t : Fin cfg1.N) : (iblk1 V c 4 t : Vec Ideal S8x8 .f32) = (V c main_v41 : S8x8.Idx → EReal) := by
  obtain ⟨-, -, -, -, -, -, -, -, e0, e1, -⟩ := idx1 t
  unfold iblk1
  refine funext fun (y : S8x8.Idx) => ?_
  rw [View.read_apply]
  show V c main_v41 (((cfg1.win 4).blk t).view.emb y) = V c main_v41 y
  refine congrArg _ (funext fun a => Fin.ext ?_)
  match a with
  | ⟨0, _⟩ => show win1_4.index t (0 : Fin 2) * 8 + 1 * (y 0).val = (y 0).val; omega
  | ⟨1, _⟩ => show win1_4.index t (1 : Fin 2) * 8 + 1 * (y 1).val = (y 1).val; omega

/-- The second bias column is read whole. -/
theorem blk1_5 (c : Dev nD) (t : Fin cfg1.N) : (iblk1 V c 5 t : Vec Ideal S8x1 .f32) = (V c main_v42 : S8x1.Idx → EReal) := by
  obtain ⟨-, -, -, -, -, -, -, -, -, -, e0, e1, -⟩ := idx1 t
  unfold iblk1
  refine funext fun (y : S8x1.Idx) => ?_
  rw [View.read_apply]
  show V c main_v42 (((cfg1.win 5).blk t).view.emb y) = V c main_v42 y
  refine congrArg _ (funext fun a => Fin.ext ?_)
  match a with
  | ⟨0, _⟩ => show win1_5.index t (0 : Fin 2) * 8 + 1 * (y 0).val = (y 0).val; omega
  | ⟨1, _⟩ => show win1_5.index t (1 : Fin 2) * 1 + 1 * (y 1).val = (y 1).val; omega

/-- Row p, column q of the output's block at point t is row p, column 4096·t + q of the output array. -/
theorem emb1_6 (t : Fin cfg1.N) (p : Fin 8) (q : Fin 4096) (n : Fin 200704) (hn : n.val = t.val * 4096 + q.val) :
    ((cfg1.win 6).blk t).view.emb (ix2 p q) = (ix2 p n : S8x200704.Idx) := by
  obtain ⟨-, -, -, -, -, -, -, -, -, -, -, -, e0, e1⟩ := idx1 t
  refine funext fun a => Fin.ext ?_
  match a with
  | ⟨0, _⟩ => show win1_6.index t (0 : Fin 2) * 8 + 1 * p.val = p.val; omega
  | ⟨1, _⟩ => show win1_6.index t (1 : Fin 2) * 4096 + 1 * q.val = n.val; omega

/-- What point t writes back is block t of stage two's array. -/
theorem flushed1 (c : Dev nD) (t : Fin cfg1.N) :
    (dat1 V c).flushed 6 t = ((cfg1.win 6).blk t).view.read (Elt Ideal)
      (Cert.Gin.G1 (V c main_v36) (V c main_v38) (V c main_v39) (V c main_v40) (V c main_v41) (V c main_v42)) := by
  show (cfg1.win 6).cut (grid1.coords t) ((dat1 V c).after 6 t) = _
  rw [after1_6]
  unfold out1_6
  rw [View.canon_unit_zero off_zero]
  simp only [View.ld_unit_zero (S := S8x4096) off_zero, View.ld_unit_zero (S := S8x1) off_zero, View.ld_unit_zero (S := S8x8) off_zero]
  refine funext fun (y : S8x4096.Idx) => ?_
  obtain ⟨p, q, rfl⟩ : ∃ (p : Fin 8) (q : Fin 4096), y = ix2 p q := ⟨y 0, y 1, eq_ix2 y⟩
  have hN : cfg1.N = 49 := N_1
  have hn : t.val * 4096 + q.val < 200704 := by have := t.isLt; have := q.isLt; omega
  rw [View.read_apply]
  show k1_pay1 (iblk1 V c 0 t) (iblk1 V c 1 t) (iblk1 V c 2 t) (iblk1 V c 3 t) (iblk1 V c 4 t) (iblk1 V c 5 t) (ix2 p q)
    = Cert.Gin.G1 (V c main_v36) (V c main_v38) (V c main_v39) (V c main_v40) (V c main_v41) (V c main_v42)
        (((cfg1.win 6).blk t).view.emb (ix2 p q))
  rw [emb1_6 t p q ⟨_, hn⟩ rfl, Cert.Gin.G1_apply]
  refine (pay1_apply (iblk1 V c 0 t) (iblk1 V c 1 t) (iblk1 V c 2 t) (iblk1 V c 3 t) (iblk1 V c 4 t) (iblk1 V c 5 t) p q).trans ?_
  rw [blk1_2 V c t, blk1_3 V c t, blk1_4 V c t, blk1_5 V c t]
  simp only [blk1_0 V c t q ⟨_, hn⟩ rfl, blk1_1 V c t q ⟨_, hn⟩ rfl]
  rfl

/-- An index of the output array lies in point t's block iff each coordinate lies in the block's range. -/
theorem mem_blk1 (t : Fin cfg1.N) (i : S8x200704.Idx) :
    i ∈ ((cfg1.win 6).blk t).view.set ↔ ∀ a : Fin 2, win1_6.index t a * S8x4096.size a ≤ (i a).val ∧ (i a).val < win1_6.index t a * S8x4096.size a + S8x4096.size a := by
  show i ∈ ((View.whole main_v43).slice (win1_6.rect t)).set ↔ _
  rw [View.set_slice_whole, Rect.mem_set_unit]
  exact Iff.rfl

/-- Every column of the output array lies in the block of the point numbered by the column's quotient by 4096. -/
theorem cover1 (i : S8x200704.Idx) :
    ∃ t : Fin cfg1.N, (cfg1.win 6).flush t = true ∧ i ∈ ((cfg1.win 6).blk t).view.set := by
  have hN : cfg1.N = 49 := N_1
  have h0 : (i 0).val < 8 := (i 0).isLt
  have h1 : (i 1).val < 200704 := (i 1).isLt
  refine ⟨⟨(i 1).val / 4096, by omega⟩, flush1_6 _, ?_⟩
  rw [mem_blk1]
  obtain ⟨-, -, -, -, -, -, -, -, -, -, -, -, e0, e1⟩ := idx1 ⟨(i 1).val / 4096, by omega⟩
  intro a
  match a with
  | ⟨0, _⟩ => show win1_6.index _ (0 : Fin 2) * 8 ≤ (i 0).val ∧ (i 0).val < win1_6.index _ (0 : Fin 2) * 8 + 8; rw [e0]; omega
  | ⟨1, _⟩ => show win1_6.index _ (1 : Fin 2) * 4096 ≤ (i 1).val ∧ (i 1).val < win1_6.index _ (1 : Fin 2) * 4096 + 4096; rw [e1]; show (i 1).val / 4096 * 4096 ≤ (i 1).val ∧ (i 1).val < (i 1).val / 4096 * 4096 + 4096; omega

/-- Stage two's kernel leaves stage two's array: at feature j of column n, the formula of the region-entry arrays. -/
theorem arr1 (c : Dev nD) :
    (dat1 V c).arrAt 6 cfg1.N
      = Cert.Gin.G1 (V c main_v36) (V c main_v38) (V c main_v39) (V c main_v40) (V c main_v41) (V c main_v42) :=
  (dat1 V c).arrAt_eq_of_cover 6 _ (fun t _ => flushed1 V c t) cover1

end Cert.KernelIdeal.RegionValue

end
-- ==== Proof.Region2.lean ====
/-
  What the head's kernel leaves in its output row.

  The head has a single grid point, and every window's block is its whole array: the pooled features [8, 1024], the
  weight row [1, 8], the bias [1, 1] and the output row [1, 1024]. At column g the arithmetic is the logistic function
  of the weight row's product with column g of the pooled features plus the bias, which is the head's formula.
-/
import proofs.«104349_j31988916420624_1_alg».proof.Proof.Gen.KernelIdeal.Frame
import proofs.«104349_j31988916420624_1_alg».proof.Proof.Dense
import proofs.«104349_j31988916420624_1_alg».proof.Proof.BlockIdx

set_option maxRecDepth 16384

noncomputable section

open scoped BigOperators

namespace Cert.KernelIdeal.RegionValue

open Idealize.ShloMosaic Idealize.ShloMosaic.TcCoe Idealize.ShloMosaic.ValueIdx
open Idealize.ShloMosaic.Pipeline (Dat)
open Cert.KernelIdeal Cert.KernelIdeal.Gen

/-- The head's arithmetic at column g of its one row. -/
theorem pay2_apply (w : Vec Ideal S1x8 .f32) (p : Vec Ideal S8x1024 .f32) (b : Vec Ideal S1x1 .f32) (g : Fin 1024) :
    k2_pay1 w p b (ix2 0 g) = Ideal.logistic ((∑ k : Fin 8, w (ix2 0 k) * p (ix2 k g)) + b (ix2 0 0)) := by
  unfold k2_pay1
  simp only [shapeCast_self]
  simp only [logistic_at, addf_apply, truncf_apply, mm_1x8_8x1024, bone_1x1_1x1024]

variable (V : (c : Dev nD) → (b : Ref sig .tc) → Buf (Elt Ideal) ((c : Thread nD τ).loc b))

/-- Every window's block is its whole array at the one grid point. -/
theorem idx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The pooled features are read whole. -/
theorem blk2_0 (c : Dev nD) (t : Fin cfg2.N) : (iblk2 V c 0 t : Vec Ideal S8x1024 .f32) = (V c main_v58 : S8x1024.Idx → EReal) := by
  obtain ⟨e0, e1, -⟩ := idx2 t
  unfold iblk2
  refine funext fun (y : S8x1024.Idx) => ?_
  rw [View.read_apply]
  show V c main_v58 (((cfg2.win 0).blk t).view.emb y) = V c main_v58 y
  refine congrArg _ (funext fun a => Fin.ext ?_)
  match a with
  | ⟨0, _⟩ => show win2_0.index t (0 : Fin 2) * 8 + 1 * (y 0).val = (y 0).val; omega
  | ⟨1, _⟩ => show win2_0.index t (1 : Fin 2) * 1024 + 1 * (y 1).val = (y 1).val; omega

/-- The weight row is read whole. -/
theorem blk2_1 (c : Dev nD) (t : Fin cfg2.N) : (iblk2 V c 1 t : Vec Ideal S1x8 .f32) = (V c main_v59 : S1x8.Idx → EReal) := by
  obtain ⟨-, -, e0, e1, -⟩ := idx2 t
  unfold iblk2
  refine funext fun (y : S1x8.Idx) => ?_
  rw [View.read_apply]
  show V c main_v59 (((cfg2.win 1).blk t).view.emb y) = V c main_v59 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 8 + 1 * (y 1).val = (y 1).val; omega

/-- The bias is read whole. -/
theorem blk2_2 (c : Dev nD) (t : Fin cfg2.N) : (iblk2 V c 2 t : Vec Ideal S1x1 .f32) = (V c main_v60 : S1x1.Idx → EReal) := by
  obtain ⟨-, -, -, -, e0, e1, -⟩ := idx2 t
  unfold iblk2
  refine funext fun (y : S1x1.Idx) => ?_
  rw [View.read_apply]
  show V c main_v60 (((cfg2.win 2).blk t).view.emb y) = V c main_v60 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 1 + 1 * (y 1).val = (y 1).val; omega

/-- The output's block is the output row. -/
theorem emb2_3 (t : Fin cfg2.N) (y : S1x1024.Idx) : ((cfg2.win 3).blk t).view.emb y = (y : S1x1024.Idx) := by
  obtain ⟨-, -, -, -, -, -, e0, e1⟩ := idx2 t
  refine funext fun a => Fin.ext ?_
  match a with
  | ⟨0, _⟩ => show win2_3.index t (0 : Fin 2) * 1 + 1 * (y 0).val = (y 0).val; omega
  | ⟨1, _⟩ => show win2_3.index t (1 : Fin 2) * 1024 + 1 * (y 1).val = (y 1).val; omega

/-- What the one point writes back is the head's row. -/
theorem flushed2 (c : Dev nD) (t : Fin cfg2.N) :
    (dat2 V c).flushed 3 t = ((cfg2.win 3).blk t).view.read (Elt Ideal)
      (Cert.Gin.G2 (V c main_v58) (V c main_v59) (V c main_v60)) := by
  show (cfg2.win 3).cut (grid2.coords t) ((dat2 V c).after 3 t) = _
  rw [after2_3]
  unfold out2_3
  rw [View.canon_unit_zero off_zero]
  simp only [View.ld_unit_zero (S := S1x8) off_zero, View.ld_unit_zero (S := S8x1024) off_zero, View.ld_unit_zero (S := S1x1) off_zero]
  refine funext fun (y : S1x1024.Idx) => ?_
  rw [View.read_apply]
  show k2_pay1 (iblk2 V c 1 t) (iblk2 V c 0 t) (iblk2 V c 2 t) y
    = Cert.Gin.G2 (V c main_v58) (V c main_v59) (V c main_v60) (((cfg2.win 3).blk t).view.emb y)
  rw [emb2_3 t y]
  obtain ⟨r, g, rfl⟩ : ∃ (r : Fin 1) (g : Fin 1024), y = ix2 r g := ⟨y 0, y 1, eq_ix2 y⟩
  obtain rfl : r = 0 := Subsingleton.elim _ _
  rw [Cert.Gin.G2_apply]
  refine (pay2_apply (iblk2 V c 1 t) (iblk2 V c 0 t) (iblk2 V c 2 t) g).trans ?_
  rw [blk2_0 V c t, blk2_1 V c t, blk2_2 V c t]
  rfl

/-- An index of the output row lies in the point's block iff each coordinate lies in the block's range. -/
theorem mem_blk2 (t : Fin cfg2.N) (i : S1x1024.Idx) :
    i ∈ ((cfg2.win 3).blk t).view.set ↔ ∀ a : Fin 2, win2_3.index t a * S1x1024.size a ≤ (i a).val ∧ (i a).val < win2_3.index t a * S1x1024.size a + S1x1024.size a := by
  show i ∈ ((View.whole main_v61).slice (win2_3.rect t)).set ↔ _
  rw [View.set_slice_whole, Rect.mem_set_unit]
  exact Iff.rfl

/-- The one point's block is the whole row. -/
theorem cover2 (i : S1x1024.Idx) :
    ∃ t : Fin cfg2.N, (cfg2.win 3).flush t = true ∧ i ∈ ((cfg2.win 3).blk t).view.set := by
  have h0 : (i 0).val < 1 := (i 0).isLt
  have h1 : (i 1).val < 1024 := (i 1).isLt
  refine ⟨t2_0, flush2_3 _, ?_⟩
  rw [mem_blk2]
  obtain ⟨-, -, -, -, -, -, e0, e1⟩ := idx2 t2_0
  intro a
  match a with
  | ⟨0, _⟩ => show win2_3.index t2_0 (0 : Fin 2) * 1 ≤ (i 0).val ∧ (i 0).val < win2_3.index t2_0 (0 : Fin 2) * 1 + 1; rw [e0]; omega
  | ⟨1, _⟩ => show win2_3.index t2_0 (1 : Fin 2) * 1024 ≤ (i 1).val ∧ (i 1).val < win2_3.index t2_0 (1 : Fin 2) * 1024 + 1024; rw [e1]; omega

/-- The head's kernel leaves the head's row: at graph g, the formula of the region-entry arrays. -/
theorem arr2 (c : Dev nD) :
    (dat2 V c).arrAt 3 cfg2.N = Cert.Gin.G2 (V c main_v58) (V c main_v59) (V c main_v60) :=
  (dat2 V c).arrAt_eq_of_cover 3 _ (fun t _ => flushed2 V c t) cover2

end Cert.KernelIdeal.RegionValue

end
-- ==== Proof.RefRun.lean ====
/-
  The reference program's @main as one straight line of host operations, the outlined functions' bodies written at
  their call sites over each call's own buffers, and its run: every weakly fair execution terminates and each buffer
  ends at the line's fold over the launch contents.

  The line is cut into six consecutive stretches, one per stage of the network (aggregate, dense, aggregate, dense,
  pool, head); the fold over the whole line is the folds over the stretches in turn.
-/
import proofs.«104349_j31988916420624_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A property of every entry of two lists holds of every entry of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- Edge endpoints and the first aggregation: the two rows of the edge table as flat index vectors (negative sources wrapped by the node count), the gather of the node features along the sources, their sum into the destinations, and the node features added back (18 operations). -/
abbrev opsA : List (HloOp τ sig (Elt F)) :=
  [ StableHlo.unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v0 main_v1 rfl shapeCasts_S1x6400000_S6400000,
    StableHlo.unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v2 main_v3 rfl shapeCasts_S1x6400000_S6400000,
    StableHlo.nullary main_c (constantI S_ 32 0#32),
    StableHlo.unary main_c main_v4 (broadcastInDim S6400000 ![] bcast_S_S6400000 : (⟨S_, .i32⟩ : BufTy).Contents (Elt F) → (⟨S6400000, .i32⟩ : BufTy).Contents (Elt F)),
    StableHlo.binary main_v1 main_v4 main_v5 (cmpi .slt : (⟨S6400000, .i32⟩ : BufTy).Contents (Elt F) → (⟨S6400000, .i32⟩ : BufTy).Contents (Elt F) → (⟨S6400000, .i1⟩ : BufTy).Contents (Elt F)),
    StableHlo.nullary main_c_0 (constantI S_ 32 200000#32),
    StableHlo.unary main_c_0 main_v6 (broadcastInDim S6400000 ![] bcast_S_S6400000 : (⟨S_, .i32⟩ : BufTy).Contents (Elt F) → (⟨S6400000, .i32⟩ : BufTy).Contents (Elt F)),
    StableHlo.binary main_v1 main_v6 main_v7 (addi : (⟨S6400000, .i32⟩ : BufTy).Contents (Elt F) → (⟨S6400000, .i32⟩ : BufTy).Contents (Elt F) → (⟨S6400000, .i32⟩ : BufTy).Contents (Elt F)),
    StableHlo.ternary main_v5 main_v7 main_v1 main_v8 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v8 main_v9 (broadcastInDim S6400000x1 ![0] bcast_S6400000_S6400000x1_0 : (⟨S6400000, .i32⟩ : BufTy).Contents (Elt F) → (⟨S6400000x1, .i32⟩ : BufTy).Contents (Elt F)),
    StableHlo.binary main_arg0 main_v9 main_v10 ((fun x i => Host.gather gather_S200000x1_S6400000x1_S6400000x1_1_0_n_n_0_1_11 x i) : (⟨S200000x1, .f32⟩ : BufTy).Contents (Elt F) → (⟨S6400000x1, .i32⟩ : BufTy).Contents (Elt F) → (⟨S6400000x1, .f32⟩ : BufTy).Contents (Elt F)),
    StableHlo.nullary main_cst (constant S_ .f32 0x00000000#32),
    StableHlo.unary main_cst main_v11 (broadcastInDim S200000x1 ![] bcast_S_S200000x1 : (⟨S_, .f32⟩ : BufTy).Contents (Elt F) → (⟨S200000x1, .f32⟩ : BufTy).Contents (Elt F)),
    StableHlo.unary main_v3 main_v12 (broadcastInDim S6400000x1 ![0] bcast_S6400000_S6400000x1_0 : (⟨S6400000, .i32⟩ : BufTy).Contents (Elt F) → (⟨S6400000x1, .i32⟩ : BufTy).Contents (Elt F)),
    StableHlo.ternary main_v11 main_v12 main_v10 main_v13 ((fun x i u => Host.scatterAdd scatter_S200000x1_S6400000x1_S6400000x1_1_0_0_1 x i u) : (⟨S200000x1, .f32⟩ : BufTy).Contents (Elt F) → (⟨S6400000x1, .i32⟩ : BufTy).Contents (Elt F) → (⟨S6400000x1, .f32⟩ : BufTy).Contents (Elt F) → (⟨S200000x1, .f32⟩ : BufTy).Contents (Elt F)),
    StableHlo.binary main_arg0 main_v13 main_v14 (addf : (⟨S200000x1, .f32⟩ : BufTy).Contents (Elt F) → (⟨S200000x1, .f32⟩ : BufTy).Contents (Elt F) → (⟨S200000x1, .f32⟩ : BufTy).Contents (Elt F)) ]
/-- Each touches TensorCore buffers only. -/
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
/-- Each determines everything it writes. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl⟩

/-- The first layer's two dense maps: the product with the first weight, bias, the maximum with zero (three operations of the outlined function), the product with the second weight, bias, and the smooth unit `x` where `x > 0`, `exp x - 1` elsewhere (fifteen operations of the outlined function and the two selections it calls) (26 operations). -/
abbrev opsB : List (HloOp τ sig (Elt F)) :=
  [ StableHlo.binary main_v14 main_arg3 main_v15 ((fun l r => Host.dotGeneral dot_S200000x1_S1x8_S200000x8_1_0_0_1_n_n none l r) : (⟨S200000x1, .f32⟩ : BufTy).Contents (Elt F) → (⟨S1x8, .f32⟩ : BufTy).Contents (Elt F) → (⟨S200000x8, .f32⟩ : BufTy).Contents (Elt F)),
    StableHlo.unary main_arg4 main_v16 (broadcastInDim S1x8 ![1] bcast_S8_S1x8_1 : (⟨S8, .f32⟩ : BufTy).Contents (Elt F) → (⟨S1x8, .f32⟩ : BufTy).Contents (Elt F)),
    StableHlo.unary main_v16 main_v17 (broadcastInDim S200000x8 ![0, 1] bcast_S1x8_S200000x8_0_1 : (⟨S1x8, .f32⟩ : BufTy).Contents (Elt F) → (⟨S200000x8, .f32⟩ : BufTy).Contents (Elt F)),
    StableHlo.binary main_v15 main_v17 main_v18 (addf : (⟨S200000x8, .f32⟩ : BufTy).Contents (Elt F) → (⟨S200000x8, .f32⟩ : BufTy).Contents (Elt F) → (⟨S200000x8, .f32⟩ : BufTy).Contents (Elt F)),
    StableHlo.TRef.nullary main_call0.cst (constant S_ .f32 0x00000000#32),
    StableHlo.TRef.unary main_call0.cst main_call0.v0 (broadcastInDim S200000x8 ![] bcast_S_S200000x8),
    StableHlo.TRef.binary (.of main_v18 : StableHlo.TRef sig ⟨S200000x8, .f32⟩) main_call0.v0 main_call0.v1 maximumf,
    StableHlo.binary main_v19 main_arg5 main_v20 ((fun l r => Host.dotGeneral dot_S200000x8_S8x8_S200000x8_1_0_0_1_n_n none l r) : (⟨S200000x8, .f32⟩ : BufTy).Contents (Elt F) → (⟨S8x8, .f32⟩ : BufTy).Contents (Elt F) → (⟨S200000x8, .f32⟩ : BufTy).Contents (Elt F)),
    StableHlo.unary main_arg6 main_v21 (broadcastInDim S1x8 ![1] bcast_S8_S1x8_1 : (⟨S8, .f32⟩ : BufTy).Contents (Elt F) → (⟨S1x8, .f32⟩ : BufTy).Contents (Elt F)),
    StableHlo.unary main_v21 main_v22 (broadcastInDim S200000x8 ![0, 1] bcast_S1x8_S200000x8_0_1 : (⟨S1x8, .f32⟩ : BufTy).Contents (Elt F) → (⟨S200000x8, .f32⟩ : BufTy).Contents (Elt F)),
    StableHlo.binary main_v20 main_v22 main_v23 (addf : (⟨S200000x8, .f32⟩ : BufTy).Contents (Elt F) → (⟨S200000x8, .f32⟩ : BufTy).Contents (Elt F) → (⟨S200000x8, .f32⟩ : BufTy).Contents (Elt F)),
    StableHlo.TRef.nullary main_call1.cst (constant S_ .f32 0x00000000#32),
    StableHlo.TRef.unary main_call1.cst main_call1.v0 (broadcastInDim S200000x8 ![] bcast_S_S200000x8),
    StableHlo.TRef.binary (.of main_v23 : StableHlo.TRef sig ⟨S200000x8, .f32⟩) main_call1.v0 main_call1.v1 (cmpf .ogt),
    StableHlo.TRef.nullary main_call1.cst_0 (constant S_ .f32 0x00000000#32),
    StableHlo.TRef.unary main_call1.cst_0 main_call1.v2 (broadcastInDim S200000x8 ![] bcast_S_S200000x8),
    StableHlo.TRef.binary (.of main_v23 : StableHlo.TRef sig ⟨S200000x8, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S200000x8 ![] bcast_S_S200000x8),
    StableHlo.TRef.ternary main_call1.v3 main_call1.call0.v1 (.of main_v23 : StableHlo.TRef sig ⟨S200000x8, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S200000x8 ![] bcast_S_S200000x8),
    StableHlo.TRef.binary main_call1.v6 main_call1.v5 main_call1.v7 mulf,
    StableHlo.TRef.ternary main_call1.v1 (.of main_v23 : StableHlo.TRef sig ⟨S200000x8, .f32⟩) main_call1.v7 main_call1.call1.v0 select ]
/-- Each touches TensorCore buffers only. -/
theorem opsB_sub : (opsB : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- Each determines everything it writes. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The second aggregation, over eight columns: the wrapped sources again, the gather, the sum into the destinations, the features added back (14 operations). -/
abbrev opsC : List (HloOp τ sig (Elt F)) :=
  [ StableHlo.nullary main_c_1 (constantI S_ 32 0#32),
    StableHlo.unary main_c_1 main_v25 (broadcastInDim S6400000 ![] bcast_S_S6400000 : (⟨S_, .i32⟩ : BufTy).Contents (Elt F) → (⟨S6400000, .i32⟩ : BufTy).Contents (Elt F)),
    StableHlo.binary main_v1 main_v25 main_v26 (cmpi .slt : (⟨S6400000, .i32⟩ : BufTy).Contents (Elt F) → (⟨S6400000, .i32⟩ : BufTy).Contents (Elt F) → (⟨S6400000, .i1⟩ : BufTy).Contents (Elt F)),
    StableHlo.nullary main_c_2 (constantI S_ 32 200000#32),
    StableHlo.unary main_c_2 main_v27 (broadcastInDim S6400000 ![] bcast_S_S6400000 : (⟨S_, .i32⟩ : BufTy).Contents (Elt F) → (⟨S6400000, .i32⟩ : BufTy).Contents (Elt F)),
    StableHlo.binary main_v1 main_v27 main_v28 (addi : (⟨S6400000, .i32⟩ : BufTy).Contents (Elt F) → (⟨S6400000, .i32⟩ : BufTy).Contents (Elt F) → (⟨S6400000, .i32⟩ : BufTy).Contents (Elt F)),
    StableHlo.ternary main_v26 main_v28 main_v1 main_v29 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v29 main_v30 (broadcastInDim S6400000x1 ![0] bcast_S6400000_S6400000x1_0 : (⟨S6400000, .i32⟩ : BufTy).Contents (Elt F) → (⟨S6400000x1, .i32⟩ : BufTy).Contents (Elt F)),
    StableHlo.binary main_v24 main_v30 main_v31 ((fun x i => Host.gather gather_S200000x8_S6400000x1_S6400000x8_1_0_n_n_0_1_18 x i) : (⟨S200000x8, .f32⟩ : BufTy).Contents (Elt F) → (⟨S6400000x1, .i32⟩ : BufTy).Contents (Elt F) → (⟨S6400000x8, .f32⟩ : BufTy).Contents (Elt F)),
    StableHlo.nullary main_cst_3 (constant S_ .f32 0x00000000#32),
    StableHlo.unary main_cst_3 main_v32 (broadcastInDim S200000x8 ![] bcast_S_S200000x8 : (⟨S_, .f32⟩ : BufTy).Contents (Elt F) → (⟨S200000x8, .f32⟩ : BufTy).Contents (Elt F)),
    StableHlo.unary main_v3 main_v33 (broadcastInDim S6400000x1 ![0] bcast_S6400000_S6400000x1_0 : (⟨S6400000, .i32⟩ : BufTy).Contents (Elt F) → (⟨S6400000x1, .i32⟩ : BufTy).Contents (Elt F)),
    StableHlo.ternary main_v32 main_v33 main_v31 main_v34 ((fun x i u => Host.scatterAdd scatter_S200000x8_S6400000x1_S6400000x8_1_0_0_1 x i u) : (⟨S200000x8, .f32⟩ : BufTy).Contents (Elt F) → (⟨S6400000x1, .i32⟩ : BufTy).Contents (Elt F) → (⟨S6400000x8, .f32⟩ : BufTy).Contents (Elt F) → (⟨S200000x8, .f32⟩ : BufTy).Contents (Elt F)),
    StableHlo.binary main_v24 main_v34 main_v35 (addf : (⟨S200000x8, .f32⟩ : BufTy).Contents (Elt F) → (⟨S200000x8, .f32⟩ : BufTy).Contents (Elt F) → (⟨S200000x8, .f32⟩ : BufTy).Contents (Elt F)) ]
/-- Each touches TensorCore buffers only. -/
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
/-- Each determines everything it writes. -/
theorem opsC_fresh : (opsC : List (HloOp τ sig (Elt F))).Forall fun op => op.fresh = ∅ :=
  ⟨rfl, rfl, rfl, rfl, rfl, rfl, rfl, rfl, rfl, rfl, rfl, rfl, rfl, rfl⟩

/-- The second layer's two dense maps: product, bias, maximum with zero (outlined), product, bias (11 operations). -/
abbrev opsD : List (HloOp τ sig (Elt F)) :=
  [ StableHlo.binary main_v35 main_arg7 main_v36 ((fun l r => Host.dotGeneral dot_S200000x8_S8x8_S200000x8_1_0_0_1_n_n none l r) : (⟨S200000x8, .f32⟩ : BufTy).Contents (Elt F) → (⟨S8x8, .f32⟩ : BufTy).Contents (Elt F) → (⟨S200000x8, .f32⟩ : BufTy).Contents (Elt F)),
    StableHlo.unary main_arg8 main_v37 (broadcastInDim S1x8 ![1] bcast_S8_S1x8_1 : (⟨S8, .f32⟩ : BufTy).Contents (Elt F) → (⟨S1x8, .f32⟩ : BufTy).Contents (Elt F)),
    StableHlo.unary main_v37 main_v38 (broadcastInDim S200000x8 ![0, 1] bcast_S1x8_S200000x8_0_1 : (⟨S1x8, .f32⟩ : BufTy).Contents (Elt F) → (⟨S200000x8, .f32⟩ : BufTy).Contents (Elt F)),
    StableHlo.binary main_v36 main_v38 main_v39 (addf : (⟨S200000x8, .f32⟩ : BufTy).Contents (Elt F) → (⟨S200000x8, .f32⟩ : BufTy).Contents (Elt F) → (⟨S200000x8, .f32⟩ : BufTy).Contents (Elt F)),
    StableHlo.TRef.nullary main_call2.cst (constant S_ .f32 0x00000000#32),
    StableHlo.TRef.unary main_call2.cst main_call2.v0 (broadcastInDim S200000x8 ![] bcast_S_S200000x8),
    StableHlo.TRef.binary (.of main_v39 : StableHlo.TRef sig ⟨S200000x8, .f32⟩) main_call2.v0 main_call2.v1 maximumf,
    StableHlo.binary main_v40 main_arg9 main_v41 ((fun l r => Host.dotGeneral dot_S200000x8_S8x8_S200000x8_1_0_0_1_n_n none l r) : (⟨S200000x8, .f32⟩ : BufTy).Contents (Elt F) → (⟨S8x8, .f32⟩ : BufTy).Contents (Elt F) → (⟨S200000x8, .f32⟩ : BufTy).Contents (Elt F)),
    StableHlo.unary main_arg10 main_v42 (broadcastInDim S1x8 ![1] bcast_S8_S1x8_1 : (⟨S8, .f32⟩ : BufTy).Contents (Elt F) → (⟨S1x8, .f32⟩ : BufTy).Contents (Elt F)),
    StableHlo.unary main_v42 main_v43 (broadcastInDim S200000x8 ![0, 1] bcast_S1x8_S200000x8_0_1 : (⟨S1x8, .f32⟩ : BufTy).Contents (Elt F) → (⟨S200000x8, .f32⟩ : BufTy).Contents (Elt F)),
    StableHlo.binary main_v41 main_v43 main_v44 (addf : (⟨S200000x8, .f32⟩ : BufTy).Contents (Elt F) → (⟨S200000x8, .f32⟩ : BufTy).Contents (Elt F) → (⟨S200000x8, .f32⟩ : BufTy).Contents (Elt F)) ]
/-- Each touches TensorCore buffers only. -/
theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each determines everything it writes. -/
theorem opsD_fresh : (opsD : List (HloOp τ sig (Elt F))).Forall fun op => op.fresh = ∅ :=
  ⟨rfl, rfl, rfl, rfl, rfl, rfl, rfl, rfl, rfl, rfl, rfl⟩

/-- Pooling per graph: the sum of the rows into their graphs, the count of rows per graph (a sum of ones), the count raised to at least one, and the quotient (16 operations). -/
abbrev opsE : List (HloOp τ sig (Elt F)) :=
  [ StableHlo.nullary main_cst_4 (constant S_ .f32 0x00000000#32),
    StableHlo.unary main_cst_4 main_v45 (broadcastInDim S1024x8 ![] bcast_S_S1024x8 : (⟨S_, .f32⟩ : BufTy).Contents (Elt F) → (⟨S1024x8, .f32⟩ : BufTy).Contents (Elt F)),
    StableHlo.unary main_arg2 main_v46 (broadcastInDim S200000x1 ![0] bcast_S200000_S200000x1_0 : (⟨S200000, .i32⟩ : BufTy).Contents (Elt F) → (⟨S200000x1, .i32⟩ : BufTy).Contents (Elt F)),
    StableHlo.ternary main_v45 main_v46 main_v44 main_v47 ((fun x i u => Host.scatterAdd scatter_S1024x8_S200000x1_S200000x8_1_0_0_1 x i u) : (⟨S1024x8, .f32⟩ : BufTy).Contents (Elt F) → (⟨S200000x1, .i32⟩ : BufTy).Contents (Elt F) → (⟨S200000x8, .f32⟩ : BufTy).Contents (Elt F) → (⟨S1024x8, .f32⟩ : BufTy).Contents (Elt F)),
    StableHlo.nullary main_cst_5 (constant S_ .f32 0x3F800000#32),
    StableHlo.unary main_cst_5 main_v48 (broadcastInDim S200000 ![] bcast_S_S200000 : (⟨S_, .f32⟩ : BufTy).Contents (Elt F) → (⟨S200000, .f32⟩ : BufTy).Contents (Elt F)),
    StableHlo.nullary main_cst_6 (constant S_ .f32 0x00000000#32),
    StableHlo.unary main_cst_6 main_v49 (broadcastInDim S1024 ![] bcast_S_S1024 : (⟨S_, .f32⟩ : BufTy).Contents (Elt F) → (⟨S1024, .f32⟩ : BufTy).Contents (Elt F)),
    StableHlo.unary main_arg2 main_v50 (broadcastInDim S200000x1 ![0] bcast_S200000_S200000x1_0 : (⟨S200000, .i32⟩ : BufTy).Contents (Elt F) → (⟨S200000x1, .i32⟩ : BufTy).Contents (Elt F)),
    StableHlo.ternary main_v49 main_v50 main_v48 main_v51 ((fun x i u => Host.scatterAdd scatter_S1024_S200000x1_S200000_n_0_0_1 x i u) : (⟨S1024, .f32⟩ : BufTy).Contents (Elt F) → (⟨S200000x1, .i32⟩ : BufTy).Contents (Elt F) → (⟨S200000, .f32⟩ : BufTy).Contents (Elt F) → (⟨S1024, .f32⟩ : BufTy).Contents (Elt F)),
    StableHlo.nullary main_cst_7 (constant S_ .f32 0x3F800000#32),
    StableHlo.unary main_cst_7 main_v52 (broadcastInDim S1024 ![] bcast_S_S1024 : (⟨S_, .f32⟩ : BufTy).Contents (Elt F) → (⟨S1024, .f32⟩ : BufTy).Contents (Elt F)),
    StableHlo.binary main_v51 main_v52 main_v53 (maximumf : (⟨S1024, .f32⟩ : BufTy).Contents (Elt F) → (⟨S1024, .f32⟩ : BufTy).Contents (Elt F) → (⟨S1024, .f32⟩ : BufTy).Contents (Elt F)),
    StableHlo.unary main_v53 main_v54 (broadcastInDim S1024x1 ![0] bcast_S1024_S1024x1_0 : (⟨S1024, .f32⟩ : BufTy).Contents (Elt F) → (⟨S1024x1, .f32⟩ : BufTy).Contents (Elt F)),
    StableHlo.unary main_v54 main_v55 (broadcastInDim S1024x8 ![0, 1] bcast_S1024x1_S1024x8_0_1 : (⟨S1024x1, .f32⟩ : BufTy).Contents (Elt F) → (⟨S1024x8, .f32⟩ : BufTy).Contents (Elt F)),
    StableHlo.binary main_v47 main_v55 main_v56 (Host.divf : (⟨S1024x8, .f32⟩ : BufTy).Contents (Elt F) → (⟨S1024x8, .f32⟩ : BufTy).Contents (Elt F) → (⟨S1024x8, .f32⟩ : BufTy).Contents (Elt F)) ]
/-- Each touches TensorCore buffers only. -/
theorem opsE_sub : (opsE : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
/-- Each determines everything it writes. -/
theorem opsE_fresh : (opsE : List (HloOp τ sig (Elt F))).Forall fun op => op.fresh = ∅ :=
  ⟨rfl, rfl, rfl, rfl, rfl, rfl, rfl, rfl, rfl, rfl, rfl, rfl, rfl, rfl, rfl, rfl⟩

/-- The head: the product with the last weight, bias, and `1 / (1 + exp (-z))`, flattened to a vector (13 operations). -/
abbrev opsF : List (HloOp τ sig (Elt F)) :=
  [ StableHlo.binary main_v56 main_arg11 main_v57 ((fun l r => Host.dotGeneral dot_S1024x8_S8x1_S1024x1_1_0_0_1_n_n none l r) : (⟨S1024x8, .f32⟩ : BufTy).Contents (Elt F) → (⟨S8x1, .f32⟩ : BufTy).Contents (Elt F) → (⟨S1024x1, .f32⟩ : BufTy).Contents (Elt F)),
    StableHlo.unary main_arg12 main_v58 (broadcastInDim S1x1 ![1] bcast_S1_S1x1_1 : (⟨S1, .f32⟩ : BufTy).Contents (Elt F) → (⟨S1x1, .f32⟩ : BufTy).Contents (Elt F)),
    StableHlo.unary main_v58 main_v59 (broadcastInDim S1024x1 ![0, 1] bcast_S1x1_S1024x1_0_1 : (⟨S1x1, .f32⟩ : BufTy).Contents (Elt F) → (⟨S1024x1, .f32⟩ : BufTy).Contents (Elt F)),
    StableHlo.binary main_v57 main_v59 main_v60 (addf : (⟨S1024x1, .f32⟩ : BufTy).Contents (Elt F) → (⟨S1024x1, .f32⟩ : BufTy).Contents (Elt F) → (⟨S1024x1, .f32⟩ : BufTy).Contents (Elt F)),
    StableHlo.unary main_v60 main_v61 (Host.negf : (⟨S1024x1, .f32⟩ : BufTy).Contents (Elt F) → (⟨S1024x1, .f32⟩ : BufTy).Contents (Elt F)),
    StableHlo.unary main_v61 main_v62 (Host.exp : (⟨S1024x1, .f32⟩ : BufTy).Contents (Elt F) → (⟨S1024x1, .f32⟩ : BufTy).Contents (Elt F)),
    StableHlo.nullary main_cst_8 (constant S_ .f32 0x3F800000#32),
    StableHlo.unary main_cst_8 main_v63 (broadcastInDim S1024x1 ![] bcast_S_S1024x1 : (⟨S_, .f32⟩ : BufTy).Contents (Elt F) → (⟨S1024x1, .f32⟩ : BufTy).Contents (Elt F)),
    StableHlo.binary main_v63 main_v62 main_v64 (addf : (⟨S1024x1, .f32⟩ : BufTy).Contents (Elt F) → (⟨S1024x1, .f32⟩ : BufTy).Contents (Elt F) → (⟨S1024x1, .f32⟩ : BufTy).Contents (Elt F)),
    StableHlo.nullary main_cst_9 (constant S_ .f32 0x3F800000#32),
    StableHlo.unary main_cst_9 main_v65 (broadcastInDim S1024x1 ![] bcast_S_S1024x1 : (⟨S_, .f32⟩ : BufTy).Contents (Elt F) → (⟨S1024x1, .f32⟩ : BufTy).Contents (Elt F)),
    StableHlo.binary main_v65 main_v64 main_v66 (Host.divf : (⟨S1024x1, .f32⟩ : BufTy).Contents (Elt F) → (⟨S1024x1, .f32⟩ : BufTy).Contents (Elt F) → (⟨S1024x1, .f32⟩ : BufTy).Contents (Elt F)),
    StableHlo.reshape main_v66 main_v67 rfl shapeCasts_S1024x1_S1024 ]
/-- Each touches TensorCore buffers only. -/
theorem opsF_sub : (opsF : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩
/-- Each determines everything it writes. -/
theorem opsF_fresh : (opsF : List (HloOp τ sig (Elt F))).Forall fun op => op.fresh = ∅ :=
  ⟨rfl, rfl, rfl, rfl, rfl, rfl, rfl, rfl, rfl, rfl, rfl, rfl, rfl⟩

/-- @main's 98 operations, in order. -/
abbrev ops : List (HloOp τ sig (Elt F)) := opsA ++ (opsB ++ (opsC ++ (opsD ++ (opsE ++ opsF))))

-- ninety-eight binds re-associated: the rewriting recurses once per statement
set_option maxRecDepth 16384 in
set_option maxHeartbeats 4000000 in
/-- @main is that straight line: its two windows in order, the outlined functions unfolded at their calls and the
    records at their fields; both sides are one chain of steps once sequencing is re-associated. -/
theorem main_eq (c : Dev nD) : main (F := F) c = seq ops := by
  simp only [ops, opsA, opsB, opsC, opsD, opsE, opsF, List.cons_append, List.nil_append,
    main, main_part0, main_part1, fn_relu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append opsA_sub (forall_append opsB_sub (forall_append opsC_sub (forall_append opsD_sub (forall_append opsE_sub opsF_sub))))

theorem ops_fresh : ∀ op ∈ (ops : List (HloOp τ sig (Elt F))), op.fresh = ∅ :=
  List.forall_iff_forall_mem.1
    (forall_append opsA_fresh (forall_append opsB_fresh (forall_append opsC_fresh (forall_append opsD_fresh (forall_append opsE_fresh opsF_fresh)))))

/-- For any float values, from any memory with zero counters: every weakly fair execution of @main terminates, and
    every final state has each buffer at the line's fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefStages.lean ====
/-
  The reference program's result as a composition of named stages.

  Each stage is the program's own host operations, in the program's order, applied to arrays: the neighbour sum of a
  node array over the edge list (a gather at the edges' sources, then a scatter-add at their destinations), the two
  dense layers (x·W + b, a rectifier, x·W + b; the first followed by the exponential linear unit as jax spells it),
  the mean over each graph's nodes, and the head (a product with one column, the bias, and 1 / (1 + exp (-x))).
  Nothing is proved here: the definitions only name the terms the run leaves in the result buffer.
-/
import proofs.«104349_j31988916420624_1_alg».proof.ReferenceIdeal

noncomputable section

namespace Cert.ReferenceIdeal.Stages

open Cert.ReferenceIdeal Idealize.ShloMosaic Idealize.SL.Sem
open Cert.ReferenceIdeal.Facts₀ Cert.ReferenceIdeal.Facts

/-- An array of shape `s` and element type `e`, as a buffer of that type holds it. -/
abbrev Arr (F : FTy → Type) (s : Shape) (e : EltTy) : Type := (⟨s, e⟩ : BufTy).Contents (Elt F)

variable {F : FTy → Type} [FloatOps F] [Cert.ReferenceIdeal.Facts]

/-- The splat of the f32 word `w` over shape `s`. -/
abbrev zeros1 : Arr F S200000x1 .f32 := broadcastInDim S200000x1 ![] bcast_S_S200000x1 (constant S_ .f32 0x00000000#32)
abbrev zeros8 : Arr F S200000x8 .f32 := broadcastInDim S200000x8 ![] bcast_S_S200000x8 (constant S_ .f32 0x00000000#32)
abbrev ones8 : Arr F S200000x8 .f32 := broadcastInDim S200000x8 ![] bcast_S_S200000x8 (constant S_ .f32 0x3F800000#32)

/-- Row `0` of the edge list, flat: every edge's source node. -/
def srcOf (ei : Arr F S2x6400000 .i32) : Arr F S6400000 .i32 :=
  shapeCast S6400000 (extractStridedSlice S1x6400000 ![0, 0] ei slices_S2x6400000_S1x6400000_0_0) shapeCasts_S1x6400000_S6400000

/-- Row `1` of the edge list, flat: every edge's destination node. -/
def dstOf (ei : Arr F S2x6400000 .i32) : Arr F S6400000 .i32 :=
  shapeCast S6400000 (extractStridedSlice S1x6400000 ![1, 0] ei slices_S2x6400000_S1x6400000_1_0) shapeCasts_S1x6400000_S6400000

/-- The sources as a column of gather positions, a negative one wrapped by the node count first. -/
def srcCol (ei : Arr F S2x6400000 .i32) : Arr F S6400000x1 .i32 :=
  broadcastInDim S6400000x1 ![0] bcast_S6400000_S6400000x1_0
    (select (cmpi .slt (srcOf ei) (broadcastInDim S6400000 ![] bcast_S_S6400000 (constantI S_ 32 0#32)))
      (addi (srcOf ei) (broadcastInDim S6400000 ![] bcast_S_S6400000 (constantI S_ 32 200000#32))) (srcOf ei))

/-- The destinations as a column of scatter positions. -/
def dstCol (ei : Arr F S2x6400000 .i32) : Arr F S6400000x1 .i32 :=
  broadcastInDim S6400000x1 ![0] bcast_S6400000_S6400000x1_0 (dstOf ei)

/-- The neighbour sum of a one-feature node array. -/
def aggregate1 (x : Arr F S200000x1 .f32) (ei : Arr F S2x6400000 .i32) : Arr F S200000x1 .f32 :=
  Host.scatterAdd scatter_S200000x1_S6400000x1_S6400000x1_1_0_0_1 zeros1 (dstCol ei)
    (Host.gather gather_S200000x1_S6400000x1_S6400000x1_1_0_n_n_0_1_11 x (srcCol ei))

/-- The neighbour sum of an eight-feature node array. -/
def aggregate8 (h : Arr F S200000x8 .f32) (ei : Arr F S2x6400000 .i32) : Arr F S200000x8 .f32 :=
  Host.scatterAdd scatter_S200000x8_S6400000x1_S6400000x8_1_0_0_1 zeros8 (dstCol ei)
    (Host.gather gather_S200000x8_S6400000x1_S6400000x8_1_0_n_n_0_1_18 h (srcCol ei))

/-- A bias vector repeated on every node's row. -/
def biasRows (b : Arr F S8 .f32) : Arr F S200000x8 .f32 :=
  broadcastInDim S200000x8 ![0, 1] bcast_S1x8_S200000x8_0_1 (broadcastInDim S1x8 ![1] bcast_S8_S1x8_1 b)

/-- The rectifier: the maximum with zero. -/
def relu (z : Arr F S200000x8 .f32) : Arr F S200000x8 .f32 := maximumf z zeros8

/-- The exponential linear unit as jax spells it: `z` where `z > 0`, elsewhere `1 · expm1` of `z` with the positive
    entries replaced by zero. -/
def eluH (z : Arr F S200000x8 .f32) : Arr F S200000x8 .f32 :=
  select (cmpf .ogt z zeros8) z (mulf ones8 (Host.expm1 (select (cmpf .ogt z zeros8) zeros8 z)))

/-- The first layer: (x + agg)·W₁ + b₁, rectified, ·W₂ + b₂, then the exponential linear unit. -/
def dense1 (x agg : Arr F S200000x1 .f32) (W1a : Arr F S1x8 .f32) (b1a : Arr F S8 .f32) (W1b : Arr F S8x8 .f32) (b1b : Arr F S8 .f32) :
    Arr F S200000x8 .f32 :=
  eluH (addf (Host.dotGeneral dot_S200000x8_S8x8_S200000x8_1_0_0_1_n_n none
    (relu (addf (Host.dotGeneral dot_S200000x1_S1x8_S200000x8_1_0_0_1_n_n none (addf x agg) W1a) (biasRows b1a))) W1b) (biasRows b1b))

/-- The second layer: (h + agg)·W₁ + b₁, rectified, ·W₂ + b₂. -/
def dense2 (h agg : Arr F S200000x8 .f32) (W2a : Arr F S8x8 .f32) (b2a : Arr F S8 .f32) (W2b : Arr F S8x8 .f32) (b2b : Arr F S8 .f32) :
    Arr F S200000x8 .f32 :=
  addf (Host.dotGeneral dot_S200000x8_S8x8_S200000x8_1_0_0_1_n_n none
    (relu (addf (Host.dotGeneral dot_S200000x8_S8x8_S200000x8_1_0_0_1_n_n none (addf h agg) W2a) (biasRows b2a))) W2b) (biasRows b2b)

/-- The graph of every node as a column of scatter positions. -/
def batchCol (batch : Arr F S200000 .i32) : Arr F S200000x1 .i32 :=
  broadcastInDim S200000x1 ![0] bcast_S200000_S200000x1_0 batch

/-- The mean of the node rows of each graph: the per-graph sums over the per-graph counts, a count below one read as
    one. -/
def pooled (h2 : Arr F S200000x8 .f32) (batch : Arr F S200000 .i32) : Arr F S1024x8 .f32 :=
  Host.divf
    (Host.scatterAdd scatter_S1024x8_S200000x1_S200000x8_1_0_0_1
      (broadcastInDim S1024x8 ![] bcast_S_S1024x8 (constant S_ .f32 0x00000000#32)) (batchCol batch) h2)
    (broadcastInDim S1024x8 ![0, 1] bcast_S1024x1_S1024x8_0_1 (broadcastInDim S1024x1 ![0] bcast_S1024_S1024x1_0
      (maximumf
        (Host.scatterAdd scatter_S1024_S200000x1_S200000_n_0_0_1
          (broadcastInDim S1024 ![] bcast_S_S1024 (constant S_ .f32 0x00000000#32)) (batchCol batch)
          (broadcastInDim S200000 ![] bcast_S_S200000 (constant S_ .f32 0x3F800000#32)))
        (broadcastInDim S1024 ![] bcast_S_S1024 (constant S_ .f32 0x3F800000#32)))))

/-- The head: p·w + b through 1 / (1 + exp (-x)), flat. -/
def head (p : Arr F S1024x8 .f32) (Wfc : Arr F S8x1 .f32) (bfc : Arr F S1 .f32) : Arr F S1024 .f32 :=
  shapeCast S1024
    (Host.divf (broadcastInDim S1024x1 ![] bcast_S_S1024x1 (constant S_ .f32 0x3F800000#32))
      (addf (broadcastInDim S1024x1 ![] bcast_S_S1024x1 (constant S_ .f32 0x3F800000#32))
        (Host.exp (Host.negf (addf (Host.dotGeneral dot_S1024x8_S8x1_S1024x1_1_0_0_1_n_n none p Wfc)
          (broadcastInDim S1024x1 ![0, 1] bcast_S1x1_S1024x1_0_1 (broadcastInDim S1x1 ![1] bcast_S1_S1x1_1 bfc)))))))
    shapeCasts_S1024x1_S1024

/-- The reference's result of its thirteen arguments. -/
def refOut (x : Arr F S200000x1 .f32) (ei : Arr F S2x6400000 .i32) (batch : Arr F S200000 .i32)
    (W1a : Arr F S1x8 .f32) (b1a : Arr F S8 .f32) (W1b : Arr F S8x8 .f32) (b1b : Arr F S8 .f32)
    (W2a : Arr F S8x8 .f32) (b2a : Arr F S8 .f32) (W2b : Arr F S8x8 .f32) (b2b : Arr F S8 .f32)
    (Wfc : Arr F S8x1 .f32) (bfc : Arr F S1 .f32) : Arr F S1024 .f32 :=
  head (pooled (dense2 (dense1 x (aggregate1 x ei) W1a b1a W1b b1b)
      (aggregate8 (dense1 x (aggregate1 x ei) W1a b1a W1b b1b) ei) W2a b2a W2b b2b) batch) Wfc bfc

end Cert.ReferenceIdeal.Stages

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.RefRead.lean ====
/-
  What the reference's line of host operations leaves in its result buffer, read stage by stage.

  The line is six consecutive stretches. From ANY contents, each stretch leaves in the one buffer later stretches read
  that stage's function of the few buffers it reads itself, and leaves every buffer it does not write as it found it.
  Composing the six readings gives the result as the named composition of stages over the thirteen arguments; the
  arguments themselves are written by no operation.
-/
import proofs.«104349_j31988916420624_1_alg».proof.Proof.RefRun
import proofs.«104349_j31988916420624_1_alg».proof.Proof.RefStages
import proofs.«104349_j31988916420624_1_alg».proof.Proof.LibHostRead
import proofs.«104349_j31988916420624_1_alg».proof.Proof.LibHostJoin
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Stages (Arr)

variable {F : FTy → Type} [FloatOps F]

/-! ## What each stretch writes -/

/-- The buffers stretch opsA writes, in order. -/
abbrev ysA : List (Ref sig .tc) :=
  [main_v0, main_v1, main_v2, main_v3, main_c, main_v4, main_v5, main_c_0, main_v6, main_v7, main_v8, main_v9, main_v10, main_cst, main_v11, main_v12, main_v13, main_v14]
theorem outsA : HostRead.Outs (opsA : List (HloOp τ sig (Elt F))) ysA :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))
/-- A buffer the stretch does not write keeps its contents. -/
theorem keepA (r : Ref sig .tc) (hr : r ∉ ysA) (W : Valuation τ sig (Elt F)) :
    after opsA W (r : DevRef τ sig) = W (r : DevRef τ sig) :=
  after_of_forall_not_mem _ _ (HostRead.not_written outsA r hr)

/-- The buffers stretch opsB writes, in order. -/
abbrev ysB : List (Ref sig .tc) :=
  [main_v15, main_v16, main_v17, main_v18, main_call0_cst, main_call0_v0, main_v19, main_v20, main_v21, main_v22, main_v23, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v24]
theorem outsB : HostRead.Outs (opsB : List (HloOp τ sig (Elt F))) ysB :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))
/-- A buffer the stretch does not write keeps its contents. -/
theorem keepB (r : Ref sig .tc) (hr : r ∉ ysB) (W : Valuation τ sig (Elt F)) :
    after opsB W (r : DevRef τ sig) = W (r : DevRef τ sig) :=
  after_of_forall_not_mem _ _ (HostRead.not_written outsB r hr)

/-- The buffers stretch opsC writes, in order. -/
abbrev ysC : List (Ref sig .tc) :=
  [main_c_1, main_v25, main_v26, main_c_2, main_v27, main_v28, main_v29, main_v30, main_v31, main_cst_3, main_v32, main_v33, main_v34, main_v35]
theorem outsC : HostRead.Outs (opsC : List (HloOp τ sig (Elt F))) ysC :=
  .cons rfl (.cons rfl (.cons rfl (.cons rfl (.cons rfl (.cons rfl (.cons rfl (.cons rfl (.cons rfl (.cons rfl (.cons rfl (.cons rfl (.cons rfl (.cons rfl (.nil))))))))))))))
/-- A buffer the stretch does not write keeps its contents. -/
theorem keepC (r : Ref sig .tc) (hr : r ∉ ysC) (W : Valuation τ sig (Elt F)) :
    after opsC W (r : DevRef τ sig) = W (r : DevRef τ sig) :=
  after_of_forall_not_mem _ _ (HostRead.not_written outsC r hr)

/-- The buffers stretch opsD writes, in order. -/
abbrev ysD : List (Ref sig .tc) :=
  [main_v36, main_v37, main_v38, main_v39, main_call2_cst, main_call2_v0, main_v40, main_v41, main_v42, main_v43, main_v44]
theorem outsD : HostRead.Outs (opsD : List (HloOp τ sig (Elt F))) ysD :=
  .cons rfl (.cons rfl (.cons rfl (.cons rfl (.cons rfl (.cons rfl (.cons rfl (.cons rfl (.cons rfl (.cons rfl (.cons rfl (.nil)))))))))))
/-- A buffer the stretch does not write keeps its contents. -/
theorem keepD (r : Ref sig .tc) (hr : r ∉ ysD) (W : Valuation τ sig (Elt F)) :
    after opsD W (r : DevRef τ sig) = W (r : DevRef τ sig) :=
  after_of_forall_not_mem _ _ (HostRead.not_written outsD r hr)

/-- The buffers stretch opsE writes, in order. -/
abbrev ysE : List (Ref sig .tc) :=
  [main_cst_4, main_v45, main_v46, main_v47, main_cst_5, main_v48, main_cst_6, main_v49, main_v50, main_v51, main_cst_7, main_v52, main_v53, main_v54, main_v55, main_v56]
theorem outsE : HostRead.Outs (opsE : List (HloOp τ sig (Elt F))) ysE :=
  .cons rfl (.cons rfl (.cons rfl (.cons rfl (.cons rfl (.cons rfl (.cons rfl (.cons rfl (.cons rfl (.cons rfl (.cons rfl (.cons rfl (.cons rfl (.cons rfl (.cons rfl (.cons rfl (.nil))))))))))))))))
/-- A buffer the stretch does not write keeps its contents. -/
theorem keepE (r : Ref sig .tc) (hr : r ∉ ysE) (W : Valuation τ sig (Elt F)) :
    after opsE W (r : DevRef τ sig) = W (r : DevRef τ sig) :=
  after_of_forall_not_mem _ _ (HostRead.not_written outsE r hr)

/-- The buffers stretch opsF writes, in order. -/
abbrev ysF : List (Ref sig .tc) :=
  [main_v57, main_v58, main_v59, main_v60, main_v61, main_v62, main_cst_8, main_v63, main_v64, main_cst_9, main_v65, main_v66, main_v67]
theorem outsF : HostRead.Outs (opsF : List (HloOp τ sig (Elt F))) ysF :=
  .cons rfl (.cons rfl (.cons rfl (.cons rfl (.cons rfl (.cons rfl (.cons rfl (.cons rfl (.cons rfl (.cons rfl (.cons rfl (.cons rfl (.cons rfl (.nil)))))))))))))
/-- A buffer the stretch does not write keeps its contents. -/
theorem keepF (r : Ref sig .tc) (hr : r ∉ ysF) (W : Valuation τ sig (Elt F)) :
    after opsF W (r : DevRef τ sig) = W (r : DevRef τ sig) :=
  after_of_forall_not_mem _ _ (HostRead.not_written outsF r hr)

/-- Every buffer the whole line writes. -/
theorem outs_all : HostRead.Outs (ops : List (HloOp τ sig (Elt F))) (ysA ++ (ysB ++ (ysC ++ (ysD ++ (ysE ++ ysF))))) :=
  List.rel_append outsA (List.rel_append outsB (List.rel_append outsC (List.rel_append outsD (List.rel_append outsE outsF))))

/-- A buffer the line does not write keeps its contents. -/
theorem keep_all (r : Ref sig .tc) (hr : r ∉ ysA ++ (ysB ++ (ysC ++ (ysD ++ (ysE ++ ysF))))) (V : Valuation τ sig (Elt F)) :
    after ops V (r : DevRef τ sig) = V (r : DevRef τ sig) :=
  after_of_forall_not_mem _ _ (HostRead.not_written outs_all r hr)

/-! ## The stages as functions of what each stretch reads -/

/-- The two dense maps of the first layer and the smooth unit, of the summed features. -/
def mlp1 (z : Arr F S200000x1 .f32) (W1a : Arr F S1x8 .f32) (b1a : Arr F S8 .f32) (W1b : Arr F S8x8 .f32) (b1b : Arr F S8 .f32) :
    Arr F S200000x8 .f32 :=
  Stages.eluH (addf (Host.dotGeneral dot_S200000x8_S8x8_S200000x8_1_0_0_1_n_n none
    (Stages.relu (addf (Host.dotGeneral dot_S200000x1_S1x8_S200000x8_1_0_0_1_n_n none z W1a) (Stages.biasRows b1a))) W1b) (Stages.biasRows b1b))

/-- The two dense maps of the second layer, of the summed features. -/
def mlp2 (z : Arr F S200000x8 .f32) (W2a : Arr F S8x8 .f32) (b2a : Arr F S8 .f32) (W2b : Arr F S8x8 .f32) (b2b : Arr F S8 .f32) :
    Arr F S200000x8 .f32 :=
  addf (Host.dotGeneral dot_S200000x8_S8x8_S200000x8_1_0_0_1_n_n none
    (Stages.relu (addf (Host.dotGeneral dot_S200000x8_S8x8_S200000x8_1_0_0_1_n_n none z W2a) (Stages.biasRows b2a))) W2b) (Stages.biasRows b2b)

/-- The neighbour sum of an eight-feature array from the flat endpoint vectors. -/
def aggFrom (h : Arr F S200000x8 .f32) (src dst : Arr F S6400000 .i32) : Arr F S200000x8 .f32 :=
  Host.scatterAdd scatter_S200000x8_S6400000x1_S6400000x8_1_0_0_1 Stages.zeros8
    (broadcastInDim S6400000x1 ![0] bcast_S6400000_S6400000x1_0 dst)
    (Host.gather gather_S200000x8_S6400000x1_S6400000x8_1_0_n_n_0_1_18 h
      (broadcastInDim S6400000x1 ![0] bcast_S6400000_S6400000x1_0
        (select (cmpi .slt src (broadcastInDim S6400000 ![] bcast_S_S6400000 (constantI S_ 32 0#32)))
          (addi src (broadcastInDim S6400000 ![] bcast_S_S6400000 (constantI S_ 32 200000#32))) src)))

/-! ## Each stretch read -/

attribute [local irreducible] Host.gather Host.scatterAdd Host.expm1 Host.exp Host.divf Host.negf in
theorem A_v14 (W : Valuation τ sig (Elt F)) :
    after opsA W (main_v14 : DevRef τ sig) = addf (W (main_arg0 : DevRef τ sig)) (Stages.aggregate1 (W (main_arg0 : DevRef τ sig)) (W (main_arg1 : DevRef τ sig))) := by
  host_read
  rfl

attribute [local irreducible] Host.gather Host.scatterAdd Host.expm1 Host.exp Host.divf Host.negf in
theorem A_v1 (W : Valuation τ sig (Elt F)) :
    after opsA W (main_v1 : DevRef τ sig) = Stages.srcOf (W (main_arg1 : DevRef τ sig)) := by
  host_read
  rfl

attribute [local irreducible] Host.gather Host.scatterAdd Host.expm1 Host.exp Host.divf Host.negf in
theorem A_v3 (W : Valuation τ sig (Elt F)) :
    after opsA W (main_v3 : DevRef τ sig) = Stages.dstOf (W (main_arg1 : DevRef τ sig)) := by
  host_read
  rfl

attribute [local irreducible] Host.gather Host.scatterAdd Host.expm1 Host.exp Host.divf Host.negf in
theorem B_v24 (W : Valuation τ sig (Elt F)) :
    after opsB W (main_v24 : DevRef τ sig)
      = mlp1 (W (main_v14 : DevRef τ sig)) (W (main_arg3 : DevRef τ sig)) (W (main_arg4 : DevRef τ sig)) (W (main_arg5 : DevRef τ sig)) (W (main_arg6 : DevRef τ sig)) := by
  host_read
  rfl

attribute [local irreducible] Host.gather Host.scatterAdd Host.expm1 Host.exp Host.divf Host.negf in
theorem C_v35 (W : Valuation τ sig (Elt F)) :
    after opsC W (main_v35 : DevRef τ sig)
      = addf (W (main_v24 : DevRef τ sig)) (aggFrom (W (main_v24 : DevRef τ sig)) (W (main_v1 : DevRef τ sig)) (W (main_v3 : DevRef τ sig))) := by
  host_read
  rfl

attribute [local irreducible] Host.gather Host.scatterAdd Host.expm1 Host.exp Host.divf Host.negf in
theorem D_v44 (W : Valuation τ sig (Elt F)) :
    after opsD W (main_v44 : DevRef τ sig)
      = mlp2 (W (main_v35 : DevRef τ sig)) (W (main_arg7 : DevRef τ sig)) (W (main_arg8 : DevRef τ sig)) (W (main_arg9 : DevRef τ sig)) (W (main_arg10 : DevRef τ sig)) := by
  host_read
  rfl

attribute [local irreducible] Host.gather Host.scatterAdd Host.expm1 Host.exp Host.divf Host.negf in
theorem E_v56 (W : Valuation τ sig (Elt F)) :
    after opsE W (main_v56 : DevRef τ sig) = Stages.pooled (W (main_v44 : DevRef τ sig)) (W (main_arg2 : DevRef τ sig)) := by
  host_read
  rfl

attribute [local irreducible] Host.gather Host.scatterAdd Host.expm1 Host.exp Host.divf Host.negf in
theorem F_v67 (W : Valuation τ sig (Elt F)) :
    after opsF W (main_v67 : DevRef τ sig) = Stages.head (W (main_v56 : DevRef τ sig)) (W (main_arg11 : DevRef τ sig)) (W (main_arg12 : DevRef τ sig)) := by
  host_read
  rfl

/-! ## The whole line -/

attribute [local irreducible] Host.gather Host.scatterAdd Host.expm1 Host.exp Host.divf Host.negf in
/-- The result buffer after the line: the stages composed over the arguments. -/
theorem out_eq (V : Valuation τ sig (Elt F)) :
    after ops V (main_v67 : DevRef τ sig)
      = Stages.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  simp only [ops, HostRead.after_append]
  rw [F_v67, keepE main_arg11 (by decide), keepE main_arg12 (by decide), E_v56,
    keepD main_arg2 (by decide), keepD main_arg11 (by decide), keepD main_arg12 (by decide), D_v44,
    keepC main_arg7 (by decide), keepC main_arg8 (by decide), keepC main_arg9 (by decide), keepC main_arg10 (by decide),
    keepC main_arg2 (by decide), keepC main_arg11 (by decide), keepC main_arg12 (by decide), C_v35,
    keepB main_v1 (by decide), keepB main_v3 (by decide),
    keepB main_arg7 (by decide), keepB main_arg8 (by decide), keepB main_arg9 (by decide), keepB main_arg10 (by decide),
    keepB main_arg2 (by decide), keepB main_arg11 (by decide), keepB main_arg12 (by decide), B_v24,
    keepA main_arg3 (by decide), keepA main_arg4 (by decide), keepA main_arg5 (by decide), keepA main_arg6 (by decide),
    keepA main_arg7 (by decide), keepA main_arg8 (by decide), keepA main_arg9 (by decide), keepA main_arg10 (by decide),
    keepA main_arg2 (by decide), keepA main_arg11 (by decide), keepA main_arg12 (by decide), A_v1, A_v3, A_v14]
  rfl

theorem arg0_eq (V : Valuation τ sig (Elt F)) :
    after ops V (main_arg0 : DevRef τ sig) = V (main_arg0 : DevRef τ sig) := keep_all main_arg0 (by decide) V
theorem arg1_eq (V : Valuation τ sig (Elt F)) :
    after ops V (main_arg1 : DevRef τ sig) = V (main_arg1 : DevRef τ sig) := keep_all main_arg1 (by decide) V
theorem arg2_eq (V : Valuation τ sig (Elt F)) :
    after ops V (main_arg2 : DevRef τ sig) = V (main_arg2 : DevRef τ sig) := keep_all main_arg2 (by decide) V
theorem arg3_eq (V : Valuation τ sig (Elt F)) :
    after ops V (main_arg3 : DevRef τ sig) = V (main_arg3 : DevRef τ sig) := keep_all main_arg3 (by decide) V
theorem arg4_eq (V : Valuation τ sig (Elt F)) :
    after ops V (main_arg4 : DevRef τ sig) = V (main_arg4 : DevRef τ sig) := keep_all main_arg4 (by decide) V
theorem arg5_eq (V : Valuation τ sig (Elt F)) :
    after ops V (main_arg5 : DevRef τ sig) = V (main_arg5 : DevRef τ sig) := keep_all main_arg5 (by decide) V
theorem arg6_eq (V : Valuation τ sig (Elt F)) :
    after ops V (main_arg6 : DevRef τ sig) = V (main_arg6 : DevRef τ sig) := keep_all main_arg6 (by decide) V
theorem arg7_eq (V : Valuation τ sig (Elt F)) :
    after ops V (main_arg7 : DevRef τ sig) = V (main_arg7 : DevRef τ sig) := keep_all main_arg7 (by decide) V
theorem arg8_eq (V : Valuation τ sig (Elt F)) :
    after ops V (main_arg8 : DevRef τ sig) = V (main_arg8 : DevRef τ sig) := keep_all main_arg8 (by decide) V
theorem arg9_eq (V : Valuation τ sig (Elt F)) :
    after ops V (main_arg9 : DevRef τ sig) = V (main_arg9 : DevRef τ sig) := keep_all main_arg9 (by decide) V
theorem arg10_eq (V : Valuation τ sig (Elt F)) :
    after ops V (main_arg10 : DevRef τ sig) = V (main_arg10 : DevRef τ sig) := keep_all main_arg10 (by decide) V
theorem arg11_eq (V : Valuation τ sig (Elt F)) :
    after ops V (main_arg11 : DevRef τ sig) = V (main_arg11 : DevRef τ sig) := keep_all main_arg11 (by decide) V
theorem arg12_eq (V : Valuation τ sig (Elt F)) :
    after ops V (main_arg12 : DevRef τ sig) = V (main_arg12 : DevRef τ sig) := keep_all main_arg12 (by decide) V

/-! ## The run -/

/-- At the exact instance, from any memory with zero counters: every weakly fair execution of @main terminates with
    the result buffer at the stages composed over the launch contents of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = Stages.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v67).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_all m ρ)

/-- The same run, read for the arguments alone: every weakly fair execution terminates and leaves the thirteen
    argument arrays as it found them. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => (h c).2) (run m ρ)

end Cert.ReferenceIdeal.RefValue

end
-- ==== Proof.KerLayout.lean ====
/-
  The kernel program's layout stages read at an entry.

  A node array transposed and zero-padded from 200000 to 200704 columns reads, at a column below 200000, the node's
  own entry; the first 200000 columns of a feature-by-node array transposed back read the entry with the coordinates
  exchanged; a bias vector as a column, a transposed weight matrix and a flat row likewise. Nothing is said about
  the padding columns: the slice after each region drops them.
-/
import proofs.«104349_j31988916420624_1_alg».proof.Proof.KerStages
import Idealize.ShloMosaic.Lib.Pipeline.Value
import Idealize.ShloMosaic.Lib.ValueLayout
import Idealize.ShloMosaic.Lib.KernelVsHost

noncomputable section

namespace Cert.KernelIdeal.Stages

open Cert.KernelIdeal Idealize.ShloMosaic Idealize.ShloMosaic.ValueIdx
open Cert.KernelIdeal.Facts₀ Cert.KernelIdeal.Facts

variable {F : FTy → Type} [FloatOps F] [Cert.KernelIdeal.Facts]

/-- Column `n < 200000` of the padded row of a one-feature node array is node `n`'s entry. -/
theorem padT1_apply (x : Arr F S200000x1 .f32) (n : Fin 200000) (n' : Fin 200704) (hn : n'.val = n.val) :
    padT1 x (ix2 (0 : Fin 1) n') = x (ix2 n (0 : Fin 1)) := by
  unfold padT1
  rw [pad_apply_of_inside ![0, 0] ![0, 704] ![0, 0] _ _ pads_S1x200000_S1x200704_000_07040 h_S_ (ix2 (0 : Fin 1) n')
    (ix2 (0 : Fin 1) n) (fun a => by
      match a with
      | ⟨0, _⟩ => rfl
      | ⟨1, _⟩ => show n'.val = 0 + n.val * (0 + 1); omega)]
  exact transpose_ix2_apply x transposes_S200000x1_S1x200000_1_0 (0 : Fin 1) n

/-- Entry (l, n) with `n < 200000` of the padded, transposed eight-feature node array is feature `l` of node `n`. -/
theorem padT8_apply (h : Arr F S200000x8 .f32) (l : Fin 8) (n : Fin 200000) (n' : Fin 200704) (hn : n'.val = n.val) :
    padT8 h (ix2 l n') = h (ix2 n l) := by
  unfold padT8
  rw [pad_apply_of_inside ![0, 0] ![0, 704] ![0, 0] _ _ pads_S8x200000_S8x200704_000_07040 h_S_ (ix2 l n')
    (ix2 l n) (fun a => by
      match a with
      | ⟨0, _⟩ => show l.val = 0 + l.val * (0 + 1); omega
      | ⟨1, _⟩ => show n'.val = 0 + n.val * (0 + 1); omega)]
  exact transpose_ix2_apply h transposes_S200000x8_S8x200000_1_0 l n

/-- Feature `j` of node `n` after the padding is dropped and the array transposed back. -/
theorem unpadT_apply (y : Arr F S8x200704 .f32) (n : Fin 200000) (j : Fin 8) (n' : Fin 200704) (hn : n'.val = n.val) :
    unpadT y (ix2 n j) = y (ix2 j n') := by
  unfold unpadT
  rw [transpose_ix2_apply _ transposes_S8x200000_S200000x8_1_0 n j]
  exact slice2_axis1_apply 0 y slices_S8x200704_S8x200000_0_0 j n n' (by omega)

/-- A bias vector as a column. -/
theorem col_apply (b : Arr F S8 .f32) (k : Fin 8) : col b (ix2 k (0 : Fin 1)) = b (ix1 k) := by
  unfold col
  exact shapeCast_apply b shapeCasts_S8_S8x1 (ix2 k (0 : Fin 1)) (ix1 k) (by
    rw [Shape.rowMajor_val_one, Shape.rowMajor_val_two]
    show k.val = k.val * 1 + 0
    omega)

/-- A transposed square weight matrix. -/
theorem tr88_apply (W : Arr F S8x8 .f32) (j k : Fin 8) : tr88 W (ix2 j k) = W (ix2 k j) :=
  transpose_ix2_apply W transposes_S8x8_S8x8_1_0 j k

/-- The first layer's one-row weight matrix as a column. -/
theorem trW1a_apply (W : Arr F S1x8 .f32) (k : Fin 8) :
    transpose S8x1 [1, 0] W transposes_S1x8_S8x1_1_0 (ix2 k (0 : Fin 1)) = W (ix2 (0 : Fin 1) k) :=
  transpose_ix2_apply W transposes_S1x8_S8x1_1_0 k (0 : Fin 1)

/-- The pooled features with the feature on the rows. -/
theorem trPool_apply (p : Arr F S1024x8 .f32) (k : Fin 8) (g : Fin 1024) :
    transpose S8x1024 [1, 0] p transposes_S1024x8_S8x1024_1_0 (ix2 k g) = p (ix2 g k) :=
  transpose_ix2_apply p transposes_S1024x8_S8x1024_1_0 k g

/-- The head's one-column weight matrix as a row. -/
theorem trWfc_apply (W : Arr F S8x1 .f32) (k : Fin 8) :
    transpose S1x8 [1, 0] W transposes_S8x1_S1x8_1_0 (ix2 (0 : Fin 1) k) = W (ix2 k (0 : Fin 1)) :=
  transpose_ix2_apply W transposes_S8x1_S1x8_1_0 (0 : Fin 1) k

/-- The head's bias as a one-by-one array. -/
theorem bfc_apply (b : Arr F S1 .f32) : shapeCast S1x1 b shapeCasts_S1_S1x1 (ix2 (0 : Fin 1) (0 : Fin 1)) = b (ix1 (0 : Fin 1)) :=
  shapeCast_a_1a_apply b shapeCasts_S1_S1x1 (0 : Fin 1) (0 : Fin 1)

/-- A one-row array made flat. -/
theorem flat_apply (v : Arr F S1x1024 .f32) (g : Fin 1024) :
    shapeCast S1024 v shapeCasts_S1x1024_S1024 (ix1 g) = v (ix2 (0 : Fin 1) g) :=
  shapeCast_1a_a_apply v shapeCasts_S1x1024_S1024 g

end Cert.KernelIdeal.Stages

end
-- ==== Proof.LibPlainDot.lean ====
/-
  Plain matrix products on the host, read at an entry.

  Dimension numbers of a product [N, K] × [K, M] → [N, M] are PLAIN when they contract the left operand's axis 1 against
  the right operand's axis 0, keep the left operand's axis 0 and the right operand's axis 1, and have no batch axis.
  For such dimension numbers the contraction has one axis of extent K, the operands are read at (p, k) and (k, q),
  and the host's product at entry (p, q) is the sum over k of l (p, k) · r (k, q) on the extended reals.
-/
import Idealize.ShloMosaic.PureOps.Ideal
import Idealize.ShloMosaic.PureOps.Ideal.Laws
import Idealize.ShloMosaic.Lib.ValueIdx
import proofs.«104349_j31988916420624_1_alg».proof.Proof.LibDotPlain

noncomputable section

open scoped BigOperators

namespace Cert.LibPlainDot

open Idealize.ShloMosaic Idealize.ShloMosaic.ValueIdx

variable {N K M : Nat} (D : DotDims ⟨2, ![N, K]⟩ ⟨2, ![K, M]⟩ ⟨2, ![N, M]⟩)

/-- What makes dimension numbers plain. -/
structure Plain : Prop where
  lc : D.lhsContracting = [1]
  rc : D.rhsContracting = [0]
  ln : D.lhsNonContracting = [0]
  rn : D.rhsNonContracting = [1]
  lb : D.lhsBatch = []
  rb : D.rhsBatch = []

variable {D}

theorem Plain.rank (h : Plain D) : D.contr.rank = 1 := by rw [D.rank_contr, h.lc]; rfl

theorem Plain.size (h : Plain D) : D.contr.size ⟨0, by rw [h.rank]; exact Nat.one_pos⟩ = K := by
  have hp : 0 < D.lhsContracting.length := by rw [h.lc]; exact Nat.one_pos
  rw [D.size_contr 0 hp]
  have : D.lhsContracting[0] = (1 : Fin 2) := by simp [h.lc]
  rw [this]; rfl

theorem Plain.l0 (h : Plain D) (i : (⟨2, ![N, M]⟩ : Shape).Idx) (k : D.contr.Idx) : (D.lhsIdx i k 0).val = (i 0).val := by
  unfold DotDims.lhsIdx
  simp only [h.lb, h.ln, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln])

theorem Plain.l1 (h : Plain D) (i : (⟨2, ![N, M]⟩ : Shape).Idx) (k : D.contr.Idx) :
    (D.lhsIdx i k 1).val = (k ⟨0, by rw [h.rank]; exact Nat.one_pos⟩).val := D.lhsIdx_val_of_single h.lc i k

theorem Plain.r0 (h : Plain D) (i : (⟨2, ![N, M]⟩ : Shape).Idx) (k : D.contr.Idx) :
    (D.rhsIdx i k 0).val = (k ⟨0, by rw [h.rank]; exact Nat.one_pos⟩).val := D.rhsIdx_val_of_single h.rc i k

theorem Plain.r1 (h : Plain D) (i : (⟨2, ![N, M]⟩ : Shape).Idx) (k : D.contr.Idx) : (D.rhsIdx i k 1).val = (i 1).val := by
  unfold DotDims.rhsIdx
  have h10 : ¬ ((1 : Fin 2) ∈ ([] : List (Fin 2))) := List.not_mem_nil
  simp only [h.rb, h.rn, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln, h.rn])

/-- The host's plain product at entry (p, q). -/
theorem hostDot_apply (h : Plain D) {φ₁ φ₂ : FTy} (prec : Option ContractPrecision) (l : FVec Ideal ⟨2, ![N, K]⟩ φ₁)
    (r : FVec Ideal ⟨2, ![K, M]⟩ φ₂) (p : Fin N) (q : Fin M) :
    Host.dotGeneral D prec l r (ix2 p q) = ∑ k : Fin K, l (ix2 p k) * r (ix2 k q) := by
  simp only [Host.dotGeneral]
  rw [Ideal.dotGeneral_apply]
  exact Cert.LibDotPlain.sum_contr_plain D h.rank h.size h.l0 h.l1 h.r0 h.r1 l r p q

/-- A matrix-unit plain product into a zero accumulator at entry (p, q). -/
theorem matmul_zero_apply (h : Plain D) {φ₁ φ₂ : FTy} (prec : Option ContractPrecision) (l : FVec Ideal ⟨2, ![N, K]⟩ φ₁)
    (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  Cert.LibDotPlain.matmul_zero_plain D h.rank h.size h.l0 h.l1 h.r0 h.r1 prec l r p q

end Cert.LibPlainDot

end
-- ==== Proof.RefLayout.lean ====
/-
  The reference's dense stages read at an entry, on the extended reals.

  A splat of the zero word reads 0 and of the word of 1.0 reads 1; a bias repeated on every row reads the bias; the
  host's products are plain sums over the contracted coordinate; jax's spelling of the exponential linear unit,
  `z` where `z > 0` and `1 · expm1 (z with the positive entries zeroed)` elsewhere, is `elu` (by cases on the
  comparison's bit: where it is one both are `z`, where it is zero the inner selection returns `z` and
  `1 · (exp z - 1) = exp z - 1`); and `1 / (1 + exp (-x))` is the logistic function by definition.
-/
import proofs.«104349_j31988916420624_1_alg».proof.Proof.RefStages
import proofs.«104349_j31988916420624_1_alg».proof.Proof.Dense
import proofs.«104349_j31988916420624_1_alg».proof.Proof.LibPlainDot
import proofs.«104349_j31988916420624_1_alg».proof.Proof.LibIndexCoords
import Idealize.ShloMosaic.Lib.Pipeline.Value
import Idealize.ShloMosaic.Lib.ValueLayout
import Idealize.ShloMosaic.Lib.IdealHost

noncomputable section

open scoped BigOperators

namespace Cert.ReferenceIdeal.Stages

open Cert.ReferenceIdeal Idealize.ShloMosaic Idealize.ShloMosaic.ValueIdx
open Cert.ReferenceIdeal.Facts₀ Cert.ReferenceIdeal.Facts

variable [Cert.ReferenceIdeal.Facts]

/-! ## Splats and biases -/

theorem zeros8_apply (i : S200000x8.Idx) : (zeros8 : Arr Ideal S200000x8 .f32) i = (0 : EReal) := by
  unfold zeros8
  rw [broadcastInDim_scalar_apply, constant_apply]
  exact Ideal.ofBits_zero_f32

theorem ones8_apply (i : S200000x8.Idx) : (ones8 : Arr Ideal S200000x8 .f32) i = (1 : EReal) := by
  unfold ones8
  rw [broadcastInDim_scalar_apply, constant_apply]
  exact ofBits_one_f32

theorem biasRows_apply {F : FTy → Type} [FloatOps F] (b : Arr F S8 .f32) (n : Fin 200000) (j : Fin 8) :
    biasRows b (ix2 n j) = b (ix1 j) := by
  unfold biasRows
  rw [broadcastInDim_apply ![0, 1] bcast_S1x8_S200000x8_0_1 _ (ix2 n j) (ix2 (0 : Fin 1) j) (fun a => by
      match a with
      | ⟨0, _⟩ => rfl
      | ⟨1, _⟩ => rfl)]
  exact broadcastInDim_apply ![1] bcast_S8_S1x8_1 b (ix2 (0 : Fin 1) j) (ix1 j) (fun a => by
      match a with
      | ⟨0, _⟩ => rfl)

/-! ## The activations -/

theorem relu_apply (z : Arr Ideal S200000x8 .f32) (i : S200000x8.Idx) : relu z i = max (z i) (0 : EReal) := by
  unfold relu
  rw [maximumf_apply, zeros8_apply]

/-- jax's spelling of the exponential linear unit on one extended real. -/
theorem elu_jax (y : EReal) :
    Scalar.select (FloatOps.cmpf (F := Ideal) (φ := .f32) .ogt y (0 : EReal)) y
      ((1 : EReal) * FloatOps.hostUnary (F := Ideal) (φ := .f32) .expm1
        (Scalar.select (FloatOps.cmpf (F := Ideal) (φ := .f32) .ogt y (0 : EReal)) (0 : EReal) y)) = Cert.Gin.elu y := by
  unfold Cert.Gin.elu
  generalize FloatOps.cmpf (F := Ideal) (φ := .f32) .ogt y (0 : EReal) = c
  rcases BitVec.eq_zero_or_eq_one c with h | h
  · subst h
    rw [select_zero, select_zero, select_zero, one_mul]
    rfl
  · subst h
    rw [select_one, select_one]

theorem eluH_apply (z : Arr Ideal S200000x8 .f32) (i : S200000x8.Idx) : eluH z i = Cert.Gin.elu (z i) := by
  unfold eluH
  rw [select_apply, cmpf_apply, mulf_apply, ones8_apply, zeros8_apply]
  simp only [Host.expm1]
  rw [select_apply, cmpf_apply, zeros8_apply]
  exact elu_jax (z i)

/-! ## The host's pointwise operations at an entry -/

theorem hostDivf_at {s : Shape} (x y : FVec Ideal s .f32) (i : s.Idx) : Host.divf x y i = FloatOps.hostDivf (x i) (y i) := rfl
theorem hostExp_at {s : Shape} (x : FVec Ideal s .f32) (i : s.Idx) : Host.exp x i = FloatOps.hostUnary .exp (x i) := rfl
theorem hostNegf_at {s : Shape} (x : FVec Ideal s .f32) (i : s.Idx) : Host.negf x i = FloatOps.hostNegf (x i) := rfl

/-! ## The products -/

theorem plain1 : Cert.LibPlainDot.Plain dot_S200000x1_S1x8_S200000x8_1_0_0_1_n_n := ⟨rfl, rfl, rfl, rfl, rfl, rfl⟩
theorem plain8 : Cert.LibPlainDot.Plain dot_S200000x8_S8x8_S200000x8_1_0_0_1_n_n := ⟨rfl, rfl, rfl, rfl, rfl, rfl⟩
theorem plainG : Cert.LibPlainDot.Plain dot_S1024x8_S8x1_S1024x1_1_0_0_1_n_n := ⟨rfl, rfl, rfl, rfl, rfl, rfl⟩

/-! ## The stages -/

/-- The first layer at feature `j` of node `n`. -/
theorem dense1_apply (x agg : Arr Ideal S200000x1 .f32) (W1a : Arr Ideal S1x8 .f32) (b1a : Arr Ideal S8 .f32)
    (W1b : Arr Ideal S8x8 .f32) (b1b : Arr Ideal S8 .f32) (n : Fin 200000) (j : Fin 8) :
    dense1 x agg W1a b1a W1b b1b (ix2 n j)
      = Cert.Gin.elu ((∑ k : Fin 8, max ((x (ix2 n (0 : Fin 1)) + agg (ix2 n (0 : Fin 1))) * W1a (ix2 (0 : Fin 1) k) + b1a (ix1 k)) (0 : EReal)
          * W1b (ix2 k j)) + b1b (ix1 j)) := by
  unfold dense1
  rw [eluH_apply, addf_apply, biasRows_apply, Cert.LibPlainDot.hostDot_apply plain8]
  refine congrArg Cert.Gin.elu (congrArg (· + b1b (ix1 j)) (Finset.sum_congr rfl fun k _ => ?_))
  rw [relu_apply, addf_apply, biasRows_apply, Cert.LibPlainDot.hostDot_apply plain1, Fin.sum_univ_one, addf_apply]

/-- The second layer at feature `j` of node `n`. -/
theorem dense2_apply (h agg : Arr Ideal S200000x8 .f32) (W2a : Arr Ideal S8x8 .f32) (b2a : Arr Ideal S8 .f32)
    (W2b : Arr Ideal S8x8 .f32) (b2b : Arr Ideal S8 .f32) (n : Fin 200000) (j : Fin 8) :
    dense2 h agg W2a b2a W2b b2b (ix2 n j)
      = (∑ k : Fin 8, max ((∑ l : Fin 8, (h (ix2 n l) + agg (ix2 n l)) * W2a (ix2 l k)) + b2a (ix1 k)) (0 : EReal) * W2b (ix2 k j))
          + b2b (ix1 j) := by
  unfold dense2
  rw [addf_apply, biasRows_apply, Cert.LibPlainDot.hostDot_apply plain8]
  refine congrArg (· + b2b (ix1 j)) (Finset.sum_congr rfl fun k _ => ?_)
  rw [relu_apply, addf_apply, biasRows_apply, Cert.LibPlainDot.hostDot_apply plain8]
  refine congrArg (fun s => max (s + b2a (ix1 k)) (0 : EReal) * W2b (ix2 k j)) (Finset.sum_congr rfl fun l _ => ?_)
  rw [addf_apply]

/-- The head at graph `g`. -/
theorem head_apply (p : Arr Ideal S1024x8 .f32) (Wfc : Arr Ideal S8x1 .f32) (bfc : Arr Ideal S1 .f32) (g : Fin 1024) :
    head p Wfc bfc (ix1 g) = Ideal.logistic ((∑ k : Fin 8, p (ix2 g k) * Wfc (ix2 k (0 : Fin 1))) + bfc (ix1 (0 : Fin 1))) := by
  unfold head
  rw [shapeCast_apply _ shapeCasts_S1024x1_S1024 (ix1 g) (ix2 g (0 : Fin 1)) (by
    rw [Shape.rowMajor_val_one, Shape.rowMajor_val_two]
    show g.val * 1 + 0 = g.val
    omega)]
  rw [hostDivf_at, addf_apply, hostExp_at, hostNegf_at, addf_apply, broadcastInDim_scalar_apply, constant_apply, ofBits_one_f32,
    Cert.LibPlainDot.hostDot_apply plainG,
    broadcastInDim_apply ![0, 1] bcast_S1x1_S1024x1_0_1 _ (ix2 g (0 : Fin 1)) (ix2 (0 : Fin 1) (0 : Fin 1)) (fun a => by
      match a with
      | ⟨0, _⟩ => rfl
      | ⟨1, _⟩ => rfl),
    broadcastInDim_apply ![1] bcast_S1_S1x1_1 bfc (ix2 (0 : Fin 1) (0 : Fin 1)) (ix1 (0 : Fin 1)) (fun a => by
      match a with
      | ⟨0, _⟩ => rfl)]
  rfl

end Cert.ReferenceIdeal.Stages

end
-- ==== Proof.Bridge.lean ====
/-
  The kernel program's result term is the reference's.

  Stage by stage. The neighbour sums and the per-graph mean are the same host operations on both sides. Each dense
  stage of the kernel program — the padded, transposed operands through the stage's array, the padding dropped, the
  array transposed back — is, at feature `j` of node `n`, the reference's entry: the padding never reaches a kept
  column, every layout step only renames coordinates, the one-term contraction of the first layer's first product is
  its term, and the factors of each product stand in the other order (the product of extended reals commutes, at
  the infinities too; no sum is regrouped and nothing is distributed, so finiteness is not used).
-/
import proofs.«104349_j31988916420624_1_alg».proof.Proof.KerLayout
import proofs.«104349_j31988916420624_1_alg».proof.Proof.RefLayout

noncomputable section

open scoped BigOperators

namespace Cert.GinBridge

open Idealize.ShloMosaic Idealize.ShloMosaic.ValueIdx

variable [Cert.KernelIdeal.Facts] [Cert.ReferenceIdeal.Facts]

/-! ## The shared host chains -/

theorem aggregate1_eq (x : Cert.KernelIdeal.Stages.Arr Ideal Cert.KernelIdeal.S200000x1 .f32)
    (ei : Cert.KernelIdeal.Stages.Arr Ideal Cert.KernelIdeal.S2x6400000 .i32) :
    Cert.KernelIdeal.Stages.aggregate1 x ei = Cert.ReferenceIdeal.Stages.aggregate1 x ei := rfl

theorem aggregate8_eq (h : Cert.KernelIdeal.Stages.Arr Ideal Cert.KernelIdeal.S200000x8 .f32)
    (ei : Cert.KernelIdeal.Stages.Arr Ideal Cert.KernelIdeal.S2x6400000 .i32) :
    Cert.KernelIdeal.Stages.aggregate8 h ei = Cert.ReferenceIdeal.Stages.aggregate8 h ei := rfl

theorem pooled_eq (h2 : Cert.KernelIdeal.Stages.Arr Ideal Cert.KernelIdeal.S200000x8 .f32)
    (batch : Cert.KernelIdeal.Stages.Arr Ideal Cert.KernelIdeal.S200000 .i32) :
    Cert.KernelIdeal.Stages.pooled h2 batch = Cert.ReferenceIdeal.Stages.pooled h2 batch := rfl

/-! ## The dense stages -/

/-- The first layer. -/
theorem layer1_eq (x agg : Cert.KernelIdeal.Stages.Arr Ideal Cert.KernelIdeal.S200000x1 .f32)
    (W1a : Cert.KernelIdeal.Stages.Arr Ideal Cert.KernelIdeal.S1x8 .f32) (b1a : Cert.KernelIdeal.Stages.Arr Ideal Cert.KernelIdeal.S8 .f32)
    (W1b : Cert.KernelIdeal.Stages.Arr Ideal Cert.KernelIdeal.S8x8 .f32) (b1b : Cert.KernelIdeal.Stages.Arr Ideal Cert.KernelIdeal.S8 .f32) :
    Cert.KernelIdeal.Stages.layer1 x agg W1a b1a W1b b1b = Cert.ReferenceIdeal.Stages.dense1 x agg W1a b1a W1b b1b := by
  funext i
  obtain ⟨n, j, rfl⟩ : ∃ (n : Fin 200000) (j : Fin 8), i = ix2 n j := ⟨i 0, i 1, eq_ix2 i⟩
  rw [Cert.ReferenceIdeal.Stages.dense1_apply]
  unfold Cert.KernelIdeal.Stages.layer1
  rw [Cert.KernelIdeal.Stages.unpadT_apply _ n j ⟨n.val, by omega⟩ rfl, Cert.Gin.G0_apply]
  unfold Cert.Gin.g0
  rw [Cert.KernelIdeal.Stages.col_apply]
  refine congrArg Cert.Gin.elu (congrArg (· + b1b (ix1 j)) (Finset.sum_congr rfl fun k _ => ?_))
  rw [Cert.KernelIdeal.Stages.tr88_apply, Cert.KernelIdeal.Stages.trW1a_apply,
    Cert.KernelIdeal.Stages.padT1_apply x n _ rfl, Cert.KernelIdeal.Stages.padT1_apply agg n _ rfl,
    Cert.KernelIdeal.Stages.col_apply, mul_comm (W1b (ix2 k j)), mul_comm (W1a (ix2 (0 : Fin 1) k))]

/-- The second layer. -/
theorem layer2_eq (h agg : Cert.KernelIdeal.Stages.Arr Ideal Cert.KernelIdeal.S200000x8 .f32)
    (W2a : Cert.KernelIdeal.Stages.Arr Ideal Cert.KernelIdeal.S8x8 .f32) (b2a : Cert.KernelIdeal.Stages.Arr Ideal Cert.KernelIdeal.S8 .f32)
    (W2b : Cert.KernelIdeal.Stages.Arr Ideal Cert.KernelIdeal.S8x8 .f32) (b2b : Cert.KernelIdeal.Stages.Arr Ideal Cert.KernelIdeal.S8 .f32) :
    Cert.KernelIdeal.Stages.layer2 h agg W2a b2a W2b b2b = Cert.ReferenceIdeal.Stages.dense2 h agg W2a b2a W2b b2b := by
  funext i
  obtain ⟨n, j, rfl⟩ : ∃ (n : Fin 200000) (j : Fin 8), i = ix2 n j := ⟨i 0, i 1, eq_ix2 i⟩
  rw [Cert.ReferenceIdeal.Stages.dense2_apply]
  unfold Cert.KernelIdeal.Stages.layer2
  rw [Cert.KernelIdeal.Stages.unpadT_apply _ n j ⟨n.val, by omega⟩ rfl, Cert.Gin.G1_apply]
  unfold Cert.Gin.g1
  rw [Cert.KernelIdeal.Stages.col_apply]
  refine congrArg (· + b2b (ix1 j)) (Finset.sum_congr rfl fun k _ => ?_)
  rw [Cert.KernelIdeal.Stages.tr88_apply, Cert.KernelIdeal.Stages.col_apply, mul_comm (W2b (ix2 k j))]
  refine congrArg (fun s => max (s + b2a (ix1 k)) (0 : EReal) * W2b (ix2 k j)) (Finset.sum_congr rfl fun l _ => ?_)
  rw [Cert.KernelIdeal.Stages.tr88_apply, Cert.KernelIdeal.Stages.padT8_apply h l n _ rfl,
    Cert.KernelIdeal.Stages.padT8_apply agg l n _ rfl, mul_comm (W2a (ix2 l k))]

/-- The head. -/
theorem head_eq (p : Cert.KernelIdeal.Stages.Arr Ideal Cert.KernelIdeal.S1024x8 .f32)
    (Wfc : Cert.KernelIdeal.Stages.Arr Ideal Cert.KernelIdeal.S8x1 .f32) (bfc : Cert.KernelIdeal.Stages.Arr Ideal Cert.KernelIdeal.S1 .f32) :
    Cert.KernelIdeal.Stages.headK p Wfc bfc = Cert.ReferenceIdeal.Stages.head p Wfc bfc := by
  funext i
  obtain ⟨g, rfl⟩ : ∃ g : Fin 1024, i = ix1 g := ⟨i 0, eq_ix1 i⟩
  rw [Cert.ReferenceIdeal.Stages.head_apply]
  unfold Cert.KernelIdeal.Stages.headK
  refine (Cert.KernelIdeal.Stages.flat_apply (F := Ideal) _ g).trans ?_
  rw [Cert.Gin.G2_apply]
  unfold Cert.Gin.g2
  rw [Cert.KernelIdeal.Stages.bfc_apply (F := Ideal)]
  refine congrArg (fun s => Ideal.logistic (s + bfc (ix1 (0 : Fin 1)))) (Finset.sum_congr rfl fun k _ => ?_)
  rw [Cert.KernelIdeal.Stages.trWfc_apply (F := Ideal), Cert.KernelIdeal.Stages.trPool_apply (F := Ideal), mul_comm]

/-! ## The results -/

/-- The kernel program's result of its arguments is the reference's. -/
theorem kerOut_eq (x : Cert.KernelIdeal.Stages.Arr Ideal Cert.KernelIdeal.S200000x1 .f32)
    (ei : Cert.KernelIdeal.Stages.Arr Ideal Cert.KernelIdeal.S2x6400000 .i32)
    (batch : Cert.KernelIdeal.Stages.Arr Ideal Cert.KernelIdeal.S200000 .i32)
    (W1a : Cert.KernelIdeal.Stages.Arr Ideal Cert.KernelIdeal.S1x8 .f32) (b1a : Cert.KernelIdeal.Stages.Arr Ideal Cert.KernelIdeal.S8 .f32)
    (W1b : Cert.KernelIdeal.Stages.Arr Ideal Cert.KernelIdeal.S8x8 .f32) (b1b : Cert.KernelIdeal.Stages.Arr Ideal Cert.KernelIdeal.S8 .f32)
    (W2a : Cert.KernelIdeal.Stages.Arr Ideal Cert.KernelIdeal.S8x8 .f32) (b2a : Cert.KernelIdeal.Stages.Arr Ideal Cert.KernelIdeal.S8 .f32)
    (W2b : Cert.KernelIdeal.Stages.Arr Ideal Cert.KernelIdeal.S8x8 .f32) (b2b : Cert.KernelIdeal.Stages.Arr Ideal Cert.KernelIdeal.S8 .f32)
    (Wfc : Cert.KernelIdeal.Stages.Arr Ideal Cert.KernelIdeal.S8x1 .f32) (bfc : Cert.KernelIdeal.Stages.Arr Ideal Cert.KernelIdeal.S1 .f32) :
    Cert.KernelIdeal.Stages.kerOut x ei batch W1a b1a W1b b1b W2a b2a W2b b2b Wfc bfc
      = Cert.ReferenceIdeal.Stages.refOut x ei batch W1a b1a W1b b1b W2a b2a W2b b2b Wfc bfc := by
  unfold Cert.KernelIdeal.Stages.kerOut Cert.ReferenceIdeal.Stages.refOut
  rw [aggregate1_eq, layer1_eq, aggregate8_eq, layer2_eq, pooled_eq, head_eq]

end Cert.GinBridge

end
-- ==== Proof.lean ====
/-
  A two-layer graph-isomorphism network with mean pooling and a logistic head: the kernel program against the plain
  reference, over the extended reals.

  Both programs gather each edge's source row, sum the gathered rows at the edge's destination, and pool the node rows of
  each graph by the same host operations. They differ in where the three dense stages run. The reference computes
  each on the host, node on the rows: (x + agg)·W₁ + b₁, the maximum with zero, ·W₂ + b₂ (after the first layer the
  exponential linear unit; after the pooling p·w + b through 1 / (1 + exp (-x))). The kernel program transposes the
  node arrays, pads their 200000 columns with zeros to 49 blocks of 4096, computes the stage one block of columns at a
  time with the weights transposed, and drops the padding and transposes back.

  The proof reads both runs as terms of the thirteen arguments. On the kernel program's side the run is the launch
  over @main's segments with every buffer named at every boundary (KerRun), each boundary read back through the host
  lines and the three regions' write-backs (KerReadLines, KerRead, KerValue), each region's output array being ONE
  function of its operand arrays (Region0, Region1, Region2: the block's payload at an entry, the blocks' index maps,
  the cover of the array by the 49 blocks — or by the head's one block). On the reference's side the run is the
  straight line of its 98 host operations (RefRun) read back stage by stage (RefRead). The two terms are equal
  (Bridge): the shared host chains are the same terms, and each dense stage agrees entry by entry — the padding never
  reaches a kept column, the layout steps rename coordinates, and the factors of each product stand in the other
  order. Only commutativity of the product of extended reals is used, so the precondition (finite inputs) is
  never opened. Nothing was rewritten when the kernel program was idealized, so the idealization claim is trivial,
  and the three frame claims are the generated frames (the reference's: its run with the result dropped).
-/
import proofs.«104349_j31988916420624_1_alg».proof.Defs
import proofs.«104349_j31988916420624_1_alg».proof.Proof.Gen.Kernel
import proofs.«104349_j31988916420624_1_alg».proof.Proof.Gen.Kernel.Frame
import proofs.«104349_j31988916420624_1_alg».proof.Proof.Gen.KernelIdeal
import proofs.«104349_j31988916420624_1_alg».proof.Proof.Gen.KernelIdeal.Frame
import proofs.«104349_j31988916420624_1_alg».proof.Proof.Gen.ReferenceIdeal
import proofs.«104349_j31988916420624_1_alg».proof.Proof.Gen.Pre_finite_inputs
import proofs.«104349_j31988916420624_1_alg».proof.Proof.KerValue
import proofs.«104349_j31988916420624_1_alg».proof.Proof.Region0
import proofs.«104349_j31988916420624_1_alg».proof.Proof.Region1
import proofs.«104349_j31988916420624_1_alg».proof.Proof.Region2
import proofs.«104349_j31988916420624_1_alg».proof.Proof.RefRead
import proofs.«104349_j31988916420624_1_alg».proof.Proof.Bridge

noncomputable section

namespace Cert.Proof

open Idealize.ShloMosaic Idealize.ShloMosaic.TcCoe Idealize.SL.Sem

/-- Every weakly fair execution of the kernel program terminates and leaves its arguments as launched. -/
theorem frame_kernel : Cert.frame_Kernel := fun m ρ _ => Cert.Kernel.Gen.frame m ρ

/-- The same at the exact instance. -/
theorem frame_kernelIdeal : Cert.frame_KernelIdeal := fun m ρ _ => Cert.KernelIdeal.Gen.frame m ρ

/-- The reference's run, read for its arguments alone. -/
theorem frame_referenceIdeal : Cert.frame_ReferenceIdeal := fun m ρ _ => Cert.ReferenceIdeal.RefValue.frame m ρ

/-- The idealization rewrote nothing. -/
theorem preserves : Cert.preserves_Kernel_KernelIdeal := trivial

/-- From memories that agree on the arguments both programs end with the same 1024 extended reals: the kernel
    program's result term of its arguments, which is the reference's of the same arguments. -/
theorem algebraic : Cert.algebraic_KernelIdeal_ReferenceIdeal := by
  intro m ρ m' ρ' _ hagree
  refine ⟨_, Cert.KernelIdeal.RunValue.run m ρ Cert.KernelIdeal.RegionValue.arr0 Cert.KernelIdeal.RegionValue.arr1
    Cert.KernelIdeal.RegionValue.arr2, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2]
  exact (Cert.GinBridge.kerOut_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
